-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x13 : Shape := ⟨2, ![4096, 13]⟩
abbrev S4096x26 : Shape := ⟨2, ![4096, 26]⟩
abbrev S26x100000x16 : Shape := ⟨3, ![26, 100000, 16]⟩
abbrev S16x16 : Shape := ⟨2, ![16, 16]⟩
abbrev S16 : Shape := ⟨1, ![16]⟩
abbrev S16x1 : Shape := ⟨2, ![16, 1]⟩
abbrev S13x1 : Shape := ⟨2, ![13, 1]⟩
abbrev S416x1 : Shape := ⟨2, ![416, 1]⟩
abbrev S1 : Shape := ⟨1, ![1]⟩
abbrev S_ : Shape := ⟨0, ![]⟩

class Facts : Prop where
  bcast_S_S4096x13 : S_.BroadcastsInDim S4096x13 (![] : Fin 0 → Fin S4096x13.rank)
  reducesTo_S4096x13_S_d0_1 : S4096x13.ReducesTo [0, 1] S_
  h_S_ : 0 < S_.numel
  bcast_S_S26x100000x16 : S_.BroadcastsInDim S26x100000x16 (![] : Fin 0 → Fin S26x100000x16.rank)
  reducesTo_S26x100000x16_S_d0_1_2 : S26x100000x16.ReducesTo [0, 1, 2] S_
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S13x1 : S_.BroadcastsInDim S13x1 (![] : Fin 0 → Fin S13x1.rank)
  reducesTo_S13x1_S_d0_1 : S13x1.ReducesTo [0, 1] S_
  bcast_S_S416x1 : S_.BroadcastsInDim S416x1 (![] : Fin 0 → Fin S416x1.rank)
  reducesTo_S416x1_S_d0_1 : S416x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S416x1 .f32) (main_arg9 : FVec F S1 .f32) (main_v33 : IVec S_ 1) : IVec S_ 1 :=
  let main_v34 : FVec F S416x1 .f32 := Host.absf main_arg8
  let main_cst_12 : FVec F S_ .f32 := constant S_ .f32 0x7F800000#32
  let main_v35 : FVec F S416x1 .f32 := broadcastInDim S416x1 ![] bcast_S_S416x1 main_cst_12
  let main_v36 : IVec S416x1 1 := cmpf .olt main_v34 main_v35
  let main_c_13 : IVec S_ 1 := constantI S_ 1 1#1
  let main_v37 : IVec S_ 1 := (fun x v => Host.reduce IntOp.andi x v reducesTo_S416x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S16x1 .f32) (main_arg6 : FVec F S16x1 .f32) (main_arg7 : FVec F S13x1 .f32) (main_arg8 : FVec F S416x1 .f32) (main_arg9 : FVec F S1 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x1 .f32 := Host.absf main_arg5
  let main_cst_6 : FVec F S_ .f32 := constant S_ .f32 0x7F800000#32
  let main_v20 : FVec F S16x1 .f32 := broadcastInDim S16x1 ![] bcast_S_S16x1 main_cst_6
  let main_v21 : IVec S16x1 1 := cmpf .olt main_v19 main_v20
  let main_c_7 : IVec S_ 1 := constantI S_ 1 1#1
  let main_v22 : IVec S_ 1 := (fun x v => Host.reduce IntOp.andi x v reducesTo_S16x1_S_d0_1 h_S_) main_v21 main_c_7
  let main_v23 : IVec S_ 1 := andi main_v18 main_v22
  let main_v24 : FVec F S16x1 .f32 := Host.absf main_arg6
  let main_cst_8 : FVec F S_ .f32 := constant S_ .f32 0x7F800000#32
  let main_v25 : FVec F S16x1 .f32 := broadcastInDim S16x1 ![] bcast_S_S16x1 main_cst_8
  let main_v26 : IVec S16x1 1 := cmpf .olt main_v24 main_v25
  let main_c_9 : IVec S_ 1 := constantI S_ 1 1#1
  let main_v27 : IVec S_ 1 := (fun x v => Host.reduce IntOp.andi x v reducesTo_S16x1_S_d0_1 h_S_) main_v26 main_c_9
  let main_v28 : IVec S_ 1 := andi main_v23 main_v27
  let main_v29 : FVec F S13x1 .f32 := Host.absf main_arg7
  let main_cst_10 : FVec F S_ .f32 := constant S_ .f32 0x7F800000#32
  let main_v30 : FVec F S13x1 .f32 := broadcastInDim S13x1 ![] bcast_S_S13x1 main_cst_10
  let main_v31 : IVec S13x1 1 := cmpf .olt main_v29 main_v30
  let main_c_11 : IVec S_ 1 := constantI S_ 1 1#1
  let main_v32 : IVec S_ 1 := (fun x v => Host.reduce IntOp.andi x v reducesTo_S13x1_S_d0_1 h_S_) main_v31 main_c_11
  let main_v33 : IVec S_ 1 := andi main_v28 main_v32
  fn_part2 (F := F) main_arg8 main_arg9 main_v33

def fn {F : FTy → Type} [FloatOps F] (main_arg0 : FVec F S4096x13 .f32) (main_arg1 : IVec S4096x26 32) (main_arg2 : FVec F S26x100000x16 .f32) (main_arg3 : FVec F S16x16 .f32) (main_arg4 : FVec F S16 .f32) (main_arg5 : FVec F S16x1 .f32) (main_arg6 : FVec F S16x1 .f32) (main_arg7 : FVec F S13x1 .f32) (main_arg8 : FVec F S416x1 .f32) (main_arg9 : FVec F S1 .f32) : IVec S_ 1 :=
  let main_v0 : FVec F S4096x13 .f32 := Host.absf main_arg0
  let main_cst : FVec F S_ .f32 := constant S_ .f32 0x7F800000#32
  let main_v1 : FVec F S4096x13 .f32 := broadcastInDim S4096x13 ![] bcast_S_S4096x13 main_cst
  let main_v2 : IVec S4096x13 1 := cmpf .olt main_v0 main_v1
  let main_c : IVec S_ 1 := constantI S_ 1 1#1
  let main_v3 : IVec S_ 1 := (fun x v => Host.reduce IntOp.andi x v reducesTo_S4096x13_S_d0_1 h_S_) main_v2 main_c
  let main_v4 : FVec F S26x100000x16 .f32 := Host.absf main_arg2
  let main_cst_0 : FVec F S_ .f32 := constant S_ .f32 0x7F800000#32
  let main_v5 : FVec F S26x100000x16 .f32 := broadcastInDim S26x100000x16 ![] bcast_S_S26x100000x16 main_cst_0
  let main_v6 : IVec S26x100000x16 1 := cmpf .olt main_v4 main_v5
  let main_c_1 : IVec S_ 1 := constantI S_ 1 1#1
  let main_v7 : IVec S_ 1 := (fun x v => Host.reduce IntOp.andi x v reducesTo_S26x100000x16_S_d0_1_2 h_S_) main_v6 main_c_1
  let main_v8 : IVec S_ 1 := andi main_v3 main_v7
  let main_v9 : FVec F S16x16 .f32 := Host.absf main_arg3
  let main_cst_2 : FVec F S_ .f32 := constant S_ .f32 0x7F800000#32
  let main_v10 : FVec F S16x16 .f32 := broadcastInDim S16x16 ![] bcast_S_S16x16 main_cst_2
  let main_v11 : IVec S16x16 1 := cmpf .olt main_v9 main_v10
  let main_c_3 : IVec S_ 1 := constantI S_ 1 1#1
  let main_v12 : IVec S_ 1 := (fun x v => Host.reduce IntOp.andi x v reducesTo_S16x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_arg8 main_arg9 main_v13 main_v16
-- ==== Kernel.lean ====
abbrev S4096x13 : Shape := ⟨2, ![4096, 13]⟩
abbrev S4096x26 : Shape := ⟨2, ![4096, 26]⟩
abbrev S26x100000x16 : Shape := ⟨3, ![26, 100000, 16]⟩
abbrev S16x16 : Shape := ⟨2, ![16, 16]⟩
abbrev S16 : Shape := ⟨1, ![16]⟩
abbrev S16x1 : Shape := ⟨2, ![16, 1]⟩
abbrev S13x1 : Shape := ⟨2, ![13, 1]⟩
abbrev S416x1 : Shape := ⟨2, ![416, 1]⟩
abbrev S1 : Shape := ⟨1, ![1]⟩
abbrev S26 : Shape := ⟨1, ![26]⟩
abbrev S1x26 : Shape := ⟨2, ![1, 26]⟩
abbrev S_ : Shape := ⟨0, ![]⟩
abbrev S4096x26x1 : Shape := ⟨3, ![4096, 26, 1]⟩
abbrev S4096x26x2 : Shape := ⟨3, ![4096, 26, 2]⟩
abbrev S4096x26x16 : Shape := ⟨3, ![4096, 26, 16]⟩
abbrev S26x16x4096 : Shape := ⟨3, ![26, 16, 4096]⟩
abbrev S13x4096 : Shape := ⟨2, ![13, 4096]⟩
abbrev S26x16 : Shape := ⟨2, ![26, 16]⟩
abbrev S1x1 : Shape := ⟨2, ![1, 1]⟩
abbrev S1x4096 : Shape := ⟨2, ![1, 4096]⟩
abbrev S26x16x256 : Shape := ⟨3, ![26, 16, 256]⟩
abbrev S13x256 : Shape := ⟨2, ![13, 256]⟩
abbrev S1x256 : Shape := ⟨2, ![1, 256]⟩
abbrev S325x16x256 : Shape := ⟨3, ![325, 16, 256]⟩
abbrev S1x16x256 : Shape := ⟨3, ![1, 16, 256]⟩
abbrev S16x256 : Shape := ⟨2, ![16, 256]⟩
abbrev S25x16x256 : Shape := ⟨3, ![25, 16, 256]⟩
abbrev S24x16x256 : Shape := ⟨3, ![24, 16, 256]⟩
abbrev S23x16x256 : Shape := ⟨3, ![23, 16, 256]⟩
abbrev S22x16x256 : Shape := ⟨3, ![22, 16, 256]⟩
abbrev S21x16x256 : Shape := ⟨3, ![21, 16, 256]⟩
abbrev S20x16x256 : Shape := ⟨3, ![20, 16, 256]⟩
abbrev S19x16x256 : Shape := ⟨3, ![19, 16, 256]⟩
abbrev S18x16x256 : Shape := ⟨3, ![18, 16, 256]⟩
abbrev S17x16x256 : Shape := ⟨3, ![17, 16, 256]⟩
abbrev S16x16x256 : Shape := ⟨3, ![16, 16, 256]⟩
abbrev S15x16x256 : Shape := ⟨3, ![15, 16, 256]⟩
abbrev S14x16x256 : Shape := ⟨3, ![14, 16, 256]⟩
abbrev S13x16x256 : Shape := ⟨3, ![13, 16, 256]⟩
abbrev S12x16x256 : Shape := ⟨3, ![12, 16, 256]⟩
abbrev S11x16x256 : Shape := ⟨3, ![11, 16, 256]⟩
abbrev S10x16x256 : Shape := ⟨3, ![10, 16, 256]⟩
abbrev S9x16x256 : Shape := ⟨3, ![9, 16, 256]⟩
abbrev S8x16x256 : Shape := ⟨3, ![8, 16, 256]⟩
abbrev S7x16x256 : Shape := ⟨3, ![7, 16, 256]⟩
abbrev S6x16x256 : Shape := ⟨3, ![6, 16, 256]⟩
abbrev S5x16x256 : Shape := ⟨3, ![5, 16, 256]⟩
abbrev S4x16x256 : Shape := ⟨3, ![4, 16, 256]⟩
abbrev S3x16x256 : Shape := ⟨3, ![3, 16, 256]⟩
abbrev S2x16x256 : Shape := ⟨3, ![2, 16, 256]⟩
abbrev S325x256 : Shape := ⟨2, ![325, 256]⟩
abbrev S1x16x1 : Shape := ⟨3, ![1, 16, 1]⟩
abbrev S256 : Shape := ⟨1, ![256]⟩
abbrev S325x1x256 : Shape := ⟨3, ![325, 1, 256]⟩
abbrev S26x16x1 : Shape := ⟨3, ![26, 16, 1]⟩
abbrev S26x256 : Shape := ⟨2, ![26, 256]⟩
abbrev S26x1x256 : Shape := ⟨3, ![26, 1, 256]⟩
abbrev S4096x1 : Shape := ⟨2, ![4096, 1]⟩

abbrev nBuf : Space → Nat
  | .hbm => 38
  | .vmem => 14
  | .smem => 0
  | _ => 0

abbrev bufTy : (tb : Table) → Fin (tcTables nBuf tb) → BufTy
  | .hbm, ⟨0, _⟩ => ⟨S4096x13, .f32⟩
  | .hbm, ⟨1, _⟩ => ⟨S4096x26, .i32⟩
  | .hbm, ⟨2, _⟩ => ⟨S26x100000x16, .f32⟩
  | .hbm, ⟨3, _⟩ => ⟨S16x16, .f32⟩
  | .hbm, ⟨4, _⟩ => ⟨S16, .f32⟩
  | .hbm, ⟨5, _⟩ => ⟨S16x1, .f32⟩
  | .hbm, ⟨6, _⟩ => ⟨S16x1, .f32⟩
  | .hbm, ⟨7, _⟩ => ⟨S13x1, .f32⟩
  | .hbm, ⟨8, _⟩ => ⟨S416x1, .f32⟩
  | .hbm, ⟨9, _⟩ => ⟨S1, .f32⟩
  | .hbm, ⟨10, _⟩ => ⟨S26, .i32⟩
  | .hbm, ⟨11, _⟩ => ⟨S1x26, .i32⟩
  | .hbm, ⟨12, _⟩ => ⟨S_, .i32⟩
  | .hbm, ⟨13, _⟩ => ⟨S1x26, .i32⟩
  | .hbm, ⟨14, _⟩ => ⟨S1x26, .i1⟩
  | .hbm, ⟨15, _⟩ => ⟨S_, .i32⟩
  | .hbm, ⟨16, _⟩ => ⟨S1x26, .i32⟩
  | .hbm, ⟨17, _⟩ => ⟨S1x26, .i32⟩
  | .hbm, ⟨18, _⟩ => ⟨S1x26, .i32⟩
  | .hbm, ⟨19, _⟩ => ⟨S_, .i32⟩
  | .hbm, ⟨20, _⟩ => ⟨S4096x26, .i32⟩
  | .hbm, ⟨21, _⟩ => ⟨S4096x26, .i1⟩
  | .hbm, ⟨22, _⟩ => ⟨S_, .i32⟩
  | .hbm, ⟨23, _⟩ => ⟨S4096x26, .i32⟩
  | .hbm, ⟨24, _⟩ => ⟨S4096x26, .i32⟩
  | .hbm, ⟨25, _⟩ => ⟨S4096x26, .i32⟩
  | .hbm, ⟨26, _⟩ => ⟨S4096x26, .i32⟩
  | .hbm, ⟨27, _⟩ => ⟨S4096x26x1, .i32⟩
  | .hbm, ⟨28, _⟩ => ⟨S4096x26x1, .i32⟩
  | .hbm, ⟨29, _⟩ => ⟨S4096x26x2, .i32⟩
  | .hbm, ⟨30, _⟩ => ⟨S4096x26x16, .f32⟩
  | .hbm, ⟨31, _⟩ => ⟨S26x16x4096, .f32⟩
  | .hbm, ⟨32, _⟩ => ⟨S13x4096, .f32⟩
  | .hbm, ⟨33, _⟩ => ⟨S16x1, .f32⟩
  | .hbm, ⟨34, _⟩ => ⟨S26x16, .f32⟩
  | .hbm, ⟨35, _⟩ => ⟨S1x1, .f32⟩
  | .hbm, ⟨36, _⟩ => ⟨S1x4096, .f32⟩
  | .hbm, ⟨37, _⟩ => ⟨S4096x1, .f32⟩
  | .local _ .vmem, ⟨0, _⟩ => ⟨S26x16x256, .f32⟩
  | .local _ .vmem, ⟨1, _⟩ => ⟨S26x16x256, .f32⟩
  | .local _ .vmem, ⟨2, _⟩ => ⟨S13x256, .f32⟩
  | .local _ .vmem, ⟨3, _⟩ => ⟨S13x256, .f32⟩
  | .local _ .vmem, ⟨4, _⟩ => ⟨S16x16, .f32⟩
  | .local _ .vmem, ⟨5, _⟩ => ⟨S16x1, .f32⟩
  | .local _ .vmem, ⟨6, _⟩ => ⟨S16x1, .f32⟩
  | .local _ .vmem, ⟨7, _⟩ => ⟨S16x1, .f32⟩
  | .local _ .vmem, ⟨8, _⟩ => ⟨S13x1, .f32⟩
  | .local _ .vmem, ⟨9, _⟩ => ⟨S26x16, .f32⟩
  | .local _ .vmem, ⟨10, _⟩ => ⟨S1x1, .f32⟩
  | .local _ .vmem, ⟨11, _⟩ => ⟨S1x256, .f32⟩
  | .local _ .vmem, ⟨12, _⟩ => ⟨S1x256, .f32⟩
  | .local _ .vmem, ⟨13, _⟩ => ⟨S325x16x256, .bf16⟩
  | _, _ => ⟨S4096x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S26x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S13x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S13x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S26x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S26_S1x26_1 : S26.BroadcastsInDim S1x26 (![1] : Fin 1 → Fin S1x26.rank)
  bcast_S_S1x26 : S_.BroadcastsInDim S1x26 (![] : Fin 0 → Fin S1x26.rank)
  bcast_S_S4096x26 : S_.BroadcastsInDim S4096x26 (![] : Fin 0 → Fin S4096x26.rank)
  bcast_S1x26_S4096x26_0_1 : S1x26.BroadcastsInDim S4096x26 (![0, 1] : Fin 2 → Fin S4096x26.rank)
  bcast_S4096x26_S4096x26x1_0_1 : S4096x26.BroadcastsInDim S4096x26x1 (![0, 1] : Fin 2 → Fin S4096x26x1.rank)
  concatenates_S4096x26x1_S4096x26x1_S4096x26x2_d2 : Shape.Concatenates [S4096x26x1, S4096x26x1] S4096x26x2 2
  transposes_S4096x26x16_S26x16x4096_1_2_0 : S4096x26x16.Transposes [1, 2, 0] S26x16x4096
  transposes_S4096x13_S13x4096_1_0 : S4096x13.Transposes [1, 0] S13x4096
  shapeCasts_S16_S16x1 : S16.ShapeCasts S16x1
  shapeCasts_S416x1_S26x16 : S416x1.ShapeCasts S26x16
  shapeCasts_S1_S1x1 : S1.ShapeCasts S1x1
  inb_S26x16x256_S1x16x256_0_0_0 : ∀ a, (![0, 0, 0] : Fin 3 → Nat) a + S1x16x256.size a ≤ S26x16x256.size a
  h_S1x16x256 : 0 < S1x16x256.numel
  shapeCasts_S1x16x256_S16x256 : S1x16x256.ShapeCasts S16x256
  inb_S26x16x256_S25x16x256_1_0_0 : ∀ a, (![1, 0, 0] : Fin 3 → Nat) a + S25x16x256.size a ≤ S26x16x256.size a
  h_S25x16x256 : 0 < S25x16x256.numel
  shapeCasts_S25x16x256_S25x16x256 : S25x16x256.ShapeCasts S25x16x256
  shapeCasts_S16x256_S1x16x256 : S16x256.ShapeCasts S1x16x256
  shapeCasts_S1x16x256_S1x16x256 : S1x16x256.ShapeCasts S1x16x256
  broadcasts_S1x16x256_S25x16x256 : S1x16x256.Broadcasts S25x16x256
  bitsLt_bf16_f32 : FTy.bits .bf16 < FTy.bits .f32
  inb_S325x16x256_S25x16x256_0_0_0 : ∀ a, (![0, 0, 0] : Fin 3 → Nat) a + S25x16x256.size a ≤ S325x16x256.size a
  packedbf16_S325x16x256_S25x16x256_0_0_0 : (Rect.unit (s := S325x16x256) ![0, 0, 0] S25x16x256.size inb_S325x16x256_S25x16x256_0_0_0).PackedRows (EltTy.packing .bf16)
  inb_S26x16x256_S1x16x256_1_0_0 : ∀ a, (![1, 0, 0] : Fin 3 → Nat) a + S1x16x256.size a ≤ S26x16x256.size a
  inb_S26x16x256_S24x16x256_2_0_0 : ∀ a, (![2, 0, 0] : Fin 3 → Nat) a + S24x16x256.size a ≤ S26x16x256.size a
  h_S24x16x256 : 0 < S24x16x256.numel
  shapeCasts_S24x16x256_S24x16x256 : S24x16x256.ShapeCasts S24x16x256
  broadcasts_S1x16x256_S24x16x256 : S1x16x256.Broadcasts S24x16x256
  inb_S325x16x256_S24x16x256_25_0_0 : ∀ a, (![25, 0, 0] : Fin 3 → Nat) a + S24x16x256.size a ≤ S325x16x256.size a
  packedbf16_S325x16x256_S24x16x256_25_0_0 : (Rect.unit (s := S325x16x256) ![25, 0, 0] S24x16x256.size inb_S325x16x256_S24x16x256_25_0_0).PackedRows (EltTy.packing .bf16)
  inb_S26x16x256_S1x16x256_2_0_0 : ∀ a, (![2, 0, 0] : Fin 3 → Nat) a + S1x16x256.size a ≤ S26x16x256.size a
  inb_S26x16x256_S23x16x256_3_0_0 : ∀ a, (![3, 0, 0] : Fin 3 → Nat) a + S23x16x256.size a ≤ S26x16x256.size a
  h_S23x16x256 : 0 < S23x16x256.numel
  shapeCasts_S23x16x256_S23x16x256 : S23x16x256.ShapeCasts S23x16x256
  broadcasts_S1x16x256_S23x16x256 : S1x16x256.Broadcasts S23x16x256
  inb_S325x16x256_S23x16x256_49_0_0 : ∀ a, (![49, 0, 0] : Fin 3 → Nat) a + S23x16x256.size a ≤ S325x16x256.size a
  packedbf16_S325x16x256_S23x16x256_49_0_0 : (Rect.unit (s := S325x16x256) ![49, 0, 0] S23x16x256.size inb_S325x16x256_S23x16x256_49_0_0).PackedRows (EltTy.packing .bf16)
  inb_S26x16x256_S1x16x256_3_0_0 : ∀ a, (![3, 0, 0] : Fin 3 → Nat) a + S1x16x256.size a ≤ S26x16x256.size a
  inb_S26x16x256_S22x16x256_4_0_0 : ∀ a, (![4, 0, 0] : Fin 3 → Nat) a + S22x16x256.size a ≤ S26x16x256.size a
  h_S22x16x256 : 0 < S22x16x256.numel
  shapeCasts_S22x16x256_S22x16x256 : S22x16x256.ShapeCasts S22x16x256
  broadcasts_S1x16x256_S22x16x256 : S1x16x256.Broadcasts S22x16x256
  inb_S325x16x256_S22x16x256_72_0_0 : ∀ a, (![72, 0, 0] : Fin 3 → Nat) a + S22x16x256.size a ≤ S325x16x256.size a
  packedbf16_S325x16x256_S22x16x256_72_0_0 : (Rect.unit (s := S325x16x256) ![72, 0, 0] S22x16x256.size inb_S325x16x256_S22x16x256_72_0_0).PackedRows (EltTy.packing .bf16)
  inb_S26x16x256_S1x16x256_4_0_0 : ∀ a, (![4, 0, 0] : Fin 3 → Nat) a + S1x16x256.size a ≤ S26x16x256.size a
  inb_S26x16x256_S21x16x256_5_0_0 : ∀ a, (![5, 0, 0] : Fin 3 → Nat) a + S21x16x256.size a ≤ S26x16x256.size a
  h_S21x16x256 : 0 < S21x16x256.numel
  shapeCasts_S21x16x256_S21x16x256 : S21x16x256.ShapeCasts S21x16x256
  broadcasts_S1x16x256_S21x16x256 : S1x16x256.Broadcasts S21x16x256
  inb_S325x16x256_S21x16x256_94_0_0 : ∀ a, (![94, 0, 0] : Fin 3 → Nat) a + S21x16x256.size a ≤ S325x16x256.size a
  packedbf16_S325x16x256_S21x16x256_94_0_0 : (Rect.unit (s := S325x16x256) ![94, 0, 0] S21x16x256.size inb_S325x16x256_S21x16x256_94_0_0).PackedRows (EltTy.packing .bf16)
  inb_S26x16x256_S1x16x256_5_0_0 : ∀ a, (![5, 0, 0] : Fin 3 → Nat) a + S1x16x256.size a ≤ S26x16x256.size a
  inb_S26x16x256_S20x16x256_6_0_0 : ∀ a, (![6, 0, 0] : Fin 3 → Nat) a + S20x16x256.size a ≤ S26x16x256.size a
  h_S20x16x256 : 0 < S20x16x256.numel
  shapeCasts_S20x16x256_S20x16x256 : S20x16x256.ShapeCasts S20x16x256
  broadcasts_S1x16x256_S20x16x256 : S1x16x256.Broadcasts S20x16x256
  inb_S325x16x256_S20x16x256_115_0_0 : ∀ a, (![115, 0, 0] : Fin 3 → Nat) a + S20x16x256.size a ≤ S325x16x256.size a
  packedbf16_S325x16x256_S20x16x256_115_0_0 : (Rect.unit (s := S325x16x256) ![115, 0, 0] S20x16x256.size inb_S325x16x256_S20x16x256_115_0_0).PackedRows (EltTy.packing .bf16)
  inb_S26x16x256_S1x16x256_6_0_0 : ∀ a, (![6, 0, 0] : Fin 3 → Nat) a + S1x16x256.size a ≤ S26x16x256.size a
  inb_S26x16x256_S19x16x256_7_0_0 : ∀ a, (![7, 0, 0] : Fin 3 → Nat) a + S19x16x256.size a ≤ S26x16x256.size a
  h_S19x16x256 : 0 < S19x16x256.numel
  shapeCasts_S19x16x256_S19x16x256 : S19x16x256.ShapeCasts S19x16x256
  broadcasts_S1x16x256_S19x16x256 : S1x16x256.Broadcasts S19x16x256
  inb_S325x16x256_S19x16x256_135_0_0 : ∀ a, (![135, 0, 0] : Fin 3 → Nat) a + S19x16x256.size a ≤ S325x16x256.size a
  packedbf16_S325x16x256_S19x16x256_135_0_0 : (Rect.unit (s := S325x16x256) ![135, 0, 0] S19x16x256.size inb_S325x16x256_S19x16x256_135_0_0).PackedRows (EltTy.packing .bf16)
  inb_S26x16x256_S1x16x256_7_0_0 : ∀ a, (![7, 0, 0] : Fin 3 → Nat) a + S1x16x256.size a ≤ S26x16x256.size a
  inb_S26x16x256_S18x16x256_8_0_0 : ∀ a, (![8, 0, 0] : Fin 3 → Nat) a + S18x16x256.size a ≤ S26x16x256.size a
  h_S18x16x256 : 0 < S18x16x256.numel
  shapeCasts_S18x16x256_S18x16x256 : S18x16x256.ShapeCasts S18x16x256
  broadcasts_S1x16x256_S18x16x256 : S1x16x256.Broadcasts S18x16x256
  inb_S325x16x256_S18x16x256_154_0_0 : ∀ a, (![154, 0, 0] : Fin 3 → Nat) a + S18x16x256.size a ≤ S325x16x256.size a
  packedbf16_S325x16x256_S18x16x256_154_0_0 : (Rect.unit (s := S325x16x256) ![154, 0, 0] S18x16x256.size inb_S325x16x256_S18x16x256_154_0_0).PackedRows (EltTy.packing .bf16)
  inb_S26x16x256_S1x16x256_8_0_0 : ∀ a, (![8, 0, 0] : Fin 3 → Nat) a + S1x16x256.size a ≤ S26x16x256.size a
  inb_S26x16x256_S17x16x256_9_0_0 : ∀ a, (![9, 0, 0] : Fin 3 → Nat) a + S17x16x256.size a ≤ S26x16x256.size a
  h_S17x16x256 : 0 < S17x16x256.numel
  shapeCasts_S17x16x256_S17x16x256 : S17x16x256.ShapeCasts S17x16x256
  broadcasts_S1x16x256_S17x16x256 : S1x16x256.Broadcasts S17x16x256
  inb_S325x16x256_S17x16x256_172_0_0 : ∀ a, (![172, 0, 0] : Fin 3 → Nat) a + S17x16x256.size a ≤ S325x16x256.size a
  packedbf16_S325x16x256_S17x16x256_172_0_0 : (Rect.unit (s := S325x16x256) ![172, 0, 0] S17x16x256.size inb_S325x16x256_S17x16x256_172_0_0).PackedRows (EltTy.packing .bf16)
  inb_S26x16x256_S1x16x256_9_0_0 : ∀ a, (![9, 0, 0] : Fin 3 → Nat) a + S1x16x256.size a ≤ S26x16x256.size a
  inb_S26x16x256_S16x16x256_10_0_0 : ∀ a, (![10, 0, 0] : Fin 3 → Nat) a + S16x16x256.size a ≤ S26x16x256.size a
  h_S16x16x256 : 0 < S16x16x256.numel
  shapeCasts_S16x16x256_S16x16x256 : S16x16x256.ShapeCasts S16x16x256
  broadcasts_S1x16x256_S16x16x256 : S1x16x256.Broadcasts S16x16x256
  inb_S325x16x256_S16x16x256_189_0_0 : ∀ a, (![189, 0, 0] : Fin 3 → Nat) a + S16x16x256.size a ≤ S325x16x256.size a
  packedbf16_S325x16x256_S16x16x256_189_0_0 : (Rect.unit (s := S325x16x256) ![189, 0, 0] S16x16x256.size inb_S325x16x256_S16x16x256_189_0_0).PackedRows (EltTy.packing .bf16)
  inb_S26x16x256_S1x16x256_10_0_0 : ∀ a, (![10, 0, 0] : Fin 3 → Nat) a + S1x16x256.size a ≤ S26x16x256.size a
  inb_S26x16x256_S15x16x256_11_0_0 : ∀ a, (![11, 0, 0] : Fin 3 → Nat) a + S15x16x256.size a ≤ S26x16x256.size a
  h_S15x16x256 : 0 < S15x16x256.numel
  shapeCasts_S15x16x256_S15x16x256 : S15x16x256.ShapeCasts S15x16x256
  broadcasts_S1x16x256_S15x16x256 : S1x16x256.Broadcasts S15x16x256
  inb_S325x16x256_S15x16x256_205_0_0 : ∀ a, (![205, 0, 0] : Fin 3 → Nat) a + S15x16x256.size a ≤ S325x16x256.size a
  packedbf16_S325x16x256_S15x16x256_205_0_0 : (Rect.unit (s := S325x16x256) ![205, 0, 0] S15x16x256.size inb_S325x16x256_S15x16x256_205_0_0).PackedRows (EltTy.packing .bf16)
  inb_S26x16x256_S1x16x256_11_0_0 : ∀ a, (![11, 0, 0] : Fin 3 → Nat) a + S1x16x256.size a ≤ S26x16x256.size a
  inb_S26x16x256_S14x16x256_12_0_0 : ∀ a, (![12, 0, 0] : Fin 3 → Nat) a + S14x16x256.size a ≤ S26x16x256.size a
  h_S14x16x256 : 0 < S14x16x256.numel
  shapeCasts_S14x16x256_S14x16x256 : S14x16x256.ShapeCasts S14x16x256
  broadcasts_S1x16x256_S14x16x256 : S1x16x256.Broadcasts S14x16x256
  inb_S325x16x256_S14x16x256_220_0_0 : ∀ a, (![220, 0, 0] : Fin 3 → Nat) a + S14x16x256.size a ≤ S325x16x256.size a
  packedbf16_S325x16x256_S14x16x256_220_0_0 : (Rect.unit (s := S325x16x256) ![220, 0, 0] S14x16x256.size inb_S325x16x256_S14x16x256_220_0_0).PackedRows (EltTy.packing .bf16)
  inb_S26x16x256_S1x16x256_12_0_0 : ∀ a, (![12, 0, 0] : Fin 3 → Nat) a + S1x16x256.size a ≤ S26x16x256.size a
  inb_S26x16x256_S13x16x256_13_0_0 : ∀ a, (![13, 0, 0] : Fin 3 → Nat) a + S13x16x256.size a ≤ S26x16x256.size a
  h_S13x16x256 : 0 < S13x16x256.numel
  shapeCasts_S13x16x256_S13x16x256 : S13x16x256.ShapeCasts S13x16x256
  broadcasts_S1x16x256_S13x16x256 : S1x16x256.Broadcasts S13x16x256
  inb_S325x16x256_S13x16x256_234_0_0 : ∀ a, (![234, 0, 0] : Fin 3 → Nat) a + S13x16x256.size a ≤ S325x16x256.size a
  packedbf16_S325x16x256_S13x16x256_234_0_0 : (Rect.unit (s := S325x16x256) ![234, 0, 0] S13x16x256.size inb_S325x16x256_S13x16x256_234_0_0).PackedRows (EltTy.packing .bf16)
  inb_S26x16x256_S1x16x256_13_0_0 : ∀ a, (![13, 0, 0] : Fin 3 → Nat) a + S1x16x256.size a ≤ S26x16x256.size a
  inb_S26x16x256_S12x16x256_14_0_0 : ∀ a, (![14, 0, 0] : Fin 3 → Nat) a + S12x16x256.size a ≤ S26x16x256.size a
  h_S12x16x256 : 0 < S12x16x256.numel
  shapeCasts_S12x16x256_S12x16x256 : S12x16x256.ShapeCasts S12x16x256
  broadcasts_S1x16x256_S12x16x256 : S1x16x256.Broadcasts S12x16x256
  inb_S325x16x256_S12x16x256_247_0_0 : ∀ a, (![247, 0, 0] : Fin 3 → Nat) a + S12x16x256.size a ≤ S325x16x256.size a
  packedbf16_S325x16x256_S12x16x256_247_0_0 : (Rect.unit (s := S325x16x256) ![247, 0, 0] S12x16x256.size inb_S325x16x256_S12x16x256_247_0_0).PackedRows (EltTy.packing .bf16)
  inb_S26x16x256_S1x16x256_14_0_0 : ∀ a, (![14, 0, 0] : Fin 3 → Nat) a + S1x16x256.size a ≤ S26x16x256.size a
  inb_S26x16x256_S11x16x256_15_0_0 : ∀ a, (![15, 0, 0] : Fin 3 → Nat) a + S11x16x256.size a ≤ S26x16x256.size a
  h_S11x16x256 : 0 < S11x16x256.numel
  shapeCasts_S11x16x256_S11x16x256 : S11x16x256.ShapeCasts S11x16x256
  broadcasts_S1x16x256_S11x16x256 : S1x16x256.Broadcasts S11x16x256
  inb_S325x16x256_S11x16x256_259_0_0 : ∀ a, (![259, 0, 0] : Fin 3 → Nat) a + S11x16x256.size a ≤ S325x16x256.size a
  packedbf16_S325x16x256_S11x16x256_259_0_0 : (Rect.unit (s := S325x16x256) ![259, 0, 0] S11x16x256.size inb_S325x16x256_S11x16x256_259_0_0).PackedRows (EltTy.packing .bf16)
  inb_S26x16x256_S1x16x256_15_0_0 : ∀ a, (![15, 0, 0] : Fin 3 → Nat) a + S1x16x256.size a ≤ S26x16x256.size a
  inb_S26x16x256_S10x16x256_16_0_0 : ∀ a, (![16, 0, 0] : Fin 3 → Nat) a + S10x16x256.size a ≤ S26x16x256.size a
  h_S10x16x256 : 0 < S10x16x256.numel
  shapeCasts_S10x16x256_S10x16x256 : S10x16x256.ShapeCasts S10x16x256
  broadcasts_S1x16x256_S10x16x256 : S1x16x256.Broadcasts S10x16x256
  inb_S325x16x256_S10x16x256_270_0_0 : ∀ a, (![270, 0, 0] : Fin 3 → Nat) a + S10x16x256.size a ≤ S325x16x256.size a
  packedbf16_S325x16x256_S10x16x256_270_0_0 : (Rect.unit (s := S325x16x256) ![270, 0, 0] S10x16x256.size inb_S325x16x256_S10x16x256_270_0_0).PackedRows (EltTy.packing .bf16)
  inb_S26x16x256_S1x16x256_16_0_0 : ∀ a, (![16, 0, 0] : Fin 3 → Nat) a + S1x16x256.size a ≤ S26x16x256.size a
  inb_S26x16x256_S9x16x256_17_0_0 : ∀ a, (![17, 0, 0] : Fin 3 → Nat) a + S9x16x256.size a ≤ S26x16x256.size a
  h_S9x16x256 : 0 < S9x16x256.numel
  shapeCasts_S9x16x256_S9x16x256 : S9x16x256.ShapeCasts S9x16x256
  broadcasts_S1x16x256_S9x16x256 : S1x16x256.Broadcasts S9x16x256
  inb_S325x16x256_S9x16x256_280_0_0 : ∀ a, (![280, 0, 0] : Fin 3 → Nat) a + S9x16x256.size a ≤ S325x16x256.size a
  packedbf16_S325x16x256_S9x16x256_280_0_0 : (Rect.unit (s := S325x16x256) ![280, 0, 0] S9x16x256.size inb_S325x16x256_S9x16x256_280_0_0).PackedRows (EltTy.packing .bf16)
  inb_S26x16x256_S1x16x256_17_0_0 : ∀ a, (![17, 0, 0] : Fin 3 → Nat) a + S1x16x256.size a ≤ S26x16x256.size a
  inb_S26x16x256_S8x16x256_18_0_0 : ∀ a, (![18, 0, 0] : Fin 3 → Nat) a + S8x16x256.size a ≤ S26x16x256.size a
  h_S8x16x256 : 0 < S8x16x256.numel
  shapeCasts_S8x16x256_S8x16x256 : S8x16x256.ShapeCasts S8x16x256
  broadcasts_S1x16x256_S8x16x256 : S1x16x256.Broadcasts S8x16x256
  inb_S325x16x256_S8x16x256_289_0_0 : ∀ a, (![289, 0, 0] : Fin 3 → Nat) a + S8x16x256.size a ≤ S325x16x256.size a
  packedbf16_S325x16x256_S8x16x256_289_0_0 : (Rect.unit (s := S325x16x256) ![289, 0, 0] S8x16x256.size inb_S325x16x256_S8x16x256_289_0_0).PackedRows (EltTy.packing .bf16)
  inb_S26x16x256_S1x16x256_18_0_0 : ∀ a, (![18, 0, 0] : Fin 3 → Nat) a + S1x16x256.size a ≤ S26x16x256.size a
  inb_S26x16x256_S7x16x256_19_0_0 : ∀ a, (![19, 0, 0] : Fin 3 → Nat) a + S7x16x256.size a ≤ S26x16x256.size a
  h_S7x16x256 : 0 < S7x16x256.numel
  shapeCasts_S7x16x256_S7x16x256 : S7x16x256.ShapeCasts S7x16x256
  broadcasts_S1x16x256_S7x16x256 : S1x16x256.Broadcasts S7x16x256
  inb_S325x16x256_S7x16x256_297_0_0 : ∀ a, (![297, 0, 0] : Fin 3 → Nat) a + S7x16x256.size a ≤ S325x16x256.size a
  packedbf16_S325x16x256_S7x16x256_297_0_0 : (Rect.unit (s := S325x16x256) ![297, 0, 0] S7x16x256.size inb_S325x16x256_S7x16x256_297_0_0).PackedRows (EltTy.packing .bf16)
  inb_S26x16x256_S1x16x256_19_0_0 : ∀ a, (![19, 0, 0] : Fin 3 → Nat) a + S1x16x256.size a ≤ S26x16x256.size a
  inb_S26x16x256_S6x16x256_20_0_0 : ∀ a, (![20, 0, 0] : Fin 3 → Nat) a + S6x16x256.size a ≤ S26x16x256.size a
  h_S6x16x256 : 0 < S6x16x256.numel
  shapeCasts_S6x16x256_S6x16x256 : S6x16x256.ShapeCasts S6x16x256
  broadcasts_S1x16x256_S6x16x256 : S1x16x256.Broadcasts S6x16x256
  inb_S325x16x256_S6x16x256_304_0_0 : ∀ a, (![304, 0, 0] : Fin 3 → Nat) a + S6x16x256.size a ≤ S325x16x256.size a
  packedbf16_S325x16x256_S6x16x256_304_0_0 : (Rect.unit (s := S325x16x256) ![304, 0, 0] S6x16x256.size inb_S325x16x256_S6x16x256_304_0_0).PackedRows (EltTy.packing .bf16)
  inb_S26x16x256_S1x16x256_20_0_0 : ∀ a, (![20, 0, 0] : Fin 3 → Nat) a + S1x16x256.size a ≤ S26x16x256.size a
  inb_S26x16x256_S5x16x256_21_0_0 : ∀ a, (![21, 0, 0] : Fin 3 → Nat) a + S5x16x256.size a ≤ S26x16x256.size a
  h_S5x16x256 : 0 < S5x16x256.numel
  shapeCasts_S5x16x256_S5x16x256 : S5x16x256.ShapeCasts S5x16x256
  broadcasts_S1x16x256_S5x16x256 : S1x16x256.Broadcasts S5x16x256
  inb_S325x16x256_S5x16x256_310_0_0 : ∀ a, (![310, 0, 0] : Fin 3 → Nat) a + S5x16x256.size a ≤ S325x16x256.size a
  packedbf16_S325x16x256_S5x16x256_310_0_0 : (Rect.unit (s := S325x16x256) ![310, 0, 0] S5x16x256.size inb_S325x16x256_S5x16x256_310_0_0).PackedRows (EltTy.packing .bf16)
  inb_S26x16x256_S1x16x256_21_0_0 : ∀ a, (![21, 0, 0] : Fin 3 → Nat) a + S1x16x256.size a ≤ S26x16x256.size a
  inb_S26x16x256_S4x16x256_22_0_0 : ∀ a, (![22, 0, 0] : Fin 3 → Nat) a + S4x16x256.size a ≤ S26x16x256.size a
  h_S4x16x256 : 0 < S4x16x256.numel
  shapeCasts_S4x16x256_S4x16x256 : S4x16x256.ShapeCasts S4x16x256
  broadcasts_S1x16x256_S4x16x256 : S1x16x256.Broadcasts S4x16x256
  inb_S325x16x256_S4x16x256_315_0_0 : ∀ a, (![315, 0, 0] : Fin 3 → Nat) a + S4x16x256.size a ≤ S325x16x256.size a
  packedbf16_S325x16x256_S4x16x256_315_0_0 : (Rect.unit (s := S325x16x256) ![315, 0, 0] S4x16x256.size inb_S325x16x256_S4x16x256_315_0_0).PackedRows (EltTy.packing .bf16)
  inb_S26x16x256_S1x16x256_22_0_0 : ∀ a, (![22, 0, 0] : Fin 3 → Nat) a + S1x16x256.size a ≤ S26x16x256.size a
  inb_S26x16x256_S3x16x256_23_0_0 : ∀ a, (![23, 0, 0] : Fin 3 → Nat) a + S3x16x256.size a ≤ S26x16x256.size a
  h_S3x16x256 : 0 < S3x16x256.numel
  shapeCasts_S3x16x256_S3x16x256 : S3x16x256.ShapeCasts S3x16x256
  broadcasts_S1x16x256_S3x16x256 : S1x16x256.Broadcasts S3x16x256
  inb_S325x16x256_S3x16x256_319_0_0 : ∀ a, (![319, 0, 0] : Fin 3 → Nat) a + S3x16x256.size a ≤ S325x16x256.size a
  packedbf16_S325x16x256_S3x16x256_319_0_0 : (Rect.unit (s := S325x16x256) ![319, 0, 0] S3x16x256.size inb_S325x16x256_S3x16x256_319_0_0).PackedRows (EltTy.packing .bf16)
  inb_S26x16x256_S1x16x256_23_0_0 : ∀ a, (![23, 0, 0] : Fin 3 → Nat) a + S1x16x256.size a ≤ S26x16x256.size a
  inb_S26x16x256_S2x16x256_24_0_0 : ∀ a, (![24, 0, 0] : Fin 3 → Nat) a + S2x16x256.size a ≤ S26x16x256.size a
  h_S2x16x256 : 0 < S2x16x256.numel
  shapeCasts_S2x16x256_S2x16x256 : S2x16x256.ShapeCasts S2x16x256
  broadcasts_S1x16x256_S2x16x256 : S1x16x256.Broadcasts S2x16x256
  inb_S325x16x256_S2x16x256_322_0_0 : ∀ a, (![322, 0, 0] : Fin 3 → Nat) a + S2x16x256.size a ≤ S325x16x256.size a
  packedbf16_S325x16x256_S2x16x256_322_0_0 : (Rect.unit (s := S325x16x256) ![322, 0, 0] S2x16x256.size inb_S325x16x256_S2x16x256_322_0_0).PackedRows (EltTy.packing .bf16)
  inb_S26x16x256_S1x16x256_24_0_0 : ∀ a, (![24, 0, 0] : Fin 3 → Nat) a + S1x16x256.size a ≤ S26x16x256.size a
  inb_S26x16x256_S1x16x256_25_0_0 : ∀ a, (![25, 0, 0] : Fin 3 → Nat) a + S1x16x256.size a ≤ S26x16x256.size a
  inb_S325x16x256_S1x16x256_324_0_0 : ∀ a, (![324, 0, 0] : Fin 3 → Nat) a + S1x16x256.size a ≤ S325x16x256.size a
  packedbf16_S325x16x256_S1x16x256_324_0_0 : (Rect.unit (s := S325x16x256) ![324, 0, 0] S1x16x256.size inb_S325x16x256_S1x16x256_324_0_0).PackedRows (EltTy.packing .bf16)
  inb_S325x16x256_S325x16x256_0_0_0 : ∀ a, (![0, 0, 0] : Fin 3 → Nat) a + S325x16x256.size a ≤ S325x16x256.size a
  h_S325x16x256 : 0 < S325x16x256.numel
  inb_S16x16_S16x16_0_0 : ∀ a, (![0, 0] : Fin 2 → Nat) a + S16x16.size a ≤ S16x16.size a
  h_S16x16 : 0 < S16x16.numel
  inb_S16x1_S16x1_0_0 : ∀ a, (![0, 0] : Fin 2 → Nat) a + S16x1.size a ≤ S16x1.size a
  h_S16x1 : 0 < S16x1.numel
  shapeCasts_S16x1_S16x1 : S16x1.ShapeCasts S16x1
  slices_S16x16_o0_0_S16x1 : S16x16.Slices ![0, 0] S16x1
  shapeCasts_S16x1_S16 : S16x1.ShapeCasts S16
  shapeCasts_S16_S1x16x1 : S16.ShapeCasts S1x16x1
  broadcasts_S1x16x1_S325x16x256 : S1x16x1.Broadcasts S325x16x256
  reduces_S325x16x256_S325x256 : S325x16x256.Reduces [1] S325x256
  slices_S16x1_o0_0_S1x1 : S16x1.Slices ![0, 0] S1x1
  inpos_S1x1_p0_0 : ∀ a, (![0, 0] : Fin 2 → Nat) a < S1x1.size a
  slices_S16x16_o0_1_S16x1 : S16x16.Slices ![0, 1] S16x1
  slices_S16x1_o1_0_S1x1 : S16x1.Slices ![1, 0] S1x1
  slices_S16x16_o0_2_S16x1 : S16x16.Slices ![0, 2] S16x1
  slices_S16x1_o2_0_S1x1 : S16x1.Slices ![2, 0] S1x1
  slices_S16x16_o0_3_S16x1 : S16x16.Slices ![0, 3] S16x1
  slices_S16x1_o3_0_S1x1 : S16x1.Slices ![3, 0] S1x1
  slices_S16x16_o0_4_S16x1 : S16x16.Slices ![0, 4] S16x1
  slices_S16x1_o4_0_S1x1 : S16x1.Slices ![4, 0] S1x1
  slices_S16x16_o0_5_S16x1 : S16x16.Slices ![0, 5] S16x1
  slices_S16x1_o5_0_S1x1 : S16x1.Slices ![5, 0] S1x1
  slices_S16x16_o0_6_S16x1 : S16x16.Slices ![0, 6] S16x1
  slices_S16x1_o6_0_S1x1 : S16x1.Slices ![6, 0] S1x1
  slices_S16x16_o0_7_S16x1 : S16x16.Slices ![0, 7] S16x1
  slices_S16x1_o7_0_S1x1 : S16x1.Slices ![7, 0] S1x1
  slices_S16x16_o0_8_S16x1 : S16x16.Slices ![0, 8] S16x1
  slices_S16x1_o8_0_S1x1 : S16x1.Slices ![8, 0] S1x1
  slices_S16x16_o0_9_S16x1 : S16x16.Slices ![0, 9] S16x1
  slices_S16x1_o9_0_S1x1 : S16x1.Slices ![9, 0] S1x1
  slices_S16x16_o0_10_S16x1 : S16x16.Slices ![0, 10] S16x1
  slices_S16x1_o10_0_S1x1 : S16x1.Slices ![10, 0] S1x1
  slices_S16x16_o0_11_S16x1 : S16x16.Slices ![0, 11] S16x1
  slices_S16x1_o11_0_S1x1 : S16x1.Slices ![11, 0] S1x1
  slices_S16x16_o0_12_S16x1 : S16x16.Slices ![0, 12] S16x1
  slices_S16x1_o12_0_S1x1 : S16x1.Slices ![12, 0] S1x1
  slices_S16x16_o0_13_S16x1 : S16x16.Slices ![0, 13] S16x1
  slices_S16x1_o13_0_S1x1 : S16x1.Slices ![13, 0] S1x1
  slices_S16x16_o0_14_S16x1 : S16x16.Slices ![0, 14] S16x1
  slices_S16x1_o14_0_S1x1 : S16x1.Slices ![14, 0] S1x1
  slices_S16x16_o0_15_S16x1 : S16x16.Slices ![0, 15] S16x1
  slices_S16x1_o15_0_S1x1 : S16x1.Slices ![15, 0] S1x1
  reduces_S325x256_S256 : S325x256.Reduces [0] S256
  shapeCasts_S256_S1x256 : S256.ShapeCasts S1x256
  broadcasts_S1x256_S325x256 : S1x256.Broadcasts S325x256
  shapeCasts_S325x256_S325x1x256 : S325x256.ShapeCasts S325x1x256
  broadcasts_S325x1x256_S325x16x256 : S325x1x256.Broadcasts S325x16x256
  reduces_S325x16x256_S16x256 : S325x16x256.Reduces [0] S16x256
  broadcasts_S16x1_S16x256 : S16x1.Broadcasts S16x256
  reduces_S16x256_S256 : S16x256.Reduces [0] S256
  inb_S13x256_S13x256_0_0 : ∀ a, (![0, 0] : Fin 2 → Nat) a + S13x256.size a ≤ S13x256.size a
  h_S13x256 : 0 < S13x256.numel
  shapeCasts_S13x256_S13x256 : S13x256.ShapeCasts S13x256
  inb_S13x1_S13x1_0_0 : ∀ a, (![0, 0] : Fin 2 → Nat) a + S13x1.size a ≤ S13x1.size a
  h_S13x1 : 0 < S13x1.numel
  broadcasts_S13x1_S13x256 : S13x1.Broadcasts S13x256
  reduces_S13x256_S256 : S13x256.Reduces [0] S256
  inb_S26x16x256_S26x16x256_0_0_0 : ∀ a, (![0, 0, 0] : Fin 3 → Nat) a + S26x16x256.size a ≤ S26x16x256.size a
  h_S26x16x256 : 0 < S26x16x256.numel
  shapeCasts_S26x16x256_S26x16x256 : S26x16x256.ShapeCasts S26x16x256
  inb_S26x16_S26x16_0_0 : ∀ a, (![0, 0] : Fin 2 → Nat) a + S26x16.size a ≤ S26x16.size a
  h_S26x16 : 0 < S26x16.numel
  shapeCasts_S26x16_S26x16 : S26x16.ShapeCasts S26x16
  shapeCasts_S26x16_S26x16x1 : S26x16.ShapeCasts S26x16x1
  broadcasts_S26x16x1_S26x16x256 : S26x16x1.Broadcasts S26x16x256
  reduces_S26x16x256_S26x256 : S26x16x256.Reduces [1] S26x256
  shapeCasts_S26x256_S26x1x256 : S26x256.ShapeCasts S26x1x256
  reduces_S26x1x256_S1x256 : S26x1x256.Reduces [0] S1x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x256 : S1x1.Broadcasts S1x256
  inb_S1x256_S1x256_0_0 : ∀ a, (![0, 0] : Fin 2 → Nat) a + S1x256.size a ≤ S1x256.size a
  h_S1x256 : 0 < S1x256.numel
  transposes_S1x4096_S4096x1_1_0 : S1x4096.Transposes [1, 0] S4096x1
  gather_S26x100000x16_S4096x26x2_S4096x26x16_2_01_n_n_01_2_1116_wf : GatherDims.WF S26x100000x16 S4096x26x2 S4096x26x16 [2] [0, 1] [] [0, 1] [] 2 ![1, 1, 16]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S26x16x256.size a ≤ S26x16x4096.size a
  hwx0_0 : ∀ i : grid0.Coords, EltTy.bits .f32 = 32 ∨ (Rect.block (s := S26x16x4096) S26x16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S13x256.size a ≤ S13x4096.size a
  hwx0_1 : ∀ i : grid0.Coords, EltTy.bits .f32 = 32 ∨ (Rect.block (s := S13x4096) S13x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x16.size a ≤ S16x16.size a
  hwx0_2 : ∀ i : grid0.Coords, EltTy.bits .f32 = 32 ∨ (Rect.block (s := S16x16) S16x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S16x1.size a
  hwx0_3 : ∀ i : grid0.Coords, EltTy.bits .f32 = 32 ∨ (Rect.block (s := S16x1) S16x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S16x1.size a
  hwx0_4 : ∀ i : grid0.Coords, EltTy.bits .f32 = 32 ∨ (Rect.block (s := S16x1) S16x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x1.size a ≤ S16x1.size a
  hwx0_5 : ∀ i : grid0.Coords, EltTy.bits .f32 = 32 ∨ (Rect.block (s := S16x1) S16x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S13x1.size a ≤ S13x1.size a
  hwx0_6 : ∀ i : grid0.Coords, EltTy.bits .f32 = 32 ∨ (Rect.block (s := S13x1) S13x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S26x16.size a ≤ S26x16.size a
  hwx0_7 : ∀ i : grid0.Coords, EltTy.bits .f32 = 32 ∨ (Rect.block (s := S26x16) S26x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x4096.size a
  hwx0_9 : ∀ i : grid0.Coords, EltTy.bits .f32 = 32 ∨ (Rect.block (s := S1x4096) S1x256.size (cc0_transform_9 i) (hinb0_9 i)).WholeWords (EltTy.packing .f32)

variable [Facts₀]

def gather_S26x100000x16_S4096x26x2_S4096x26x16_2_01_n_n_01_2_1116 : GatherDims S26x100000x16 S4096x26x2 S4096x26x16 where
  offsetDims := [2]
  collapsedSliceDims := [0, 1]
  operandBatchingDims := []
  startIndicesBatchingDims := []
  startIndexMap := [0, 1]
  indexVectorDim := 2
  sliceSizes := ![1, 1, 16]
  wf := gather_S26x100000x16_S4096x26x2_S4096x26x16_2_01_n_n_01_2_1116_wf

abbrev win0_0 : Pipeline.Window sig grid0 :=
  Pipeline.Window.ofSpec (Memref.whole main_v17) S26x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S13x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S16x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S16x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S16x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S13x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S26x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v21) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S1x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x13 : Shape := ⟨2, ![4096, 13]⟩
abbrev S4096x26 : Shape := ⟨2, ![4096, 26]⟩
abbrev S26x100000x16 : Shape := ⟨3, ![26, 100000, 16]⟩
abbrev S16x16 : Shape := ⟨2, ![16, 16]⟩
abbrev S16 : Shape := ⟨1, ![16]⟩
abbrev S16x1 : Shape := ⟨2, ![16, 1]⟩
abbrev S13x1 : Shape := ⟨2, ![13, 1]⟩
abbrev S416x1 : Shape := ⟨2, ![416, 1]⟩
abbrev S1 : Shape := ⟨1, ![1]⟩
abbrev S325 : Shape := ⟨1, ![325]⟩
abbrev S26 : Shape := ⟨1, ![26]⟩
abbrev S1x26 : Shape := ⟨2, ![1, 26]⟩
abbrev S_ : Shape := ⟨0, ![]⟩
abbrev S4096x26x1 : Shape := ⟨3, ![4096, 26, 1]⟩
abbrev S4096x26x2 : Shape := ⟨3, ![4096, 26, 2]⟩
abbrev S4096x26x16 : Shape := ⟨3, ![4096, 26, 16]⟩
abbrev S4096x416 : Shape := ⟨2, ![4096, 416]⟩
abbrev S4096x1 : Shape := ⟨2, ![4096, 1]⟩
abbrev S1x1 : Shape := ⟨2, ![1, 1]⟩
abbrev S325x1 : Shape := ⟨2, ![325, 1]⟩
abbrev S4096x325x16 : Shape := ⟨3, ![4096, 325, 16]⟩
abbrev S1x1x16 : Shape := ⟨3, ![1, 1, 16]⟩
abbrev S4096x325x1 : Shape := ⟨3, ![4096, 325, 1]⟩
abbrev S4096x1x1 : Shape := ⟨3, ![4096, 1, 1]⟩
abbrev S4096x16 : Shape := ⟨2, ![4096, 16]⟩

abbrev nBuf : Space → Nat
  | .hbm => 91
  | .vmem => 0
  | .smem => 0
  | _ => 0

abbrev bufTy : (tb : Table) → Fin (tcTables nBuf tb) → BufTy
  | .hbm, ⟨0, _⟩ => ⟨S4096x13, .f32⟩
  | .hbm, ⟨1, _⟩ => ⟨S4096x26, .i32⟩
  | .hbm, ⟨2, _⟩ => ⟨S26x100000x16, .f32⟩
  | .hbm, ⟨3, _⟩ => ⟨S16x16, .f32⟩
  | .hbm, ⟨4, _⟩ => ⟨S16, .f32⟩
  | .hbm, ⟨5, _⟩ => ⟨S16x1, .f32⟩
  | .hbm, ⟨6, _⟩ => ⟨S16x1, .f32⟩
  | .hbm, ⟨7, _⟩ => ⟨S13x1, .f32⟩
  | .hbm, ⟨8, _⟩ => ⟨S416x1, .f32⟩
  | .hbm, ⟨9, _⟩ => ⟨S1, .f32⟩
  | .hbm, ⟨10, _⟩ => ⟨S325, .i32⟩
  | .hbm, ⟨11, _⟩ => ⟨S325, .i1⟩
  | .hbm, ⟨12, _⟩ => ⟨S325, .i32⟩
  | .hbm, ⟨13, _⟩ => ⟨S325, .i1⟩
  | .hbm, ⟨14, _⟩ => ⟨S26, .i32⟩
  | .hbm, ⟨15, _⟩ => ⟨S1x26, .i32⟩
  | .hbm, ⟨16, _⟩ => ⟨S_, .i32⟩
  | .hbm, ⟨17, _⟩ => ⟨S1x26, .i32⟩
  | .hbm, ⟨18, _⟩ => ⟨S1x26, .i1⟩
  | .hbm, ⟨19, _⟩ => ⟨S_, .i32⟩
  | .hbm, ⟨20, _⟩ => ⟨S1x26, .i32⟩
  | .hbm, ⟨21, _⟩ => ⟨S1x26, .i32⟩
  | .hbm, ⟨22, _⟩ => ⟨S1x26, .i32⟩
  | .hbm, ⟨23, _⟩ => ⟨S_, .i32⟩
  | .hbm, ⟨24, _⟩ => ⟨S4096x26, .i32⟩
  | .hbm, ⟨25, _⟩ => ⟨S4096x26, .i1⟩
  | .hbm, ⟨26, _⟩ => ⟨S_, .i32⟩
  | .hbm, ⟨27, _⟩ => ⟨S4096x26, .i32⟩
  | .hbm, ⟨28, _⟩ => ⟨S4096x26, .i32⟩
  | .hbm, ⟨29, _⟩ => ⟨S4096x26, .i32⟩
  | .hbm, ⟨30, _⟩ => ⟨S4096x26, .i32⟩
  | .hbm, ⟨31, _⟩ => ⟨S4096x26x1, .i32⟩
  | .hbm, ⟨32, _⟩ => ⟨S4096x26x1, .i32⟩
  | .hbm, ⟨33, _⟩ => ⟨S4096x26x2, .i32⟩
  | .hbm, ⟨34, _⟩ => ⟨S4096x26x16, .f32⟩
  | .hbm, ⟨35, _⟩ => ⟨S4096x416, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S1x1, .f32⟩
  | .hbm, ⟨40, _⟩ => ⟨S4096x1, .f32⟩
  | .hbm, ⟨41, _⟩ => ⟨S4096x1, .f32⟩
  | .hbm, ⟨42, _⟩ => ⟨S_, .i32⟩
  | .hbm, ⟨43, _⟩ => ⟨S325, .i32⟩
  | .hbm, ⟨44, _⟩ => ⟨S325, .i32⟩
  | .hbm, ⟨45, _⟩ => ⟨S325, .i32⟩
  | .hbm, ⟨46, _⟩ => ⟨S325x1, .i32⟩
  | .hbm, ⟨47, _⟩ => ⟨S4096x325x16, .f32⟩
  | .hbm, ⟨48, _⟩ => ⟨S_, .i32⟩
  | .hbm, ⟨49, _⟩ => ⟨S325, .i32⟩
  | .hbm, ⟨50, _⟩ => ⟨S325, .i32⟩
  | .hbm, ⟨51, _⟩ => ⟨S325, .i32⟩
  | .hbm, ⟨52, _⟩ => ⟨S325x1, .i32⟩
  | .hbm, ⟨53, _⟩ => ⟨S4096x325x16, .f32⟩
  | .hbm, ⟨54, _⟩ => ⟨S4096x325x16, .f32⟩
  | .hbm, ⟨55, _⟩ => ⟨S4096x325x16, .f32⟩
  | .hbm, ⟨56, _⟩ => ⟨S1x1x16, .f32⟩
  | .hbm, ⟨57, _⟩ => ⟨S4096x325x16, .f32⟩
  | .hbm, ⟨58, _⟩ => ⟨S4096x325x16, .f32⟩
  | .hbm, ⟨59, _⟩ => ⟨S_, .f32⟩
  | .hbm, ⟨60, _⟩ => ⟨S4096x325x16, .f32⟩
  | .hbm, ⟨61, _⟩ => ⟨S4096x325x16, .f32⟩
  | .hbm, ⟨62, _⟩ => ⟨S4096x325x1, .f32⟩
  | .hbm, ⟨63, _⟩ => ⟨S_, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S4096x1x1, .f32⟩
  | .hbm, ⟨69, _⟩ => ⟨S4096x325x1, .f32⟩
  | .hbm, ⟨70, _⟩ => ⟨S4096x325x1, .f32⟩
  | .hbm, ⟨71, _⟩ => ⟨S4096x325x1, .f32⟩
  | .hbm, ⟨72, _⟩ => ⟨S_, .f32⟩
  | .hbm, ⟨73, _⟩ => ⟨S4096x1, .f32⟩
  | .hbm, ⟨74, _⟩ => ⟨S4096x1x1, .f32⟩
  | .hbm, ⟨75, _⟩ => ⟨S4096x325x1, .f32⟩
  | .hbm, ⟨76, _⟩ => ⟨S4096x325x1, .f32⟩
  | .hbm, ⟨77, _⟩ => ⟨S4096x325x16, .f32⟩
  | .hbm, ⟨78, _⟩ => ⟨S4096x325x16, .f32⟩
  | .hbm, ⟨79, _⟩ => ⟨S_, .f32⟩
  | .hbm, ⟨80, _⟩ => ⟨S4096x16, .f32⟩
  | .hbm, ⟨81, _⟩ => ⟨S4096x1, .f32⟩
  | .hbm, ⟨82, _⟩ => ⟨S4096x1, .f32⟩
  | .hbm, ⟨83, _⟩ => ⟨S4096x1, .f32⟩
  | .hbm, ⟨84, _⟩ => ⟨S4096x1, .f32⟩
  | .hbm, ⟨85, _⟩ => ⟨S_, .f32⟩
  | .hbm, ⟨86, _⟩ => ⟨S4096x1, .f32⟩
  | .hbm, ⟨87, _⟩ => ⟨S4096x1, .f32⟩
  | .hbm, ⟨88, _⟩ => ⟨S_, .f32⟩
  | .hbm, ⟨89, _⟩ => ⟨S4096x1, .f32⟩
  | .hbm, ⟨90, _⟩ => ⟨S4096x1, .f32⟩
  | _, _ => ⟨S4096x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_c_2 : Ref sig .tc := ⟨.hbm, 13, rfl⟩
abbrev main_v0 : Ref sig .tc := ⟨.hbm, 14, rfl⟩
abbrev main_v1 : Ref sig .tc := ⟨.hbm, 15, rfl⟩
abbrev main_c_3 : Ref sig .tc := ⟨.hbm, 16, rfl⟩
abbrev main_v2 : Ref sig .tc := ⟨.hbm, 17, rfl⟩
abbrev main_v3 : Ref sig .tc := ⟨.hbm, 18, rfl⟩
abbrev main_c_4 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_5 : Ref sig .tc := ⟨.hbm, 23, rfl⟩
abbrev main_v7 : Ref sig .tc := ⟨.hbm, 24, rfl⟩
abbrev main_v8 : Ref sig .tc := ⟨.hbm, 25, rfl⟩
abbrev main_c_6 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_7 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call0_cst : Ref sig .tc := ⟨.hbm, 59, rfl⟩
abbrev main_call0_v0 : Ref sig .tc := ⟨.hbm, 60, rfl⟩
abbrev main_v39 : Ref sig .tc := ⟨.hbm, 61, rfl⟩
abbrev main_v40 : Ref sig .tc := ⟨.hbm, 62, rfl⟩
abbrev main_cst : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_v60 : Ref sig .tc := ⟨.hbm, 87, rfl⟩
abbrev main_cst_13 : Ref sig .tc := ⟨.hbm, 88, rfl⟩
abbrev main_v61 : Ref sig .tc := ⟨.hbm, 89, rfl⟩
abbrev main_v62 : Ref sig .tc := ⟨.hbm, 90, rfl⟩

abbrev nD : Nat := 1
abbrev τ : Topo := Topo.v7x

variable {F : FTy → Type} [FloatOps F]

class Facts₀ : Prop where
  bcast_S26_S1x26_1 : S26.BroadcastsInDim S1x26 (![1] : Fin 1 → Fin S1x26.rank)
  bcast_S_S1x26 : S_.BroadcastsInDim S1x26 (![] : Fin 0 → Fin S1x26.rank)
  bcast_S_S4096x26 : S_.BroadcastsInDim S4096x26 (![] : Fin 0 → Fin S4096x26.rank)
  bcast_S1x26_S4096x26_0_1 : S1x26.BroadcastsInDim S4096x26 (![0, 1] : Fin 2 → Fin S4096x26.rank)
  bcast_S4096x26_S4096x26x1_0_1 : S4096x26.BroadcastsInDim S4096x26x1 (![0, 1] : Fin 2 → Fin S4096x26x1.rank)
  concatenates_S4096x26x1_S4096x26x1_S4096x26x2_d2 : Shape.Concatenates [S4096x26x1, S4096x26x1] S4096x26x2 2
  shapeCasts_S4096x26x16_S4096x416 : S4096x26x16.ShapeCasts S4096x416
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  bcast_S_S325 : S_.BroadcastsInDim S325 (![] : Fin 0 → Fin S325.rank)
  bcast_S325_S325x1_0 : S325.BroadcastsInDim S325x1 (![0] : Fin 1 → Fin S325x1.rank)
  bcast_S16_S1x1x16_2 : S16.BroadcastsInDim S1x1x16 (![2] : Fin 1 → Fin S1x1x16.rank)
  bcast_S1x1x16_S4096x325x16_0_1_2 : S1x1x16.BroadcastsInDim S4096x325x16 (![0, 1, 2] : Fin 3 → Fin S4096x325x16.rank)
  bcast_S_S4096x325x16 : S_.BroadcastsInDim S4096x325x16 (![] : Fin 0 → Fin S4096x325x16.rank)
  reducesTo_S4096x325x1_S4096x1_d1 : S4096x325x1.ReducesTo [1] S4096x1
  h_S_ : 0 < S_.numel
  bcast_S_S4096x1 : S_.BroadcastsInDim S4096x1 (![] : Fin 0 → Fin S4096x1.rank)
  bcast_S4096x1_S4096x1x1_0_2 : S4096x1.BroadcastsInDim S4096x1x1 (![0, 2] : Fin 2 → Fin S4096x1x1.rank)
  bcast_S4096x1x1_S4096x325x1_0_1_2 : S4096x1x1.BroadcastsInDim S4096x325x1 (![0, 1, 2] : Fin 3 → Fin S4096x325x1.rank)
  bcast_S4096x325x1_S4096x325x16_0_1_2 : S4096x325x1.BroadcastsInDim S4096x325x16 (![0, 1, 2] : Fin 3 → Fin S4096x325x16.rank)
  reducesTo_S4096x325x16_S4096x16_d1 : S4096x325x16.ReducesTo [1] S4096x16
  gather_S26x100000x16_S4096x26x2_S4096x26x16_2_01_n_n_01_2_1116_wf : GatherDims.WF S26x100000x16 S4096x26x2 S4096x26x16 [2] [0, 1] [] [0, 1] [] 2 ![1, 1, 16]
  dot_S4096x13_S13x1_S4096x1_1_0_0_1_n_n_wf : DotDims.WF S4096x13 S13x1 S4096x1 [1] [0] [0] [1] [] []
  dot_S4096x416_S416x1_S4096x1_1_0_0_1_n_n_wf : DotDims.WF S4096x416 S416x1 S4096x1 [1] [0] [0] [1] [] []
  gather_S4096x26x16_S325x1_S4096x325x16_02_1_n_n_1_1_4096116_wf : GatherDims.WF S4096x26x16 S325x1 S4096x325x16 [0, 2] [1] [] [1] [] 1 ![4096, 1, 16]
  dot_S4096x325x16_S16x16_S4096x325x16_2_0_01_1_n_n_wf : DotDims.WF S4096x325x16 S16x16 S4096x325x16 [2] [0] [0, 1] [1] [] []
  dot_S4096x325x16_S16x1_S4096x325x1_2_0_01_1_n_n_wf : DotDims.WF S4096x325x16 S16x1 S4096x325x1 [2] [0] [0, 1] [1] [] []
  dot_S4096x16_S16x1_S4096x1_1_0_0_1_n_n_wf : DotDims.WF S4096x16 S16x1 S4096x1 [1] [0] [0] [1] [] []

variable [Facts₀]

def gather_S26x100000x16_S4096x26x2_S4096x26x16_2_01_n_n_01_2_1116 : GatherDims S26x100000x16 S4096x26x2 S4096x26x16 where
  offsetDims := [2]
  collapsedSliceDims := [0, 1]
  operandBatchingDims := []
  startIndicesBatchingDims := []
  startIndexMap := [0, 1]
  indexVectorDim := 2
  sliceSizes := ![1, 1, 16]
  wf := gather_S26x100000x16_S4096x26x2_S4096x26x16_2_01_n_n_01_2_1116_wf
def dot_S4096x13_S13x1_S4096x1_1_0_0_1_n_n : DotDims S4096x13 S13x1 S4096x1 where
  lhsContracting := [1]
  rhsContracting := [0]
  lhsNonContracting := [0]
  rhsNonContracting := [1]
  lhsBatch := []
  rhsBatch := []
  wf := dot_S4096x13_S13x1_S4096x1_1_0_0_1_n_n_wf
def dot_S4096x416_S416x1_S4096x1_1_0_0_1_n_n : DotDims S4096x416 S416x1 S4096x1 where
  lhsContracting := [1]
  rhsContracting := [0]
  lhsNonContracting := [0]
  rhsNonContracting := [1]
  lhsBatch := []
  rhsBatch := []
  wf := dot_S4096x416_S416x1_S4096x1_1_0_0_1_n_n_wf
def gather_S4096x26x16_S325x1_S4096x325x16_02_1_n_n_1_1_4096116 : GatherDims S4096x26x16 S325x1 S4096x325x16 where
  offsetDims := [0, 2]
  collapsedSliceDims := [1]
  operandBatchingDims := []
  startIndicesBatchingDims := []
  startIndexMap := [1]
  indexVectorDim := 1
  sliceSizes := ![4096, 1, 16]
  wf := gather_S4096x26x16_S325x1_S4096x325x16_02_1_n_n_1_1_4096116_wf
def dot_S4096x325x16_S16x16_S4096x325x16_2_0_01_1_n_n : DotDims S4096x325x16 S16x16 S4096x325x16 where
  lhsContracting := [2]
  rhsContracting := [0]
  lhsNonContracting := [0, 1]
  rhsNonContracting := [1]
  lhsBatch := []
  rhsBatch := []
  wf := dot_S4096x325x16_S16x16_S4096x325x16_2_0_01_1_n_n_wf
def dot_S4096x325x16_S16x1_S4096x325x1_2_0_01_1_n_n : DotDims S4096x325x16 S16x1 S4096x325x1 where
  lhsContracting := [2]
  rhsContracting := [0]
  lhsNonContracting := [0, 1]
  rhsNonContracting := [1]
  lhsBatch := []
  rhsBatch := []
  wf := dot_S4096x325x16_S16x1_S4096x325x1_2_0_01_1_n_n_wf
def dot_S4096x16_S16x1_S4096x1_1_0_0_1_n_n : DotDims S4096x16 S16x1 S4096x1 where
  lhsContracting := [1]
  rhsContracting := [0]
  lhsNonContracting := [0]
  rhsNonContracting := [1]
  lhsBatch := []
  rhsBatch := []
  wf := dot_S4096x16_S16x1_S4096x1_1_0_0_1_n_n_wf

class Facts : Prop extends Facts₀ where

variable [Facts]
-- ==== Proof.KHost.lean ====
/-
  The arrays the kernel's region is launched on, as functions of the program's arguments.

  Before the region the program gathers one row of 16 numbers per sample and field from the tables (a chain of
  integer operations building the (field, row) index pairs, then one gather: `embOf`, which is never opened — the
  reference computes the same chain), transposes the gathered array to field-major / lane-minor order, transposes
  the dense features, and reshapes three small arguments.
-/
import proofs.«122830_j89627377532987_2_alg».proof.Proof.Gen.KernelIdeal.Frame
import Idealize.ShloMosaic.Lib.StableHlo.Run

noncomputable section

open Idealize.ShloMosaic Idealize.ShloMosaic.TcCoe Idealize.SL.Sem

namespace Cert.KernelIdeal.AfmHost

open Cert.KernelIdeal Cert.KernelIdeal.Gen

variable {F : FTy → Type} [FloatOps F]

/-- The embedding rows selected by the index words: entry (b, f, ·) is row `a1 (b, f)` (wrapped if negative) of table `f`. -/
def embOf (a1 : (⟨S4096x26, .i32⟩ : BufTy).Contents (Elt F)) (a2 : (⟨S26x100000x16, .f32⟩ : BufTy).Contents (Elt F)) :
    (⟨S4096x26x16, .f32⟩ : BufTy).Contents (Elt F) :=
  Host.gather gather_S26x100000x16_S4096x26x2_S4096x26x16_2_01_n_n_01_2_1116 a2
    (concatenate S4096x26x2 2
      [⟨S4096x26x1, (broadcastInDim S4096x26x1 ![0, 1] bcast_S4096x26_S4096x26x1_0_1
          ((broadcastInDim S4096x26 ![0, 1] bcast_S1x26_S4096x26_0_1
            ((select
              ((cmpi .slt
                ((broadcastInDim S1x26 ![1] bcast_S26_S1x26_1 (iotaInDim S26 32 0 : (⟨S26, .i32⟩ : BufTy).Contents (Elt F)) : (⟨S1x26, .i32⟩ : BufTy).Contents (Elt F)))
                ((broadcastInDim S1x26 ![] bcast_S_S1x26 (constantI S_ 32 0#32 : (⟨S_, .i32⟩ : BufTy).Contents (Elt F)) : (⟨S1x26, .i32⟩ : BufTy).Contents (Elt F))) : (⟨S1x26, .i1⟩ : BufTy).Contents (Elt F)))
              ((addi
                ((broadcastInDim S1x26 ![1] bcast_S26_S1x26_1 (iotaInDim S26 32 0 : (⟨S26, .i32⟩ : BufTy).Contents (Elt F)) : (⟨S1x26, .i32⟩ : BufTy).Contents (Elt F)))
                ((broadcastInDim S1x26 ![] bcast_S_S1x26 (constantI S_ 32 26#32 : (⟨S_, .i32⟩ : BufTy).Contents (Elt F)) : (⟨S1x26, .i32⟩ : BufTy).Contents (Elt F))) : (⟨S1x26, .i32⟩ : BufTy).Contents (Elt F)))
              ((broadcastInDim S1x26 ![1] bcast_S26_S1x26_1 (iotaInDim S26 32 0 : (⟨S26, .i32⟩ : BufTy).Contents (Elt F)) : (⟨S1x26, .i32⟩ : BufTy).Contents (Elt F))) : (⟨S1x26, .i32⟩ : BufTy).Contents (Elt F))) : (⟨S4096x26, .i32⟩ : BufTy).Contents (Elt F))) : (⟨S4096x26x1, .i32⟩ : BufTy).Contents (Elt F))⟩,
       ⟨S4096x26x1, (broadcastInDim S4096x26x1 ![0, 1] bcast_S4096x26_S4096x26x1_0_1
          ((select
            ((cmpi .slt a1 ((broadcastInDim S4096x26 ![] bcast_S_S4096x26 (constantI S_ 32 0#32 : (⟨S_, .i32⟩ : BufTy).Contents (Elt F)) : (⟨S4096x26, .i32⟩ : BufTy).Contents (Elt F))) : (⟨S4096x26, .i1⟩ : BufTy).Contents (Elt F)))
            ((addi a1 ((broadcastInDim S4096x26 ![] bcast_S_S4096x26 (constantI S_ 32 100000#32 : (⟨S_, .i32⟩ : BufTy).Contents (Elt F)) : (⟨S4096x26, .i32⟩ : BufTy).Contents (Elt F))) : (⟨S4096x26, .i32⟩ : BufTy).Contents (Elt F)))
            a1 : (⟨S4096x26, .i32⟩ : BufTy).Contents (Elt F))) : (⟨S4096x26x1, .i32⟩ : BufTy).Contents (Elt F))⟩]
      concatenates_S4096x26x1_S4096x26x1_S4096x26x2_d2)

variable (m : (ℓ : Loc nD τ sig) → Buf (Elt F) ℓ)

set_option maxHeartbeats 4000000 in
/-- The gathered rows, as the region's launch finds them. -/
theorem V_v16 (c : Dev nD) : V m c main_v16 = embOf (m ((c : Thread nD τ).loc main_arg1)) (m ((c : Thread nD τ).loc main_arg2)) := by
  show StableHlo.after hostOps0 (fun b => m (c, b)) (Proc.devRef .tc main_v16) = _
  after_results_simp
  rfl

set_option maxHeartbeats 4000000 in
/-- The gathered rows in field-major, lane-minor order: what input window 0 stages. -/
theorem V_v17 (c : Dev nD) : V m c main_v17
    = transpose S26x16x4096 [1, 2, 0] (embOf (m ((c : Thread nD τ).loc main_arg1)) (m ((c : Thread nD τ).loc main_arg2))) transposes_S4096x26x16_S26x16x4096_1_2_0 := by
  show StableHlo.after hostOps0 (fun b => m (c, b)) (Proc.devRef .tc main_v17) = _
  after_results_simp
  rfl

/-- The dense features transposed: what input window 1 stages. -/
theorem V_v18 (c : Dev nD) : V m c main_v18
    = transpose S13x4096 [1, 0] (m ((c : Thread nD τ).loc main_arg0)) transposes_S4096x13_S13x4096_1_0 := by
  show StableHlo.after hostOps0 (fun b => m (c, b)) (Proc.devRef .tc main_v18) = _
  after_results

/-- The attention bias as a column. -/
theorem V_v19 (c : Dev nD) : V m c main_v19 = shapeCast S16x1 (m ((c : Thread nD τ).loc main_arg4)) shapeCasts_S16_S16x1 := by
  show StableHlo.after hostOps0 (fun b => m (c, b)) (Proc.devRef .tc main_v19) = _
  after_results
  rfl

/-- The sparse linear weights as a 26 × 16 table. -/
theorem V_v20 (c : Dev nD) : V m c main_v20 = shapeCast S26x16 (m ((c : Thread nD τ).loc main_arg8)) shapeCasts_S416x1_S26x16 := by
  show StableHlo.after hostOps0 (fun b => m (c, b)) (Proc.devRef .tc main_v20) = _
  after_results
  rfl

/-- The linear bias as a 1 × 1 table. -/
theorem V_v21 (c : Dev nD) : V m c main_v21 = shapeCast S1x1 (m ((c : Thread nD τ).loc main_arg9)) shapeCasts_S1_S1x1 := by
  show StableHlo.after hostOps0 (fun b => m (c, b)) (Proc.devRef .tc main_v21) = _
  after_results
  rfl

end Cert.KernelIdeal.AfmHost

end
-- ==== Proof.AfmSpec.lean ====
/-
  The Attentional Factorization Machine's forward pass for ONE sample, as a function on the extended reals.

  A sample has 13 dense features `x` and 26 embedded fields `e f`, each a vector of 16 numbers.  The 325 pairs
  `(i, j)`, `i < j < 26`, are listed row by row of the strict upper triangle (`pairI`, `pairJ`); pair `p` contributes
  the entrywise product `ewp p d = e (pairI p) d * e (pairJ p) d`.  An attention layer scores every pair,
  `logit p = ∑ a, max ((∑ d, ewp p d * W d a) + bA a) 0 * h a`, the scores are normalised by a softmax over the
  pairs (shifted by the row maximum, as both programs compute it), the pairs are pooled with these weights and
  projected on `P`; a linear term in the dense features and in all 26·16 embedded numbers is added, and the
  logistic function is applied.  Nothing here needs the numbers to be finite: only sums, products, `max`, `exp`,
  the extended quotient and the logistic function as the ideal instance defines them.
-/
import Idealize.ShloMosaic.PureOps.Ideal

noncomputable section

open scoped BigOperators

namespace Cert.Afm

open Idealize.ShloMosaic

/-- Row index of the `p`-th entry when the rows have lengths `n, n-1, …, 1` and the first row is numbered `i`. -/
def triRow : ℕ → ℕ → ℕ → ℕ
  | 0, i, _ => i
  | n + 1, i, p => if p < n + 1 then i else triRow n (i + 1) (p - (n + 1))

/-- Column index of that entry: row `i` holds the columns `i+1, i+2, …`. -/
def triCol : ℕ → ℕ → ℕ → ℕ
  | 0, i, p => i + 1 + p
  | n + 1, i, p => if p < n + 1 then i + 1 + p else triCol n (i + 1) (p - (n + 1))

/-- The smaller field of pair `p` (the strict upper triangle of a 26×26 table, row by row). -/
def pairI (p : Fin 325) : Fin 26 := ⟨triRow 25 0 p.val % 26, Nat.mod_lt _ (by decide)⟩
/-- The larger field of pair `p`. -/
def pairJ (p : Fin 325) : Fin 26 := ⟨triCol 25 0 p.val % 26, Nat.mod_lt _ (by decide)⟩

/-- The entrywise product of the two fields of pair `p`. -/
def ewp (e : Fin 26 → Fin 16 → EReal) (p : Fin 325) (d : Fin 16) : EReal := e (pairI p) d * e (pairJ p) d

/-- Hidden unit `a` of the attention layer on pair `p`. -/
def hid (e : Fin 26 → Fin 16 → EReal) (W : Fin 16 → Fin 16 → EReal) (bA : Fin 16 → EReal) (p : Fin 325) (a : Fin 16) : EReal :=
  max ((∑ d : Fin 16, ewp e p d * W d a) + bA a) 0

/-- The attention score of pair `p` before normalisation. -/
def logit (e : Fin 26 → Fin 16 → EReal) (W : Fin 16 → Fin 16 → EReal) (bA h : Fin 16 → EReal) (p : Fin 325) : EReal :=
  ∑ a : Fin 16, hid e W bA p a * h a

/-- The largest of the 325 scores, folded from `-∞`. -/
def rowMax (z : Fin 325 → EReal) : EReal := (Finset.univ : Finset (Fin 325)).fold max ⊥ z

/-- The softmax weight of pair `p`. -/
def score (z : Fin 325 → EReal) (p : Fin 325) : EReal :=
  Ideal.div (Ideal.exp (z p - rowMax z)) (∑ q : Fin 325, Ideal.exp (z q - rowMax z))

/-- The pairs pooled with their softmax weights, coordinate `d`. -/
def pooled (e : Fin 26 → Fin 16 → EReal) (W : Fin 16 → Fin 16 → EReal) (bA h : Fin 16 → EReal) (d : Fin 16) : EReal :=
  ∑ p : Fin 325, score (logit e W bA h) p * ewp e p d

/-- The linear term: dense features, all embedded numbers, and the bias. -/
def linear (x : Fin 13 → EReal) (e : Fin 26 → Fin 16 → EReal) (wd : Fin 13 → EReal) (ws : Fin 26 → Fin 16 → EReal) (lb : EReal) : EReal :=
  ((∑ n : Fin 13, x n * wd n) + (∑ f : Fin 26, ∑ d : Fin 16, e f d * ws f d)) + lb

/-- The model's output for one sample. -/
def sample (x : Fin 13 → EReal) (e : Fin 26 → Fin 16 → EReal) (W : Fin 16 → Fin 16 → EReal) (bA h P : Fin 16 → EReal)
    (wd : Fin 13 → EReal) (ws : Fin 26 → Fin 16 → EReal) (lb : EReal) : EReal :=
  Ideal.logistic ((∑ d : Fin 16, pooled e W bA h d * P d) + linear x e wd ws lb)

/-- Pair `p` lies in row `i` exactly when it is one of the `25 - i` entries after the first `i` rows: the rows'
    first entries are at 0, 25, 49, 72, …; this table is the whole triangle read off once. -/
theorem pair_table : ∀ p : Fin 325, (pairI p).val < (pairJ p).val ∧ (pairJ p).val < 26 := by decide

end Cert.Afm

end
-- ==== Proof.KValue.lean ====
/-
  The kernel's result array as one function of the program's arguments.

  The region has 16 grid points; point `t` handles the 256 samples `256 t + l`.  Its input windows hold, for those
  samples, the gathered embedding rows (field-major, sample-minor), the dense features (feature-major), and the
  whole weight arrays; its output window is lanes `256 t … 256 t + 255` of a `1 × 4096` row.  Given what the body
  leaves in one lane (the AFM forward pass of that lane's sample: hypothesis `hbody` below), every lane of the row
  is the forward pass of its sample, the 16 blocks tile the row, and the transpose after the region turns the row
  into the `4096 × 1` result.
-/
import proofs.«122830_j89627377532987_2_alg».proof.Proof.Gen.KernelIdeal.Frame
import proofs.«122830_j89627377532987_2_alg».proof.Proof.KHost
import proofs.«122830_j89627377532987_2_alg».proof.Proof.AfmSpec
import Idealize.ShloMosaic.Lib.Pipeline.Value
import Idealize.ShloMosaic.Lib.ValueLayout
import Idealize.ShloMosaic.Lib.ValueIdx
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.AfmValue

open Cert.KernelIdeal Cert.KernelIdeal.Gen Cert.KernelIdeal.AfmHost

/-- The forward pass of sample `b`, read off the argument arrays (`e` the gathered embedding rows). -/
def outRow (a0 : S4096x13.Idx → EReal) (e : S4096x26x16.Idx → EReal) (a3 : S16x16.Idx → EReal) (a4 : S16.Idx → EReal)
    (a5 a6 : S16x1.Idx → EReal) (a7 : S13x1.Idx → EReal) (a8 : S416x1.Idx → EReal) (a9 : S1.Idx → EReal) (b : Fin 4096) : EReal :=
  Cert.Afm.sample (fun n => a0 (ix2 b n)) (fun f d => e (ix3 b f d)) (fun d a => a3 (ix2 d a)) (fun a => a4 (ix1 a))
    (fun a => a5 (ix2 a 0)) (fun d => a6 (ix2 d 0)) (fun n => a7 (ix2 n 0))
    (fun f d => a8 (ix2 (⟨16 * f.val + d.val, by have := f.isLt; have := d.isLt; omega⟩ : Fin 416) 0)) (a9 (ix1 0))

variable (m : (ℓ : Loc nD τ sig) → Buf (Elt Ideal) ℓ) (ρ : Dev nD → PrngReg)

/-- Sample `b`'s output from the launch contents of the ten arguments on core `c`. -/
def rowOf (c : Dev nD) (b : Fin 4096) : EReal :=
  outRow (m ((c : Thread nD τ).loc main_arg0))
    (embOf (m ((c : Thread nD τ).loc main_arg1)) (m ((c : Thread nD τ).loc main_arg2)))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) b

/-- The sample that lane `l` of grid point `t` handles. -/
def lane (t : Fin cfg0.N) (l : Fin 256) : Fin 4096 :=
  ⟨256 * t.val + l.val, by have h : cfg0.N = 16 := N_0; have := t.isLt; have := l.isLt; omega⟩

/-- The printed index maps over the grid: the embedding and dense windows and the output window move along their
    last axis with the point; every other window stays at block 0. -/
theorem idx_facts : ∀ t : Fin cfg0.N,
    win0_0.index t (0 : Fin 3) = 0 ∧ win0_0.index t (1 : Fin 3) = 0 ∧ win0_0.index t (2 : Fin 3) = t.val
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = t.val :=
  (by decide +kernel : ∀ t : Fin grid0.N, _)

/-! ## The input blocks at a point, entry by entry -/

theorem iblk0_apply (c : Dev nD) (t : Fin cfg0.N) (f : Fin 26) (d : Fin 16) (l : Fin 256) :
    (iblk m c 0 t : Vec Ideal S26x16x256 .f32) (ix3 f d l)
      = embOf (m ((c : Thread nD τ).loc main_arg1)) (m ((c : Thread nD τ).loc main_arg2)) (ix3 (lane t l) f d) := by
  obtain ⟨e0, e1, e2, -⟩ := idx_facts t
  unfold iblk
  rw [View.read_apply]
  show V m c main_v17 (((cfg0.win 0).blk t).view.emb (ix3 f d l)) = _
  rw [V_v17]
  refine transpose_apply _ _ _ _ (ix3 (lane t l) f d) (fun b => ?_)
  match b with
  | ⟨0, _⟩ => show f.val = win0_0.index t (0 : Fin 3) * 26 + 1 * f.val; rw [e0]; omega
  | ⟨1, _⟩ => show d.val = win0_0.index t (1 : Fin 3) * 16 + 1 * d.val; rw [e1]; omega
  | ⟨2, _⟩ => show 256 * t.val + l.val = win0_0.index t (2 : Fin 3) * 256 + 1 * l.val; rw [e2]; omega

theorem iblk1_apply (c : Dev nD) (t : Fin cfg0.N) (n : Fin 13) (l : Fin 256) :
    (iblk m c 1 t : Vec Ideal S13x256 .f32) (ix2 n l) = m ((c : Thread nD τ).loc main_arg0) (ix2 (lane t l) n) := by
  obtain ⟨-, -, -, e0, e1, -⟩ := idx_facts t
  unfold iblk
  rw [View.read_apply]
  show V m c main_v18 (((cfg0.win 1).blk t).view.emb (ix2 n l)) = _
  rw [V_v18]
  refine transpose_apply _ _ _ _ (ix2 (lane t l) n) (fun b => ?_)
  match b with
  | ⟨0, _⟩ => show n.val = win0_1.index t (0 : Fin 2) * 13 + 1 * n.val; rw [e0]; omega
  | ⟨1, _⟩ => show 256 * t.val + l.val = win0_1.index t (1 : Fin 2) * 256 + 1 * l.val; rw [e1]; omega

theorem iblk2_apply (c : Dev nD) (t : Fin cfg0.N) (d a : Fin 16) :
    (iblk m c 2 t : Vec Ideal S16x16 .f32) (ix2 d a) = m ((c : Thread nD τ).loc main_arg3) (ix2 d a) := by
  obtain ⟨-, -, -, -, -, e0, e1, -⟩ := idx_facts t
  unfold iblk
  rw [View.read_apply]
  show V m c main_arg3 (((cfg0.win 2).blk t).view.emb (ix2 d a)) = _
  rw [V_main_arg3]
  refine congrArg (m ((c : Thread nD τ).loc main_arg3)) (funext fun b => Fin.ext ?_)
  match b with
  | ⟨0, _⟩ => show win0_2.index t (0 : Fin 2) * 16 + 1 * d.val = d.val; rw [e0]; omega
  | ⟨1, _⟩ => show win0_2.index t (1 : Fin 2) * 16 + 1 * a.val = a.val; rw [e1]; omega

theorem iblk3_apply (c : Dev nD) (t : Fin cfg0.N) (a : Fin 16) :
    (iblk m c 3 t : Vec Ideal S16x1 .f32) (ix2 a 0) = m ((c : Thread nD τ).loc main_arg4) (ix1 a) := by
  obtain ⟨-, -, -, -, -, -, -, e0, e1, -⟩ := idx_facts t
  unfold iblk
  rw [View.read_apply]
  show V m c main_v19 (((cfg0.win 3).blk t).view.emb (ix2 a 0)) = _
  rw [V_v19]
  refine shapeCast_apply _ _ _ (ix1 a) ?_
  rw [Shape.rowMajor_val_one, Shape.rowMajor_val_two]
  show a.val = (win0_3.index t (0 : Fin 2) * 16 + 1 * a.val) * 1 + (win0_3.index t (1 : Fin 2) * 1 + 1 * 0)
  rw [e0, e1]; omega

theorem iblk4_apply (c : Dev nD) (t : Fin cfg0.N) (a : Fin 16) :
    (iblk m c 4 t : Vec Ideal S16x1 .f32) (ix2 a 0) = m ((c : Thread nD τ).loc main_arg5) (ix2 a 0) := by
  obtain ⟨-, -, -, -, -, -, -, -, -, e0, e1, -⟩ := idx_facts t
  unfold iblk
  rw [View.read_apply]
  show V m c main_arg5 (((cfg0.win 4).blk t).view.emb (ix2 a 0)) = _
  rw [V_main_arg5]
  refine congrArg (m ((c : Thread nD τ).loc main_arg5)) (funext fun b => Fin.ext ?_)
  match b with
  | ⟨0, _⟩ => show win0_4.index t (0 : Fin 2) * 16 + 1 * a.val = a.val; rw [e0]; omega
  | ⟨1, _⟩ => show win0_4.index t (1 : Fin 2) * 1 + 1 * 0 = 0; rw [e1]

theorem iblk5_apply (c : Dev nD) (t : Fin cfg0.N) (d : Fin 16) :
    (iblk m c 5 t : Vec Ideal S16x1 .f32) (ix2 d 0) = m ((c : Thread nD τ).loc main_arg6) (ix2 d 0) := by
  obtain ⟨-, -, -, -, -, -, -, -, -, -, -, e0, e1, -⟩ := idx_facts t
  unfold iblk
  rw [View.read_apply]
  show V m c main_arg6 (((cfg0.win 5).blk t).view.emb (ix2 d 0)) = _
  rw [V_main_arg6]
  refine congrArg (m ((c : Thread nD τ).loc main_arg6)) (funext fun b => Fin.ext ?_)
  match b with
  | ⟨0, _⟩ => show win0_5.index t (0 : Fin 2) * 16 + 1 * d.val = d.val; rw [e0]; omega
  | ⟨1, _⟩ => show win0_5.index t (1 : Fin 2) * 1 + 1 * 0 = 0; rw [e1]

theorem iblk6_apply (c : Dev nD) (t : Fin cfg0.N) (n : Fin 13) :
    (iblk m c 6 t : Vec Ideal S13x1 .f32) (ix2 n 0) = m ((c : Thread nD τ).loc main_arg7) (ix2 n 0) := by
  obtain ⟨-, -, -, -, -, -, -, -, -, -, -, -, -, e0, e1, -⟩ := idx_facts t
  unfold iblk
  rw [View.read_apply]
  show V m c main_arg7 (((cfg0.win 6).blk t).view.emb (ix2 n 0)) = _
  rw [V_main_arg7]
  refine congrArg (m ((c : Thread nD τ).loc main_arg7)) (funext fun b => Fin.ext ?_)
  match b with
  | ⟨0, _⟩ => show win0_6.index t (0 : Fin 2) * 13 + 1 * n.val = n.val; rw [e0]; omega
  | ⟨1, _⟩ => show win0_6.index t (1 : Fin 2) * 1 + 1 * 0 = 0; rw [e1]

theorem iblk7_apply (c : Dev nD) (t : Fin cfg0.N) (f : Fin 26) (d : Fin 16) :
    (iblk m c 7 t : Vec Ideal S26x16 .f32) (ix2 f d)
      = m ((c : Thread nD τ).loc main_arg8) (ix2 (⟨16 * f.val + d.val, by have := f.isLt; have := d.isLt; omega⟩ : Fin 416) 0) := by
  obtain ⟨-, -, -, -, -, -, -, -, -, -, -, -, -, -, -, e0, e1, -⟩ := idx_facts t
  unfold iblk
  rw [View.read_apply]
  show V m c main_v20 (((cfg0.win 7).blk t).view.emb (ix2 f d)) = _
  rw [V_v20]
  refine shapeCast_apply _ _ _ (ix2 (⟨16 * f.val + d.val, by have := f.isLt; have := d.isLt; omega⟩ : Fin 416) 0) ?_
  rw [Shape.rowMajor_val_two, Shape.rowMajor_val_two]
  show (16 * f.val + d.val) * 1 + 0 = (win0_7.index t (0 : Fin 2) * 26 + 1 * f.val) * 16 + (win0_7.index t (1 : Fin 2) * 16 + 1 * d.val)
  rw [e0, e1]; omega

theorem iblk8_apply (c : Dev nD) (t : Fin cfg0.N) :
    (iblk m c 8 t : Vec Ideal S1x1 .f32) (ix2 0 0) = m ((c : Thread nD τ).loc main_arg9) (ix1 0) := by
  obtain ⟨-, -, -, -, -, -, -, -, -, -, -, -, -, -, -, -, -, e0, e1, -⟩ := idx_facts t
  unfold iblk
  rw [View.read_apply]
  show V m c main_v21 (((cfg0.win 8).blk t).view.emb (ix2 0 0)) = _
  rw [V_v21]
  refine shapeCast_apply _ _ _ (ix1 0) ?_
  rw [Shape.rowMajor_val_one, Shape.rowMajor_val_two]
  show 0 = (win0_8.index t (0 : Fin 2) * 1 + 1 * 0) * 1 + (win0_8.index t (1 : Fin 2) * 1 + 1 * 0)
  rw [e0, e1]

/-! ## What a point writes back, the cover, the array -/

/-- What the body leaves in one lane of its output block, whatever staging memrefs and input blocks it is run on:
    the forward pass of the sample whose numbers sit in that lane of the blocks. -/
def BodyFact : Prop :=
  ∀ (c : Dev nD) (i : grid0.Coords) (arg1 : Memref sig .tc .vmem S26x16x256 .f32) (harg1 : arg1.IsWhole) (arg2 : Memref sig .tc .vmem S13x256 .f32) (harg2 : arg2.IsWhole) (arg3 : Memref sig .tc .vmem S16x16 .f32) (harg3 : arg3.IsWhole) (arg4 : Memref sig .tc .vmem S16x1 .f32) (harg4 : arg4.IsWhole) (arg5 : Memref sig .tc .vmem S16x1 .f32) (harg5 : arg5.IsWhole) (arg6 : Memref sig .tc .vmem S16x1 .f32) (harg6 : arg6.IsWhole) (arg7 : Memref sig .tc .vmem S13x1 .f32) (harg7 : arg7.IsWhole) (arg8 : Memref sig .tc .vmem S26x16 .f32) (harg8 : arg8.IsWhole) (arg9 : Memref sig .tc .vmem S1x1 .f32) (harg9 : arg9.IsWhole) (arg10 : Memref sig .tc .vmem S1x256 .f32) (harg10 : arg10.IsWhole) (arg11 : Memref sig .tc .vmem S325x16x256 .bf16) (harg11 : arg11.IsWhole)
    (x0 : Vec Ideal S26x16x256 .f32) (x1 : Vec Ideal S13x256 .f32) (x2 : Vec Ideal S16x16 .f32) (x3 : Vec Ideal S16x1 .f32) (x4 : Vec Ideal S16x1 .f32) (x5 : Vec Ideal S16x1 .f32) (x6 : Vec Ideal S13x1 .f32) (x7 : Vec Ideal S26x16 .f32) (x8 : Vec Ideal S1x1 .f32) (l : Fin 256),
    out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 (ix2 0 l)
      = Cert.Afm.sample (fun n => x1 (ix2 n l)) (fun f d => x0 (ix3 f d l)) (fun d a => x2 (ix2 d a)) (fun a => x3 (ix2 a 0))
          (fun a => x4 (ix2 a 0)) (fun d => x5 (ix2 d 0)) (fun n => x6 (ix2 n 0)) (fun f d => x7 (ix2 f d)) (x8 (ix2 0 0))

/-- The forward pass depends on its nine arguments only through their values. -/
theorem sample_congr {x x' : Fin 13 → EReal} {e e' : Fin 26 → Fin 16 → EReal} {W W' : Fin 16 → Fin 16 → EReal}
    {bA bA' h h' P P' : Fin 16 → EReal} {wd wd' : Fin 13 → EReal} {ws ws' : Fin 26 → Fin 16 → EReal} {lb lb' : EReal}
    (h1 : x = x') (h2 : e = e') (h3 : W = W') (h4 : bA = bA') (h5 : h = h') (h6 : P = P') (h7 : wd = wd') (h8 : ws = ws')
    (h9 : lb = lb') : Cert.Afm.sample x e W bA h P wd ws lb = Cert.Afm.sample x' e' W' bA' h' P' wd' ws' lb' := by
  subst h1 h2 h3 h4 h5 h6 h7 h8 h9; rfl

/-- The row of 4096 outputs the region's result array ends holding. -/
def rowArr (c : Dev nD) : S1x4096.Idx → EReal := fun j => rowOf m c (j 1)

/-- What point `t` writes back is block `t` of that row. -/
theorem flushed_eq (hbody : BodyFact) (c : Dev nD) (t : Fin cfg0.N) :
    (dats m 0 c).flushed 9 t = ((cfg0.win 9).blk t).view.read (Elt Ideal) (rowArr m c) := by
  obtain ⟨-, -, -, -, -, -, -, -, -, -, -, -, -, -, -, -, -, -, -, e0, e1⟩ := idx_facts t
  show (cfg0.win 9).cut (grid0.coords t) ((dats m 0 c).after 9 t) = _
  rw [after0_9]
  unfold outsAt0
  funext y
  obtain ⟨u, l, rfl⟩ : ∃ (u : Fin 1) (l : Fin 256), y = ix2 u l := ⟨y 0, y 1, eq_ix2 y⟩
  obtain rfl : u = 0 := Subsingleton.elim _ _
  rw [View.read_apply]
  have hl : ((cfg0.win 9).blk t).view.emb (ix2 (0 : Fin 1) l) (1 : Fin 2) = lane t l :=
    Fin.ext (by show win0_9.index t (1 : Fin 2) * 256 + 1 * l.val = 256 * t.val + l.val; rw [e1]; omega)
  show out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (iblk m c 7 t) (iblk m c 8 t) (ix2 0 l)
    = rowOf m c (((cfg0.win 9).blk t).view.emb (ix2 (0 : Fin 1) l) (1 : Fin 2))
  rw [hl]
  refine (hbody c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (iblk m c 7 t) (iblk m c 8 t) l).trans ?_
  unfold rowOf outRow
  exact sample_congr (funext fun n => iblk1_apply m c t n l) (funext fun f => funext fun d => iblk0_apply m c t f d l)
    (funext fun d => funext fun a => iblk2_apply m c t d a) (funext fun a => iblk3_apply m c t a)
    (funext fun a => iblk4_apply m c t a) (funext fun d => iblk5_apply m c t d) (funext fun n => iblk6_apply m c t n)
    (funext fun f => funext fun d => iblk7_apply m c t f d) (iblk8_apply m c t)

/-- An index of the row is in point `t`'s block iff each coordinate is in the block's range on its axis. -/
theorem mem_blk (t : Fin cfg0.N) (i : S1x4096.Idx) :
    i ∈ ((cfg0.win 9).blk t).view.set ↔ ∀ a : Fin 2, win0_9.index t a * S1x256.size a ≤ (i a).val ∧ (i a).val < win0_9.index t a * S1x256.size a + S1x256.size a := by
  show i ∈ ((View.whole main_v22).slice (win0_9.rect t)).set ↔ _
  rw [View.set_slice_whole, Rect.mem_set_unit]
  exact Iff.rfl

/-- Lane `b` of the row is written back by point `b / 256`. -/
theorem cover (i : S1x4096.Idx) : ∃ t : Fin cfg0.N, (cfg0.win 9).flush t = true ∧ i ∈ ((cfg0.win 9).blk t).view.set := by
  have hN : cfg0.N = 16 := N_0
  have hi0 : (i 0).val < 1 := (i 0).isLt
  have hi1 : (i 1).val < 4096 := (i 1).isLt
  refine ⟨⟨(i 1).val / 256, by omega⟩, flush0_9 _, ?_⟩
  obtain ⟨-, -, -, -, -, -, -, -, -, -, -, -, -, -, -, -, -, -, -, e0, e1⟩ := idx_facts ⟨(i 1).val / 256, by omega⟩
  rw [mem_blk]
  intro a
  match a with
  | ⟨0, _⟩ =>
    show win0_9.index ⟨(i 1).val / 256, _⟩ (0 : Fin 2) * 1 ≤ (i 0).val ∧ (i 0).val < win0_9.index ⟨(i 1).val / 256, _⟩ (0 : Fin 2) * 1 + 1
    rw [e0]; omega
  | ⟨1, _⟩ =>
    show win0_9.index ⟨(i 1).val / 256, _⟩ (1 : Fin 2) * 256 ≤ (i 1).val ∧ (i 1).val < win0_9.index ⟨(i 1).val / 256, _⟩ (1 : Fin 2) * 256 + 256
    rw [e1]; show (i 1).val / 256 * 256 ≤ (i 1).val ∧ (i 1).val < (i 1).val / 256 * 256 + 256; omega

/-- So the region's result array ends holding the row. -/
theorem final (hbody : BodyFact) (c : Dev nD) : (dats m 0 c).arrAt 9 cfg0.N = rowArr m c :=
  (dats m 0 c).arrAt_eq_of_cover 9 (rowArr m c) (fun t _ => flushed_eq m hbody c t) cover

/-! ## After the region: the row transposed -/

/-- The program's result: entry `(b, 0)` is sample `b`'s output. -/
def result (c : Dev nD) : S4096x1.Idx → EReal := fun j => rowOf m c (j 0)

/-- The one operation after the region transposes the region's result array. -/
theorem tail_eq (c : Dev nD) : Pipeline.afterTail₀ cfgs (dats m) 0 (V0 m) [hostOps1] c main_v23
    = transpose S4096x1 [1, 0] ((dats m 0 c).arrAt 9 cfg0.N) transposes_S1x4096_S4096x1_1_0 := by
  unfold Pipeline.afterTail₀
  show StableHlo.after hostOps1 _ (Proc.devRef .tc main_v23) = _
  after_results
  exact congrArg (fun x => transpose S4096x1 [1, 0] x transposes_S1x4096_S4096x1_1_0)
    (Pipeline.withArrays_arr spec0 launch0.win.arr_inj c _ _ 9)

/-- The row transposed is the result column. -/
theorem transpose_row (c : Dev nD) :
    transpose S4096x1 [1, 0] (rowArr m c) transposes_S1x4096_S4096x1_1_0 = result m c := by
  funext j
  obtain ⟨b, u, rfl⟩ : ∃ (b : Fin 4096) (u : Fin 1), j = ix2 b u := ⟨j 0, j 1, eq_ix2 j⟩
  exact transpose_ix2_apply (rowArr m c) transposes_S1x4096_S4096x1_1_0 b u

/-- The kernel program's run, read: the result at the forward pass of every sample, the arguments unchanged. -/
theorem run (hbody : BodyFact) :
    θ_run defs (onTc (τ := τ) (main (F := Ideal))) ⟨m, fun _ => 0, ρ⟩ (fun r => ∀ c : Dev nD,
      r.2.mem ((c.tc : Thread nD τ).loc main_v23) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(((h c).2 main_v23 (Pipeline.mem_restRefs_of main_v23 (by decide) (by decide))).trans (tail_eq m c)).trans
        ((congrArg (fun x => transpose S4096x1 [1, 0] x transposes_S1x4096_S4096x1_1_0) (final m hbody c)).trans (transpose_row m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      (((h c).2 main_arg4 (Pipeline.mem_restRefs_of main_arg4 (by decide) (by decide))).trans (W_main_arg4 m (dats m) c)),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c))),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩)
    (run_main m ρ)

end Cert.KernelIdeal.AfmValue

end
-- ==== Proof.BodyScratch.lean ====
/-
  The scratch buffer of the kernel body, read back whole.

  The body fills a buffer of 325 rows (each a 16 × 256 block) by 25 stores along the first axis.  Store `i`
  (`i = 0, …, 24`) writes the `25 - i` rows starting at row `0 + 25 + 24 + … + (26 - i)`; its row `q` holds, entry
  by entry, field `i + 1 + q` of the embedded block times field `i`.  The rows are therefore the pairs
  `(i, j)`, `i < j < 26`, in the order of the strict upper triangle read row by row: row `p` of the buffer is
  the entrywise product of the two fields of pair `p`.  The stores tile the buffer, so reading it back gives
  one function of the index, whatever the buffer held before.
-/
import proofs.«122830_j89627377532987_2_alg».proof.Proof.AfmSpec
import proofs.«122830_j89627377532987_2_alg».proof.Proof.Gen.KernelIdeal.Skeleton
import Idealize.ShloMosaic.Lib.Pipeline.Value
import Idealize.ShloMosaic.Lib.ValueIdx
import Idealize.ShloMosaic.Lib.Tactic
import Idealize.ShloMosaic.Lib.Ring

noncomputable section

namespace Cert.KernelIdeal.AfmBody

open Cert.KernelIdeal Cert.KernelIdeal.Gen Idealize.ShloMosaic Idealize.ShloMosaic.ValueIdx Idealize.ShloMosaic.Tactic

/-! ## One store's value -/

/-- Rows `b` (a block of `n` fields) times the one field `a`, the field repeated along the first axis, rounded to
    the buffer's format: what every store but the last writes. -/
def slabVal {F : FTy → Type} [FloatOps F] (n : ℕ) (a : Vec F S1x16x256 .f32) (b : Vec F ⟨3, ![n, 16, 256]⟩ .f32)
    (h1 : S1x16x256.ShapeCasts S16x256) (h2 : (⟨3, ![n, 16, 256]⟩ : Shape).ShapeCasts ⟨3, ![n, 16, 256]⟩)
    (h3 : S16x256.ShapeCasts S1x16x256) (h4 : S1x16x256.ShapeCasts S1x16x256)
    (h5 : S1x16x256.Broadcasts ⟨3, ![n, 16, 256]⟩) (h6 : FTy.bits .bf16 < FTy.bits .f32) :
    FVec F ⟨3, ![n, 16, 256]⟩ .bf16 :=
  shapeCast ⟨3, ![n, 16, 256]⟩ (truncf .bf16 (mulf (shapeCast ⟨3, ![n, 16, 256]⟩ b h2)
    (broadcastTo ⟨3, ![n, 16, 256]⟩ (shapeCast S1x16x256 (shapeCast S1x16x256 (shapeCast S16x256 a h1) h3) h4) h5)) h6) h2

/-- The last store writes one row: field 25 times field 24, no repetition needed. -/
def lastVal {F : FTy → Type} [FloatOps F] (a b : Vec F S1x16x256 .f32)
    (h1 : S1x16x256.ShapeCasts S16x256) (h3 : S16x256.ShapeCasts S1x16x256) (h4 : S1x16x256.ShapeCasts S1x16x256)
    (h6 : FTy.bits .bf16 < FTy.bits .f32) : FVec F S1x16x256 .bf16 :=
  shapeCast S1x16x256 (truncf .bf16 (mulf (shapeCast S1x16x256 b h4)
    (shapeCast S1x16x256 (shapeCast S16x256 a h1) h3)) h6) h4

/-- On the extended reals the rounding is the identity and the reshapes keep every entry in place: entry
    `(q, d, l)` of a store is `b (q, d, l) * a (0, d, l)`. -/
theorem slabVal_apply (n : ℕ) (a : Vec Ideal S1x16x256 .f32) (b : Vec Ideal ⟨3, ![n, 16, 256]⟩ .f32)
    (h1 : S1x16x256.ShapeCasts S16x256) (h2 : (⟨3, ![n, 16, 256]⟩ : Shape).ShapeCasts ⟨3, ![n, 16, 256]⟩)
    (h3 : S16x256.ShapeCasts S1x16x256) (h4 : S1x16x256.ShapeCasts S1x16x256)
    (h5 : S1x16x256.Broadcasts ⟨3, ![n, 16, 256]⟩) (h6 : FTy.bits .bf16 < FTy.bits .f32)
    (q : Fin n) (d : Fin 16) (l : Fin 256) :
    slabVal (F := Ideal) n a b h1 h2 h3 h4 h5 h6 (ix3 q d l) = b (ix3 q d l) * a (ix3 (0 : Fin 1) d l) := by
  unfold slabVal
  simp only [shapeCast_self, shapeCast_shapeCast]
  show b (ix3 q d l) * broadcastTo ⟨3, ![n, 16, 256]⟩ a h5 (ix3 q d l) = _
  refine congrArg (fun t => b (ix3 q d l) * t) ?_
  refine broadcastTo_apply a h5 (ix3 q d l) (ix3 (0 : Fin 1) d l) fun ax => ?_
  match ax with
  | ⟨0, _⟩ => rfl
  | ⟨1, _⟩ => rfl
  | ⟨2, _⟩ => rfl

theorem lastVal_apply (a b : Vec Ideal S1x16x256 .f32)
    (h1 : S1x16x256.ShapeCasts S16x256) (h3 : S16x256.ShapeCasts S1x16x256) (h4 : S1x16x256.ShapeCasts S1x16x256)
    (h6 : FTy.bits .bf16 < FTy.bits .f32) (q : Fin 1) (d : Fin 16) (l : Fin 256) :
    lastVal (F := Ideal) a b h1 h3 h4 h6 (ix3 q d l) = b (ix3 q d l) * a (ix3 (0 : Fin 1) d l) := by
  obtain rfl : q = 0 := Subsingleton.elim _ _
  unfold lastVal
  simp only [shapeCast_self, shapeCast_shapeCast]
  rfl

/-! ## The rows are the pairs -/

/-- The first row written by store `i`. -/
def rowOff (i : ℕ) : ℕ := 25 * i - i * (i - 1) / 2

/-- Row `rowOff i + q`, `q < 25 - i`, is the pair `(i, i + 1 + q)`: the triangle's table, read off once. -/
theorem row_table : ∀ (i q : Fin 25) (h : rowOff i.val + q.val < 325), q.val < 25 - i.val →
    (Cert.Afm.pairI ⟨rowOff i.val + q.val, h⟩).val = i.val ∧
      (Cert.Afm.pairJ ⟨rowOff i.val + q.val, h⟩).val = i.val + 1 + q.val := by
  decide

/-- Row `p` of the buffer as the model states it: the larger field of pair `p` times the smaller. -/
def pairProd (x0 : Vec Ideal S26x16x256 .f32) : S325x16x256.Idx → Elt Ideal .bf16 :=
  fun y => x0 (ix3 (Cert.Afm.pairJ (y 0)) (y 1) (y 2)) * x0 (ix3 (Cert.Afm.pairI (y 0)) (y 1) (y 2))

/-- A store of `n = 25 - i` rows at row `off = rowOff i` whose entry `(q, d, l)` is field `i + 1 + q` times field
    `i` of the embedded block agrees with `pairProd` on its rows. -/
theorem piece_ok (x0 : Vec Ideal S26x16x256 .f32) (n i i1 off : ℕ) (hi : i < 25) (hn : n = 25 - i) (hi1 : i1 = i + 1)
    (hoff : off = rowOff i)
    (inbA : ∀ a, (![i, 0, 0] : Fin 3 → ℕ) a + (![1, 16, 256] : Fin 3 → ℕ) a ≤ S26x16x256.size a)
    (inbB : ∀ a, (![i1, 0, 0] : Fin 3 → ℕ) a + (![n, 16, 256] : Fin 3 → ℕ) a ≤ S26x16x256.size a)
    (inbS : ∀ a, (![off, 0, 0] : Fin 3 → ℕ) a + (![n, 16, 256] : Fin 3 → ℕ) a ≤ S325x16x256.size a)
    (w : (⟨3, ![n, 16, 256]⟩ : Shape).Idx → Elt Ideal .bf16)
    (hw : ∀ (q : Fin n) (d : Fin 16) (l : Fin 256), w (ix3 q d l)
      = View.ld x0 (Rect.unit (s := S26x16x256) ![i1, 0, 0] ![n, 16, 256] inbB) (ix3 q d l)
        * View.ld x0 (Rect.unit (s := S26x16x256) ![i, 0, 0] ![1, 16, 256] inbA) (ix3 (0 : Fin 1) d l))
    (x : (Rect.unit (s := S325x16x256) ![off, 0, 0] ![n, 16, 256] inbS).shape.Idx) :
    w x = pairProd x0 ((Rect.unit (s := S325x16x256) ![off, 0, 0] ![n, 16, 256] inbS).emb x) := by
  subst hn hi1 hoff
  obtain ⟨q, d, l, rfl⟩ : ∃ (q : Fin (25 - i)) (d : Fin 16) (l : Fin 256), x = ix3 q d l :=
    ⟨x 0, x 1, x 2, eq_ix3 x⟩
  have hq : rowOff i + q.val < 325 := by
    have h0 := inbS 0
    have : rowOff i + (25 - i) ≤ 325 := h0
    have := q.isLt
    omega
  obtain ⟨hI, hJ⟩ : (Cert.Afm.pairI ⟨rowOff i + q.val, hq⟩).val = i
      ∧ (Cert.Afm.pairJ ⟨rowOff i + q.val, hq⟩).val = i + 1 + q.val :=
    row_table ⟨i, hi⟩ ⟨q.val, by have := q.isLt; omega⟩ hq q.isLt
  have e0 : (Rect.unit (s := S325x16x256) ![rowOff i, 0, 0] ![25 - i, 16, 256] inbS).emb (ix3 q d l)
      = ix3 (⟨rowOff i + q.val, hq⟩ : Fin 325) d l := by
    funext a; apply Fin.ext
    match a with
    | ⟨0, _⟩ => show rowOff i + 1 * q.val = rowOff i + q.val; omega
    | ⟨1, _⟩ => show 0 + 1 * d.val = d.val; omega
    | ⟨2, _⟩ => show 0 + 1 * l.val = l.val; omega
  have eB : (Rect.unit (s := S26x16x256) ![i + 1, 0, 0] ![25 - i, 16, 256] inbB).idx (ix3 q d l)
      = ix3 (Cert.Afm.pairJ ⟨rowOff i + q.val, hq⟩) d l := by
    funext a; apply Fin.ext
    match a with
    | ⟨0, _⟩ => show i + 1 + 1 * q.val = (Cert.Afm.pairJ ⟨rowOff i + q.val, hq⟩).val; rw [hJ]; omega
    | ⟨1, _⟩ => show 0 + 1 * d.val = d.val; omega
    | ⟨2, _⟩ => show 0 + 1 * l.val = l.val; omega
  have eA : (Rect.unit (s := S26x16x256) ![i, 0, 0] ![1, 16, 256] inbA).idx (ix3 (0 : Fin 1) d l)
      = ix3 (Cert.Afm.pairI ⟨rowOff i + q.val, hq⟩) d l := by
    funext a; apply Fin.ext
    match a with
    | ⟨0, _⟩ => show i + 1 * 0 = (Cert.Afm.pairI ⟨rowOff i + q.val, hq⟩).val; rw [hI]; omega
    | ⟨1, _⟩ => show 0 + 1 * d.val = d.val; omega
    | ⟨2, _⟩ => show 0 + 1 * l.val = l.val; omega
  rw [hw q d l, e0]
  show x0 _ * x0 _ = x0 _ * x0 _
  rw [eB, eA]

/-! ## The buffer -/

/-- The 25 stores, last first, each with the value it writes as a function of the embedded block. -/
def slabs {F : FTy → Type} [FloatOps F] (x0 : Vec F S26x16x256 .f32) : List (View.Piece (Elt F) S325x16x256 .bf16) :=
  [⟨Rect.unit ![324, 0, 0] S1x16x256.size Facts₀.inb_S325x16x256_S1x16x256_324_0_0,
      k0_pay35 (k0_pay33 (View.ld x0 (Rect.unit ![25, 0, 0] S1x16x256.size Facts₀.inb_S26x16x256_S1x16x256_25_0_0))) (k0_pay34 (View.ld x0 (Rect.unit ![24, 0, 0] S1x16x256.size Facts₀.inb_S26x16x256_S1x16x256_24_0_0)))⟩,
    ⟨Rect.unit ![322, 0, 0] S2x16x256.size Facts₀.inb_S325x16x256_S2x16x256_322_0_0,
      k0_pay32 (View.ld x0 (Rect.unit ![23, 0, 0] S1x16x256.size Facts₀.inb_S26x16x256_S1x16x256_23_0_0)) (View.ld x0 (Rect.unit ![24, 0, 0] S2x16x256.size Facts₀.inb_S26x16x256_S2x16x256_24_0_0))⟩,
    ⟨Rect.unit ![319, 0, 0] S3x16x256.size Facts₀.inb_S325x16x256_S3x16x256_319_0_0,
      k0_pay31 (View.ld x0 (Rect.unit ![22, 0, 0] S1x16x256.size Facts₀.inb_S26x16x256_S1x16x256_22_0_0)) (View.ld x0 (Rect.unit ![23, 0, 0] S3x16x256.size Facts₀.inb_S26x16x256_S3x16x256_23_0_0))⟩,
    ⟨Rect.unit ![315, 0, 0] S4x16x256.size Facts₀.inb_S325x16x256_S4x16x256_315_0_0,
      k0_pay30 (k0_pay29 (View.ld x0 (Rect.unit ![21, 0, 0] S1x16x256.size Facts₀.inb_S26x16x256_S1x16x256_21_0_0)) (View.ld x0 (Rect.unit ![22, 0, 0] S4x16x256.size Facts₀.inb_S26x16x256_S4x16x256_22_0_0)))⟩,
    ⟨Rect.unit ![310, 0, 0] S5x16x256.size Facts₀.inb_S325x16x256_S5x16x256_310_0_0,
      k0_pay28 (View.ld x0 (Rect.unit ![20, 0, 0] S1x16x256.size Facts₀.inb_S26x16x256_S1x16x256_20_0_0)) (View.ld x0 (Rect.unit ![21, 0, 0] S5x16x256.size Facts₀.inb_S26x16x256_S5x16x256_21_0_0))⟩,
    ⟨Rect.unit ![304, 0, 0] S6x16x256.size Facts₀.inb_S325x16x256_S6x16x256_304_0_0,
      k0_pay27 (View.ld x0 (Rect.unit ![19, 0, 0] S1x16x256.size Facts₀.inb_S26x16x256_S1x16x256_19_0_0)) (View.ld x0 (Rect.unit ![20, 0, 0] S6x16x256.size Facts₀.inb_S26x16x256_S6x16x256_20_0_0))⟩,
    ⟨Rect.unit ![297, 0, 0] S7x16x256.size Facts₀.inb_S325x16x256_S7x16x256_297_0_0,
      k0_pay26 (View.ld x0 (Rect.unit ![18, 0, 0] S1x16x256.size Facts₀.inb_S26x16x256_S1x16x256_18_0_0)) (View.ld x0 (Rect.unit ![19, 0, 0] S7x16x256.size Facts₀.inb_S26x16x256_S7x16x256_19_0_0))⟩,
    ⟨Rect.unit ![289, 0, 0] S8x16x256.size Facts₀.inb_S325x16x256_S8x16x256_289_0_0,
      k0_pay25 (View.ld x0 (Rect.unit ![17, 0, 0] S1x16x256.size Facts₀.inb_S26x16x256_S1x16x256_17_0_0)) (View.ld x0 (Rect.unit ![18, 0, 0] S8x16x256.size Facts₀.inb_S26x16x256_S8x16x256_18_0_0))⟩,
    ⟨Rect.unit ![280, 0, 0] S9x16x256.size Facts₀.inb_S325x16x256_S9x16x256_280_0_0,
      k0_pay24 (k0_pay23 (View.ld x0 (Rect.unit ![16, 0, 0] S1x16x256.size Facts₀.inb_S26x16x256_S1x16x256_16_0_0))) (View.ld x0 (Rect.unit ![17, 0, 0] S9x16x256.size Facts₀.inb_S26x16x256_S9x16x256_17_0_0))⟩,
    ⟨Rect.unit ![270, 0, 0] S10x16x256.size Facts₀.inb_S325x16x256_S10x16x256_270_0_0,
      k0_pay22 (View.ld x0 (Rect.unit ![15, 0, 0] S1x16x256.size Facts₀.inb_S26x16x256_S1x16x256_15_0_0)) (View.ld x0 (Rect.unit ![16, 0, 0] S10x16x256.size Facts₀.inb_S26x16x256_S10x16x256_16_0_0))⟩,
    ⟨Rect.unit ![259, 0, 0] S11x16x256.size Facts₀.inb_S325x16x256_S11x16x256_259_0_0,
      k0_pay21 (View.ld x0 (Rect.unit ![14, 0, 0] S1x16x256.size Facts₀.inb_S26x16x256_S1x16x256_14_0_0)) (View.ld x0 (Rect.unit ![15, 0, 0] S11x16x256.size Facts₀.inb_S26x16x256_S11x16x256_15_0_0))⟩,
    ⟨Rect.unit ![247, 0, 0] S12x16x256.size Facts₀.inb_S325x16x256_S12x16x256_247_0_0,
      k0_pay20 (k0_pay18 (View.ld x0 (Rect.unit ![14, 0, 0] S12x16x256.size Facts₀.inb_S26x16x256_S12x16x256_14_0_0))) (k0_pay19 (View.ld x0 (Rect.unit ![13, 0, 0] S1x16x256.size Facts₀.inb_S26x16x256_S1x16x256_13_0_0)))⟩,
    ⟨Rect.unit ![234, 0, 0] S13x16x256.size Facts₀.inb_S325x16x256_S13x16x256_234_0_0,
      k0_pay17 (View.ld x0 (Rect.unit ![12, 0, 0] S1x16x256.size Facts₀.inb_S26x16x256_S1x16x256_12_0_0)) (View.ld x0 (Rect.unit ![13, 0, 0] S13x16x256.size Facts₀.inb_S26x16x256_S13x16x256_13_0_0))⟩,
    ⟨Rect.unit ![220, 0, 0] S14x16x256.size Facts₀.inb_S325x16x256_S14x16x256_220_0_0,
      k0_pay16 (View.ld x0 (Rect.unit ![11, 0, 0] S1x16x256.size Facts₀.inb_S26x16x256_S1x16x256_11_0_0)) (View.ld x0 (Rect.unit ![12, 0, 0] S14x16x256.size Facts₀.inb_S26x16x256_S14x16x256_12_0_0))⟩,
    ⟨Rect.unit ![205, 0, 0] S15x16x256.size Facts₀.inb_S325x16x256_S15x16x256_205_0_0,
      k0_pay15 (k0_pay14 (View.ld x0 (Rect.unit ![10, 0, 0] S1x16x256.size Facts₀.inb_S26x16x256_S1x16x256_10_0_0)) (View.ld x0 (Rect.unit ![11, 0, 0] S15x16x256.size Facts₀.inb_S26x16x256_S15x16x256_11_0_0)))⟩,
    ⟨Rect.unit ![189, 0, 0] S16x16x256.size Facts₀.inb_S325x16x256_S16x16x256_189_0_0,
      k0_pay13 (View.ld x0 (Rect.unit ![9, 0, 0] S1x16x256.size Facts₀.inb_S26x16x256_S1x16x256_9_0_0)) (View.ld x0 (Rect.unit ![10, 0, 0] S16x16x256.size Facts₀.inb_S26x16x256_S16x16x256_10_0_0))⟩,
    ⟨Rect.unit ![172, 0, 0] S17x16x256.size Facts₀.inb_S325x16x256_S17x16x256_172_0_0,
      k0_pay12 (View.ld x0 (Rect.unit ![8, 0, 0] S1x16x256.size Facts₀.inb_S26x16x256_S1x16x256_8_0_0)) (View.ld x0 (Rect.unit ![9, 0, 0] S17x16x256.size Facts₀.inb_S26x16x256_S17x16x256_9_0_0))⟩,
    ⟨Rect.unit ![154, 0, 0] S18x16x256.size Facts₀.inb_S325x16x256_S18x16x256_154_0_0,
      k0_pay11 (View.ld x0 (Rect.unit ![7, 0, 0] S1x16x256.size Facts₀.inb_S26x16x256_S1x16x256_7_0_0)) (View.ld x0 (Rect.unit ![8, 0, 0] S18x16x256.size Facts₀.inb_S26x16x256_S18x16x256_8_0_0))⟩,
    ⟨Rect.unit ![135, 0, 0] S19x16x256.size Facts₀.inb_S325x16x256_S19x16x256_135_0_0,
      k0_pay10 (View.ld x0 (Rect.unit ![6, 0, 0] S1x16x256.size Facts₀.inb_S26x16x256_S1x16x256_6_0_0)) (View.ld x0 (Rect.unit ![7, 0, 0] S19x16x256.size Facts₀.inb_S26x16x256_S19x16x256_7_0_0))⟩,
    ⟨Rect.unit ![115, 0, 0] S20x16x256.size Facts₀.inb_S325x16x256_S20x16x256_115_0_0,
      k0_pay9 (k0_pay8 (View.ld x0 (Rect.unit ![5, 0, 0] S1x16x256.size Facts₀.inb_S26x16x256_S1x16x256_5_0_0))) (View.ld x0 (Rect.unit ![6, 0, 0] S20x16x256.size Facts₀.inb_S26x16x256_S20x16x256_6_0_0))⟩,
    ⟨Rect.unit ![94, 0, 0] S21x16x256.size Facts₀.inb_S325x16x256_S21x16x256_94_0_0,
      k0_pay7 (View.ld x0 (Rect.unit ![4, 0, 0] S1x16x256.size Facts₀.inb_S26x16x256_S1x16x256_4_0_0)) (View.ld x0 (Rect.unit ![5, 0, 0] S21x16x256.size Facts₀.inb_S26x16x256_S21x16x256_5_0_0))⟩,
    ⟨Rect.unit ![72, 0, 0] S22x16x256.size Facts₀.inb_S325x16x256_S22x16x256_72_0_0,
      k0_pay6 (View.ld x0 (Rect.unit ![3, 0, 0] S1x16x256.size Facts₀.inb_S26x16x256_S1x16x256_3_0_0)) (View.ld x0 (Rect.unit ![4, 0, 0] S22x16x256.size Facts₀.inb_S26x16x256_S22x16x256_4_0_0))⟩,
    ⟨Rect.unit ![49, 0, 0] S23x16x256.size Facts₀.inb_S325x16x256_S23x16x256_49_0_0,
      k0_pay5 (k0_pay4 (View.ld x0 (Rect.unit ![2, 0, 0] S1x16x256.size Facts₀.inb_S26x16x256_S1x16x256_2_0_0)) (View.ld x0 (Rect.unit ![3, 0, 0] S23x16x256.size Facts₀.inb_S26x16x256_S23x16x256_3_0_0)))⟩,
    ⟨Rect.unit ![25, 0, 0] S24x16x256.size Facts₀.inb_S325x16x256_S24x16x256_25_0_0,
      k0_pay3 (View.ld x0 (Rect.unit ![1, 0, 0] S1x16x256.size Facts₀.inb_S26x16x256_S1x16x256_1_0_0)) (View.ld x0 (Rect.unit ![2, 0, 0] S24x16x256.size Facts₀.inb_S26x16x256_S24x16x256_2_0_0))⟩,
    ⟨Rect.unit ![0, 0, 0] S25x16x256.size Facts₀.inb_S325x16x256_S25x16x256_0_0_0,
      k0_pay2 (View.ld x0 (Rect.unit ![0, 0, 0] S1x16x256.size Facts₀.inb_S26x16x256_S1x16x256_0_0_0)) (View.ld x0 (Rect.unit ![1, 0, 0] S25x16x256.size Facts₀.inb_S26x16x256_S25x16x256_1_0_0))⟩]

/-- The scratch buffer after the 25 stores, read back whole. -/
def scratch {F : FTy → Type} [FloatOps F] (x0 : Vec F S26x16x256 .f32) : Vec F S325x16x256 .bf16 :=
  View.canon (slabs x0)

/-- Every store agrees with `pairProd` on the rows it writes. -/
theorem slabs_ok (x0 : Vec Ideal S26x16x256 .f32) :
    ∀ p ∈ slabs (F := Ideal) x0, ∀ x : p.1.shape.Idx, p.2 x = pairProd x0 (p.1.emb x) := by
  intro p hp
  unfold slabs at hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl
  · exact fun x => piece_ok x0 1 24 25 324 (by decide) rfl rfl rfl
      Facts₀.inb_S26x16x256_S1x16x256_24_0_0 Facts₀.inb_S26x16x256_S1x16x256_25_0_0 Facts₀.inb_S325x16x256_S1x16x256_324_0_0
      (k0_pay35 (k0_pay33 (View.ld x0 (Rect.unit ![25, 0, 0] S1x16x256.size Facts₀.inb_S26x16x256_S1x16x256_25_0_0))) (k0_pay34 (View.ld x0 (Rect.unit ![24, 0, 0] S1x16x256.size Facts₀.inb_S26x16x256_S1x16x256_24_0_0))))
      (fun q d l => lastVal_apply (View.ld x0 (Rect.unit ![24, 0, 0] S1x16x256.size Facts₀.inb_S26x16x256_S1x16x256_24_0_0)) (View.ld x0 (Rect.unit ![25, 0, 0] S1x16x256.size Facts₀.inb_S26x16x256_S1x16x256_25_0_0))
        Facts₀.shapeCasts_S1x16x256_S16x256 Facts₀.shapeCasts_S16x256_S1x16x256 Facts₀.shapeCasts_S1x16x256_S1x16x256 Facts₀.bitsLt_bf16_f32 q d l) x
  · exact fun x => piece_ok x0 2 23 24 322 (by decide) rfl rfl rfl
      Facts₀.inb_S26x16x256_S1x16x256_23_0_0 Facts₀.inb_S26x16x256_S2x16x256_24_0_0 Facts₀.inb_S325x16x256_S2x16x256_322_0_0
      (k0_pay32 (View.ld x0 (Rect.unit ![23, 0, 0] S1x16x256.size Facts₀.inb_S26x16x256_S1x16x256_23_0_0)) (View.ld x0 (Rect.unit ![24, 0, 0] S2x16x256.size Facts₀.inb_S26x16x256_S2x16x256_24_0_0)))
      (fun q d l => slabVal_apply 2 (View.ld x0 (Rect.unit ![23, 0, 0] S1x16x256.size Facts₀.inb_S26x16x256_S1x16x256_23_0_0)) (View.ld x0 (Rect.unit ![24, 0, 0] S2x16x256.size Facts₀.inb_S26x16x256_S2x16x256_24_0_0))
        Facts₀.shapeCasts_S1x16x256_S16x256 Facts₀.shapeCasts_S2x16x256_S2x16x256 Facts₀.shapeCasts_S16x256_S1x16x256 Facts₀.shapeCasts_S1x16x256_S1x16x256 Facts₀.broadcasts_S1x16x256_S2x16x256 Facts₀.bitsLt_bf16_f32 q d l) x
  · exact fun x => piece_ok x0 3 22 23 319 (by decide) rfl rfl rfl
      Facts₀.inb_S26x16x256_S1x16x256_22_0_0 Facts₀.inb_S26x16x256_S3x16x256_23_0_0 Facts₀.inb_S325x16x256_S3x16x256_319_0_0
      (k0_pay31 (View.ld x0 (Rect.unit ![22, 0, 0] S1x16x256.size Facts₀.inb_S26x16x256_S1x16x256_22_0_0)) (View.ld x0 (Rect.unit ![23, 0, 0] S3x16x256.size Facts₀.inb_S26x16x256_S3x16x256_23_0_0)))
      (fun q d l => slabVal_apply 3 (View.ld x0 (Rect.unit ![22, 0, 0] S1x16x256.size Facts₀.inb_S26x16x256_S1x16x256_22_0_0)) (View.ld x0 (Rect.unit ![23, 0, 0] S3x16x256.size Facts₀.inb_S26x16x256_S3x16x256_23_0_0))
        Facts₀.shapeCasts_S1x16x256_S16x256 Facts₀.shapeCasts_S3x16x256_S3x16x256 Facts₀.shapeCasts_S16x256_S1x16x256 Facts₀.shapeCasts_S1x16x256_S1x16x256 Facts₀.broadcasts_S1x16x256_S3x16x256 Facts₀.bitsLt_bf16_f32 q d l) x
  · exact fun x => piece_ok x0 4 21 22 315 (by decide) rfl rfl rfl
      Facts₀.inb_S26x16x256_S1x16x256_21_0_0 Facts₀.inb_S26x16x256_S4x16x256_22_0_0 Facts₀.inb_S325x16x256_S4x16x256_315_0_0
      (k0_pay30 (k0_pay29 (View.ld x0 (Rect.unit ![21, 0, 0] S1x16x256.size Facts₀.inb_S26x16x256_S1x16x256_21_0_0)) (View.ld x0 (Rect.unit ![22, 0, 0] S4x16x256.size Facts₀.inb_S26x16x256_S4x16x256_22_0_0))))
      (fun q d l => slabVal_apply 4 (View.ld x0 (Rect.unit ![21, 0, 0] S1x16x256.size Facts₀.inb_S26x16x256_S1x16x256_21_0_0)) (View.ld x0 (Rect.unit ![22, 0, 0] S4x16x256.size Facts₀.inb_S26x16x256_S4x16x256_22_0_0))
        Facts₀.shapeCasts_S1x16x256_S16x256 Facts₀.shapeCasts_S4x16x256_S4x16x256 Facts₀.shapeCasts_S16x256_S1x16x256 Facts₀.shapeCasts_S1x16x256_S1x16x256 Facts₀.broadcasts_S1x16x256_S4x16x256 Facts₀.bitsLt_bf16_f32 q d l) x
  · exact fun x => piece_ok x0 5 20 21 310 (by decide) rfl rfl rfl
      Facts₀.inb_S26x16x256_S1x16x256_20_0_0 Facts₀.inb_S26x16x256_S5x16x256_21_0_0 Facts₀.inb_S325x16x256_S5x16x256_310_0_0
      (k0_pay28 (View.ld x0 (Rect.unit ![20, 0, 0] S1x16x256.size Facts₀.inb_S26x16x256_S1x16x256_20_0_0)) (View.ld x0 (Rect.unit ![21, 0, 0] S5x16x256.size Facts₀.inb_S26x16x256_S5x16x256_21_0_0)))
      (fun q d l => slabVal_apply 5 (View.ld x0 (Rect.unit ![20, 0, 0] S1x16x256.size Facts₀.inb_S26x16x256_S1x16x256_20_0_0)) (View.ld x0 (Rect.unit ![21, 0, 0] S5x16x256.size Facts₀.inb_S26x16x256_S5x16x256_21_0_0))
        Facts₀.shapeCasts_S1x16x256_S16x256 Facts₀.shapeCasts_S5x16x256_S5x16x256 Facts₀.shapeCasts_S16x256_S1x16x256 Facts₀.shapeCasts_S1x16x256_S1x16x256 Facts₀.broadcasts_S1x16x256_S5x16x256 Facts₀.bitsLt_bf16_f32 q d l) x
  · exact fun x => piece_ok x0 6 19 20 304 (by decide) rfl rfl rfl
      Facts₀.inb_S26x16x256_S1x16x256_19_0_0 Facts₀.inb_S26x16x256_S6x16x256_20_0_0 Facts₀.inb_S325x16x256_S6x16x256_304_0_0
      (k0_pay27 (View.ld x0 (Rect.unit ![19, 0, 0] S1x16x256.size Facts₀.inb_S26x16x256_S1x16x256_19_0_0)) (View.ld x0 (Rect.unit ![20, 0, 0] S6x16x256.size Facts₀.inb_S26x16x256_S6x16x256_20_0_0)))
      (fun q d l => slabVal_apply 6 (View.ld x0 (Rect.unit ![19, 0, 0] S1x16x256.size Facts₀.inb_S26x16x256_S1x16x256_19_0_0)) (View.ld x0 (Rect.unit ![20, 0, 0] S6x16x256.size Facts₀.inb_S26x16x256_S6x16x256_20_0_0))
        Facts₀.shapeCasts_S1x16x256_S16x256 Facts₀.shapeCasts_S6x16x256_S6x16x256 Facts₀.shapeCasts_S16x256_S1x16x256 Facts₀.shapeCasts_S1x16x256_S1x16x256 Facts₀.broadcasts_S1x16x256_S6x16x256 Facts₀.bitsLt_bf16_f32 q d l) x
  · exact fun x => piece_ok x0 7 18 19 297 (by decide) rfl rfl rfl
      Facts₀.inb_S26x16x256_S1x16x256_18_0_0 Facts₀.inb_S26x16x256_S7x16x256_19_0_0 Facts₀.inb_S325x16x256_S7x16x256_297_0_0
      (k0_pay26 (View.ld x0 (Rect.unit ![18, 0, 0] S1x16x256.size Facts₀.inb_S26x16x256_S1x16x256_18_0_0)) (View.ld x0 (Rect.unit ![19, 0, 0] S7x16x256.size Facts₀.inb_S26x16x256_S7x16x256_19_0_0)))
      (fun q d l => slabVal_apply 7 (View.ld x0 (Rect.unit ![18, 0, 0] S1x16x256.size Facts₀.inb_S26x16x256_S1x16x256_18_0_0)) (View.ld x0 (Rect.unit ![19, 0, 0] S7x16x256.size Facts₀.inb_S26x16x256_S7x16x256_19_0_0))
        Facts₀.shapeCasts_S1x16x256_S16x256 Facts₀.shapeCasts_S7x16x256_S7x16x256 Facts₀.shapeCasts_S16x256_S1x16x256 Facts₀.shapeCasts_S1x16x256_S1x16x256 Facts₀.broadcasts_S1x16x256_S7x16x256 Facts₀.bitsLt_bf16_f32 q d l) x
  · exact fun x => piece_ok x0 8 17 18 289 (by decide) rfl rfl rfl
      Facts₀.inb_S26x16x256_S1x16x256_17_0_0 Facts₀.inb_S26x16x256_S8x16x256_18_0_0 Facts₀.inb_S325x16x256_S8x16x256_289_0_0
      (k0_pay25 (View.ld x0 (Rect.unit ![17, 0, 0] S1x16x256.size Facts₀.inb_S26x16x256_S1x16x256_17_0_0)) (View.ld x0 (Rect.unit ![18, 0, 0] S8x16x256.size Facts₀.inb_S26x16x256_S8x16x256_18_0_0)))
      (fun q d l => slabVal_apply 8 (View.ld x0 (Rect.unit ![17, 0, 0] S1x16x256.size Facts₀.inb_S26x16x256_S1x16x256_17_0_0)) (View.ld x0 (Rect.unit ![18, 0, 0] S8x16x256.size Facts₀.inb_S26x16x256_S8x16x256_18_0_0))
        Facts₀.shapeCasts_S1x16x256_S16x256 Facts₀.shapeCasts_S8x16x256_S8x16x256 Facts₀.shapeCasts_S16x256_S1x16x256 Facts₀.shapeCasts_S1x16x256_S1x16x256 Facts₀.broadcasts_S1x16x256_S8x16x256 Facts₀.bitsLt_bf16_f32 q d l) x
  · exact fun x => piece_ok x0 9 16 17 280 (by decide) rfl rfl rfl
      Facts₀.inb_S26x16x256_S1x16x256_16_0_0 Facts₀.inb_S26x16x256_S9x16x256_17_0_0 Facts₀.inb_S325x16x256_S9x16x256_280_0_0
      (k0_pay24 (k0_pay23 (View.ld x0 (Rect.unit ![16, 0, 0] S1x16x256.size Facts₀.inb_S26x16x256_S1x16x256_16_0_0))) (View.ld x0 (Rect.unit ![17, 0, 0] S9x16x256.size Facts₀.inb_S26x16x256_S9x16x256_17_0_0)))
      (fun q d l => slabVal_apply 9 (View.ld x0 (Rect.unit ![16, 0, 0] S1x16x256.size Facts₀.inb_S26x16x256_S1x16x256_16_0_0)) (View.ld x0 (Rect.unit ![17, 0, 0] S9x16x256.size Facts₀.inb_S26x16x256_S9x16x256_17_0_0))
        Facts₀.shapeCasts_S1x16x256_S16x256 Facts₀.shapeCasts_S9x16x256_S9x16x256 Facts₀.shapeCasts_S16x256_S1x16x256 Facts₀.shapeCasts_S1x16x256_S1x16x256 Facts₀.broadcasts_S1x16x256_S9x16x256 Facts₀.bitsLt_bf16_f32 q d l) x
  · exact fun x => piece_ok x0 10 15 16 270 (by decide) rfl rfl rfl
      Facts₀.inb_S26x16x256_S1x16x256_15_0_0 Facts₀.inb_S26x16x256_S10x16x256_16_0_0 Facts₀.inb_S325x16x256_S10x16x256_270_0_0
      (k0_pay22 (View.ld x0 (Rect.unit ![15, 0, 0] S1x16x256.size Facts₀.inb_S26x16x256_S1x16x256_15_0_0)) (View.ld x0 (Rect.unit ![16, 0, 0] S10x16x256.size Facts₀.inb_S26x16x256_S10x16x256_16_0_0)))
      (fun q d l => slabVal_apply 10 (View.ld x0 (Rect.unit ![15, 0, 0] S1x16x256.size Facts₀.inb_S26x16x256_S1x16x256_15_0_0)) (View.ld x0 (Rect.unit ![16, 0, 0] S10x16x256.size Facts₀.inb_S26x16x256_S10x16x256_16_0_0))
        Facts₀.shapeCasts_S1x16x256_S16x256 Facts₀.shapeCasts_S10x16x256_S10x16x256 Facts₀.shapeCasts_S16x256_S1x16x256 Facts₀.shapeCasts_S1x16x256_S1x16x256 Facts₀.broadcasts_S1x16x256_S10x16x256 Facts₀.bitsLt_bf16_f32 q d l) x
  · exact fun x => piece_ok x0 11 14 15 259 (by decide) rfl rfl rfl
      Facts₀.inb_S26x16x256_S1x16x256_14_0_0 Facts₀.inb_S26x16x256_S11x16x256_15_0_0 Facts₀.inb_S325x16x256_S11x16x256_259_0_0
      (k0_pay21 (View.ld x0 (Rect.unit ![14, 0, 0] S1x16x256.size Facts₀.inb_S26x16x256_S1x16x256_14_0_0)) (View.ld x0 (Rect.unit ![15, 0, 0] S11x16x256.size Facts₀.inb_S26x16x256_S11x16x256_15_0_0)))
      (fun q d l => slabVal_apply 11 (View.ld x0 (Rect.unit ![14, 0, 0] S1x16x256.size Facts₀.inb_S26x16x256_S1x16x256_14_0_0)) (View.ld x0 (Rect.unit ![15, 0, 0] S11x16x256.size Facts₀.inb_S26x16x256_S11x16x256_15_0_0))
        Facts₀.shapeCasts_S1x16x256_S16x256 Facts₀.shapeCasts_S11x16x256_S11x16x256 Facts₀.shapeCasts_S16x256_S1x16x256 Facts₀.shapeCasts_S1x16x256_S1x16x256 Facts₀.broadcasts_S1x16x256_S11x16x256 Facts₀.bitsLt_bf16_f32 q d l) x
  · exact fun x => piece_ok x0 12 13 14 247 (by decide) rfl rfl rfl
      Facts₀.inb_S26x16x256_S1x16x256_13_0_0 Facts₀.inb_S26x16x256_S12x16x256_14_0_0 Facts₀.inb_S325x16x256_S12x16x256_247_0_0
      (k0_pay20 (k0_pay18 (View.ld x0 (Rect.unit ![14, 0, 0] S12x16x256.size Facts₀.inb_S26x16x256_S12x16x256_14_0_0))) (k0_pay19 (View.ld x0 (Rect.unit ![13, 0, 0] S1x16x256.size Facts₀.inb_S26x16x256_S1x16x256_13_0_0))))
      (fun q d l => slabVal_apply 12 (View.ld x0 (Rect.unit ![13, 0, 0] S1x16x256.size Facts₀.inb_S26x16x256_S1x16x256_13_0_0)) (View.ld x0 (Rect.unit ![14, 0, 0] S12x16x256.size Facts₀.inb_S26x16x256_S12x16x256_14_0_0))
        Facts₀.shapeCasts_S1x16x256_S16x256 Facts₀.shapeCasts_S12x16x256_S12x16x256 Facts₀.shapeCasts_S16x256_S1x16x256 Facts₀.shapeCasts_S1x16x256_S1x16x256 Facts₀.broadcasts_S1x16x256_S12x16x256 Facts₀.bitsLt_bf16_f32 q d l) x
  · exact fun x => piece_ok x0 13 12 13 234 (by decide) rfl rfl rfl
      Facts₀.inb_S26x16x256_S1x16x256_12_0_0 Facts₀.inb_S26x16x256_S13x16x256_13_0_0 Facts₀.inb_S325x16x256_S13x16x256_234_0_0
      (k0_pay17 (View.ld x0 (Rect.unit ![12, 0, 0] S1x16x256.size Facts₀.inb_S26x16x256_S1x16x256_12_0_0)) (View.ld x0 (Rect.unit ![13, 0, 0] S13x16x256.size Facts₀.inb_S26x16x256_S13x16x256_13_0_0)))
      (fun q d l => slabVal_apply 13 (View.ld x0 (Rect.unit ![12, 0, 0] S1x16x256.size Facts₀.inb_S26x16x256_S1x16x256_12_0_0)) (View.ld x0 (Rect.unit ![13, 0, 0] S13x16x256.size Facts₀.inb_S26x16x256_S13x16x256_13_0_0))
        Facts₀.shapeCasts_S1x16x256_S16x256 Facts₀.shapeCasts_S13x16x256_S13x16x256 Facts₀.shapeCasts_S16x256_S1x16x256 Facts₀.shapeCasts_S1x16x256_S1x16x256 Facts₀.broadcasts_S1x16x256_S13x16x256 Facts₀.bitsLt_bf16_f32 q d l) x
  · exact fun x => piece_ok x0 14 11 12 220 (by decide) rfl rfl rfl
      Facts₀.inb_S26x16x256_S1x16x256_11_0_0 Facts₀.inb_S26x16x256_S14x16x256_12_0_0 Facts₀.inb_S325x16x256_S14x16x256_220_0_0
      (k0_pay16 (View.ld x0 (Rect.unit ![11, 0, 0] S1x16x256.size Facts₀.inb_S26x16x256_S1x16x256_11_0_0)) (View.ld x0 (Rect.unit ![12, 0, 0] S14x16x256.size Facts₀.inb_S26x16x256_S14x16x256_12_0_0)))
      (fun q d l => slabVal_apply 14 (View.ld x0 (Rect.unit ![11, 0, 0] S1x16x256.size Facts₀.inb_S26x16x256_S1x16x256_11_0_0)) (View.ld x0 (Rect.unit ![12, 0, 0] S14x16x256.size Facts₀.inb_S26x16x256_S14x16x256_12_0_0))
        Facts₀.shapeCasts_S1x16x256_S16x256 Facts₀.shapeCasts_S14x16x256_S14x16x256 Facts₀.shapeCasts_S16x256_S1x16x256 Facts₀.shapeCasts_S1x16x256_S1x16x256 Facts₀.broadcasts_S1x16x256_S14x16x256 Facts₀.bitsLt_bf16_f32 q d l) x
  · exact fun x => piece_ok x0 15 10 11 205 (by decide) rfl rfl rfl
      Facts₀.inb_S26x16x256_S1x16x256_10_0_0 Facts₀.inb_S26x16x256_S15x16x256_11_0_0 Facts₀.inb_S325x16x256_S15x16x256_205_0_0
      (k0_pay15 (k0_pay14 (View.ld x0 (Rect.unit ![10, 0, 0] S1x16x256.size Facts₀.inb_S26x16x256_S1x16x256_10_0_0)) (View.ld x0 (Rect.unit ![11, 0, 0] S15x16x256.size Facts₀.inb_S26x16x256_S15x16x256_11_0_0))))
      (fun q d l => slabVal_apply 15 (View.ld x0 (Rect.unit ![10, 0, 0] S1x16x256.size Facts₀.inb_S26x16x256_S1x16x256_10_0_0)) (View.ld x0 (Rect.unit ![11, 0, 0] S15x16x256.size Facts₀.inb_S26x16x256_S15x16x256_11_0_0))
        Facts₀.shapeCasts_S1x16x256_S16x256 Facts₀.shapeCasts_S15x16x256_S15x16x256 Facts₀.shapeCasts_S16x256_S1x16x256 Facts₀.shapeCasts_S1x16x256_S1x16x256 Facts₀.broadcasts_S1x16x256_S15x16x256 Facts₀.bitsLt_bf16_f32 q d l) x
  · exact fun x => piece_ok x0 16 9 10 189 (by decide) rfl rfl rfl
      Facts₀.inb_S26x16x256_S1x16x256_9_0_0 Facts₀.inb_S26x16x256_S16x16x256_10_0_0 Facts₀.inb_S325x16x256_S16x16x256_189_0_0
      (k0_pay13 (View.ld x0 (Rect.unit ![9, 0, 0] S1x16x256.size Facts₀.inb_S26x16x256_S1x16x256_9_0_0)) (View.ld x0 (Rect.unit ![10, 0, 0] S16x16x256.size Facts₀.inb_S26x16x256_S16x16x256_10_0_0)))
      (fun q d l => slabVal_apply 16 (View.ld x0 (Rect.unit ![9, 0, 0] S1x16x256.size Facts₀.inb_S26x16x256_S1x16x256_9_0_0)) (View.ld x0 (Rect.unit ![10, 0, 0] S16x16x256.size Facts₀.inb_S26x16x256_S16x16x256_10_0_0))
        Facts₀.shapeCasts_S1x16x256_S16x256 Facts₀.shapeCasts_S16x16x256_S16x16x256 Facts₀.shapeCasts_S16x256_S1x16x256 Facts₀.shapeCasts_S1x16x256_S1x16x256 Facts₀.broadcasts_S1x16x256_S16x16x256 Facts₀.bitsLt_bf16_f32 q d l) x
  · exact fun x => piece_ok x0 17 8 9 172 (by decide) rfl rfl rfl
      Facts₀.inb_S26x16x256_S1x16x256_8_0_0 Facts₀.inb_S26x16x256_S17x16x256_9_0_0 Facts₀.inb_S325x16x256_S17x16x256_172_0_0
      (k0_pay12 (View.ld x0 (Rect.unit ![8, 0, 0] S1x16x256.size Facts₀.inb_S26x16x256_S1x16x256_8_0_0)) (View.ld x0 (Rect.unit ![9, 0, 0] S17x16x256.size Facts₀.inb_S26x16x256_S17x16x256_9_0_0)))
      (fun q d l => slabVal_apply 17 (View.ld x0 (Rect.unit ![8, 0, 0] S1x16x256.size Facts₀.inb_S26x16x256_S1x16x256_8_0_0)) (View.ld x0 (Rect.unit ![9, 0, 0] S17x16x256.size Facts₀.inb_S26x16x256_S17x16x256_9_0_0))
        Facts₀.shapeCasts_S1x16x256_S16x256 Facts₀.shapeCasts_S17x16x256_S17x16x256 Facts₀.shapeCasts_S16x256_S1x16x256 Facts₀.shapeCasts_S1x16x256_S1x16x256 Facts₀.broadcasts_S1x16x256_S17x16x256 Facts₀.bitsLt_bf16_f32 q d l) x
  · exact fun x => piece_ok x0 18 7 8 154 (by decide) rfl rfl rfl
      Facts₀.inb_S26x16x256_S1x16x256_7_0_0 Facts₀.inb_S26x16x256_S18x16x256_8_0_0 Facts₀.inb_S325x16x256_S18x16x256_154_0_0
      (k0_pay11 (View.ld x0 (Rect.unit ![7, 0, 0] S1x16x256.size Facts₀.inb_S26x16x256_S1x16x256_7_0_0)) (View.ld x0 (Rect.unit ![8, 0, 0] S18x16x256.size Facts₀.inb_S26x16x256_S18x16x256_8_0_0)))
      (fun q d l => slabVal_apply 18 (View.ld x0 (Rect.unit ![7, 0, 0] S1x16x256.size Facts₀.inb_S26x16x256_S1x16x256_7_0_0)) (View.ld x0 (Rect.unit ![8, 0, 0] S18x16x256.size Facts₀.inb_S26x16x256_S18x16x256_8_0_0))
        Facts₀.shapeCasts_S1x16x256_S16x256 Facts₀.shapeCasts_S18x16x256_S18x16x256 Facts₀.shapeCasts_S16x256_S1x16x256 Facts₀.shapeCasts_S1x16x256_S1x16x256 Facts₀.broadcasts_S1x16x256_S18x16x256 Facts₀.bitsLt_bf16_f32 q d l) x
  · exact fun x => piece_ok x0 19 6 7 135 (by decide) rfl rfl rfl
      Facts₀.inb_S26x16x256_S1x16x256_6_0_0 Facts₀.inb_S26x16x256_S19x16x256_7_0_0 Facts₀.inb_S325x16x256_S19x16x256_135_0_0
      (k0_pay10 (View.ld x0 (Rect.unit ![6, 0, 0] S1x16x256.size Facts₀.inb_S26x16x256_S1x16x256_6_0_0)) (View.ld x0 (Rect.unit ![7, 0, 0] S19x16x256.size Facts₀.inb_S26x16x256_S19x16x256_7_0_0)))
      (fun q d l => slabVal_apply 19 (View.ld x0 (Rect.unit ![6, 0, 0] S1x16x256.size Facts₀.inb_S26x16x256_S1x16x256_6_0_0)) (View.ld x0 (Rect.unit ![7, 0, 0] S19x16x256.size Facts₀.inb_S26x16x256_S19x16x256_7_0_0))
        Facts₀.shapeCasts_S1x16x256_S16x256 Facts₀.shapeCasts_S19x16x256_S19x16x256 Facts₀.shapeCasts_S16x256_S1x16x256 Facts₀.shapeCasts_S1x16x256_S1x16x256 Facts₀.broadcasts_S1x16x256_S19x16x256 Facts₀.bitsLt_bf16_f32 q d l) x
  · exact fun x => piece_ok x0 20 5 6 115 (by decide) rfl rfl rfl
      Facts₀.inb_S26x16x256_S1x16x256_5_0_0 Facts₀.inb_S26x16x256_S20x16x256_6_0_0 Facts₀.inb_S325x16x256_S20x16x256_115_0_0
      (k0_pay9 (k0_pay8 (View.ld x0 (Rect.unit ![5, 0, 0] S1x16x256.size Facts₀.inb_S26x16x256_S1x16x256_5_0_0))) (View.ld x0 (Rect.unit ![6, 0, 0] S20x16x256.size Facts₀.inb_S26x16x256_S20x16x256_6_0_0)))
      (fun q d l => slabVal_apply 20 (View.ld x0 (Rect.unit ![5, 0, 0] S1x16x256.size Facts₀.inb_S26x16x256_S1x16x256_5_0_0)) (View.ld x0 (Rect.unit ![6, 0, 0] S20x16x256.size Facts₀.inb_S26x16x256_S20x16x256_6_0_0))
        Facts₀.shapeCasts_S1x16x256_S16x256 Facts₀.shapeCasts_S20x16x256_S20x16x256 Facts₀.shapeCasts_S16x256_S1x16x256 Facts₀.shapeCasts_S1x16x256_S1x16x256 Facts₀.broadcasts_S1x16x256_S20x16x256 Facts₀.bitsLt_bf16_f32 q d l) x
  · exact fun x => piece_ok x0 21 4 5 94 (by decide) rfl rfl rfl
      Facts₀.inb_S26x16x256_S1x16x256_4_0_0 Facts₀.inb_S26x16x256_S21x16x256_5_0_0 Facts₀.inb_S325x16x256_S21x16x256_94_0_0
      (k0_pay7 (View.ld x0 (Rect.unit ![4, 0, 0] S1x16x256.size Facts₀.inb_S26x16x256_S1x16x256_4_0_0)) (View.ld x0 (Rect.unit ![5, 0, 0] S21x16x256.size Facts₀.inb_S26x16x256_S21x16x256_5_0_0)))
      (fun q d l => slabVal_apply 21 (View.ld x0 (Rect.unit ![4, 0, 0] S1x16x256.size Facts₀.inb_S26x16x256_S1x16x256_4_0_0)) (View.ld x0 (Rect.unit ![5, 0, 0] S21x16x256.size Facts₀.inb_S26x16x256_S21x16x256_5_0_0))
        Facts₀.shapeCasts_S1x16x256_S16x256 Facts₀.shapeCasts_S21x16x256_S21x16x256 Facts₀.shapeCasts_S16x256_S1x16x256 Facts₀.shapeCasts_S1x16x256_S1x16x256 Facts₀.broadcasts_S1x16x256_S21x16x256 Facts₀.bitsLt_bf16_f32 q d l) x
  · exact fun x => piece_ok x0 22 3 4 72 (by decide) rfl rfl rfl
      Facts₀.inb_S26x16x256_S1x16x256_3_0_0 Facts₀.inb_S26x16x256_S22x16x256_4_0_0 Facts₀.inb_S325x16x256_S22x16x256_72_0_0
      (k0_pay6 (View.ld x0 (Rect.unit ![3, 0, 0] S1x16x256.size Facts₀.inb_S26x16x256_S1x16x256_3_0_0)) (View.ld x0 (Rect.unit ![4, 0, 0] S22x16x256.size Facts₀.inb_S26x16x256_S22x16x256_4_0_0)))
      (fun q d l => slabVal_apply 22 (View.ld x0 (Rect.unit ![3, 0, 0] S1x16x256.size Facts₀.inb_S26x16x256_S1x16x256_3_0_0)) (View.ld x0 (Rect.unit ![4, 0, 0] S22x16x256.size Facts₀.inb_S26x16x256_S22x16x256_4_0_0))
        Facts₀.shapeCasts_S1x16x256_S16x256 Facts₀.shapeCasts_S22x16x256_S22x16x256 Facts₀.shapeCasts_S16x256_S1x16x256 Facts₀.shapeCasts_S1x16x256_S1x16x256 Facts₀.broadcasts_S1x16x256_S22x16x256 Facts₀.bitsLt_bf16_f32 q d l) x
  · exact fun x => piece_ok x0 23 2 3 49 (by decide) rfl rfl rfl
      Facts₀.inb_S26x16x256_S1x16x256_2_0_0 Facts₀.inb_S26x16x256_S23x16x256_3_0_0 Facts₀.inb_S325x16x256_S23x16x256_49_0_0
      (k0_pay5 (k0_pay4 (View.ld x0 (Rect.unit ![2, 0, 0] S1x16x256.size Facts₀.inb_S26x16x256_S1x16x256_2_0_0)) (View.ld x0 (Rect.unit ![3, 0, 0] S23x16x256.size Facts₀.inb_S26x16x256_S23x16x256_3_0_0))))
      (fun q d l => slabVal_apply 23 (View.ld x0 (Rect.unit ![2, 0, 0] S1x16x256.size Facts₀.inb_S26x16x256_S1x16x256_2_0_0)) (View.ld x0 (Rect.unit ![3, 0, 0] S23x16x256.size Facts₀.inb_S26x16x256_S23x16x256_3_0_0))
        Facts₀.shapeCasts_S1x16x256_S16x256 Facts₀.shapeCasts_S23x16x256_S23x16x256 Facts₀.shapeCasts_S16x256_S1x16x256 Facts₀.shapeCasts_S1x16x256_S1x16x256 Facts₀.broadcasts_S1x16x256_S23x16x256 Facts₀.bitsLt_bf16_f32 q d l) x
  · exact fun x => piece_ok x0 24 1 2 25 (by decide) rfl rfl rfl
      Facts₀.inb_S26x16x256_S1x16x256_1_0_0 Facts₀.inb_S26x16x256_S24x16x256_2_0_0 Facts₀.inb_S325x16x256_S24x16x256_25_0_0
      (k0_pay3 (View.ld x0 (Rect.unit ![1, 0, 0] S1x16x256.size Facts₀.inb_S26x16x256_S1x16x256_1_0_0)) (View.ld x0 (Rect.unit ![2, 0, 0] S24x16x256.size Facts₀.inb_S26x16x256_S24x16x256_2_0_0)))
      (fun q d l => slabVal_apply 24 (View.ld x0 (Rect.unit ![1, 0, 0] S1x16x256.size Facts₀.inb_S26x16x256_S1x16x256_1_0_0)) (View.ld x0 (Rect.unit ![2, 0, 0] S24x16x256.size Facts₀.inb_S26x16x256_S24x16x256_2_0_0))
        Facts₀.shapeCasts_S1x16x256_S16x256 Facts₀.shapeCasts_S24x16x256_S24x16x256 Facts₀.shapeCasts_S16x256_S1x16x256 Facts₀.shapeCasts_S1x16x256_S1x16x256 Facts₀.broadcasts_S1x16x256_S24x16x256 Facts₀.bitsLt_bf16_f32 q d l) x
  · exact fun x => piece_ok x0 25 0 1 0 (by decide) rfl rfl rfl
      Facts₀.inb_S26x16x256_S1x16x256_0_0_0 Facts₀.inb_S26x16x256_S25x16x256_1_0_0 Facts₀.inb_S325x16x256_S25x16x256_0_0_0
      (k0_pay2 (View.ld x0 (Rect.unit ![0, 0, 0] S1x16x256.size Facts₀.inb_S26x16x256_S1x16x256_0_0_0)) (View.ld x0 (Rect.unit ![1, 0, 0] S25x16x256.size Facts₀.inb_S26x16x256_S25x16x256_1_0_0)))
      (fun q d l => slabVal_apply 25 (View.ld x0 (Rect.unit ![0, 0, 0] S1x16x256.size Facts₀.inb_S26x16x256_S1x16x256_0_0_0)) (View.ld x0 (Rect.unit ![1, 0, 0] S25x16x256.size Facts₀.inb_S26x16x256_S25x16x256_1_0_0))
        Facts₀.shapeCasts_S1x16x256_S16x256 Facts₀.shapeCasts_S25x16x256_S25x16x256 Facts₀.shapeCasts_S16x256_S1x16x256 Facts₀.shapeCasts_S1x16x256_S1x16x256 Facts₀.broadcasts_S1x16x256_S25x16x256 Facts₀.bitsLt_bf16_f32 q d l) x

/-- Row `p` of the scratch buffer is the entrywise product of the two fields of pair `p`. -/
theorem scratch_apply (x0 : Vec Ideal S26x16x256 .f32) (p : Fin 325) (d : Fin 16) (l : Fin 256) :
    scratch (F := Ideal) x0 (ix3 p d l)
      = x0 (ix3 (Cert.Afm.pairJ p) d l) * x0 (ix3 (Cert.Afm.pairI p) d l) :=
  View.canon_apply_of_pieces (pairProd x0) (slabs x0) (slabs_ok x0) (ix3 p d l)
    (View.cover_of_tiledBy (slabs x0) ![1, 16, 256] (by sl_kernel_rfl) (ix3 p d l))

end Cert.KernelIdeal.AfmBody

end
-- ==== Proof.BodyTail.lean ====
/-
  The kernel body after the scratch buffer is read back, as one pure value.

  The body loads the whole scratch buffer `s` (row `p` holds the entrywise product of the two fields of pair
  `p`), the attention weights, the dense features, the embedded fields and the linear weights, and computes the
  output row from them by the payloads `k0_pay36 … k0_pay51` and `k0_pay1`, each a pure function of the loaded
  values and of earlier payloads.  `kTail` is that composition, written in the order the body threads it.
-/
import proofs.«122830_j89627377532987_2_alg».proof.Proof.Gen.KernelIdeal.Skeleton

noncomputable section

namespace Cert.KernelIdeal.AfmBody

open Cert.KernelIdeal Cert.KernelIdeal.Gen Idealize.ShloMosaic

/-- The output row as a function of the loaded values: `s` the scratch buffer, `x0` the embedded fields, `x1` the
    dense features, `x2` the attention matrix, `x3` its bias, `x4` the attention read-out vector, `x5` the
    projection vector, `x6` and `x7` the linear weights of the dense and embedded features, `x8` the bias. -/
def kTail {F : FTy → Type} [FloatOps F] (s : Vec F S325x16x256 .bf16) (x0 : Vec F S26x16x256 .f32)
    (x1 : Vec F S13x256 .f32) (x2 : Vec F S16x16 .f32) (x3 : Vec F S16x1 .f32) (x4 : Vec F S16x1 .f32)
    (x5 : Vec F S16x1 .f32) (x6 : Vec F S13x1 .f32) (x7 : Vec F S26x16 .f32) (x8 : Vec F S1x1 .f32) :
    FVec F S1x256 .f32 :=
  let v299 : FVec F S325x16x256 .f32 := k0_pay36 s
  let v302 : FVec F S16x1 .f32 := k0_pay37 x3
  let v321 : FVec F S325x256 .f32 := k0_pay38 s x2 x3 x4
  let v333 : FVec F S325x256 .f32 := k0_pay39 s x2 x3
  let v334 : FVec F S1x1 .f32 := k0_pay40 x4
  let v372 : FVec F S325x256 .f32 := k0_pay41 v299 x2 v302 x4 v321 v333 v334
  let v388 : FVec F S325x256 .f32 := k0_pay42 v299 x2 v302 x4
  let v440 : FVec F S325x256 .f32 := k0_pay43 v299 x2 v302 x4 v372 v388
  let v442 : FVec F S16 .f32 := k0_pay44 x2
  let v491 : FVec F S325x256 .f32 := k0_pay45 v299 x2 v302 x4 v440 v442
  let v496 : FVec F S325x16x256 .f32 := k0_pay46 v299 x2
  let v542 : FVec F S325x256 .f32 := k0_pay47 v299 x2 v302 x4 v491 v496
  let v548 : FVec F S325x256 .f32 := k0_pay48 v299 x2
  let v549 : FVec F S1x1 .f32 := k0_pay49 v302
  let v594 : FVec F S1x256 .f32 := k0_pay50 v299 x2 v302 x4 v542 v548 v549 x5
  let v596 : FVec F S13x256 .f32 := k0_pay51 x1
  k0_pay1 v594 v596 x6 x0 x7 x8

end Cert.KernelIdeal.AfmBody

end
-- ==== Proof.BodyRun.lean ====
/-
  The kernel body's result, read off its run.

  The run of the body ends with one store of the whole output row; its value is the chain of pure steps after the
  scratch buffer is loaded back, applied to that load and to the whole input blocks.  The load of the scratch
  buffer comes after the 25 stores that fill it, so it reads what those stores wrote: the buffer `scratch x0`,
  a function of the embedded block alone.  Hence the output row is `kTail (scratch x0) x0 … x8`.
-/
import proofs.«122830_j89627377532987_2_alg».proof.Proof.BodyScratch
import proofs.«122830_j89627377532987_2_alg».proof.Proof.BodyTail
import proofs.«122830_j89627377532987_2_alg».proof.Proof.Gen.KernelIdeal.Frame
import Idealize.ShloMosaic.Lib.Pipeline.Value
import Idealize.ShloMosaic.Lib.Tactic

noncomputable section

namespace Cert.KernelIdeal.AfmBody

open Cert.KernelIdeal Cert.KernelIdeal.Gen Idealize.ShloMosaic Idealize.ShloMosaic.TcCoe Idealize.SL.Sem
open Idealize.ShloMosaic.Tactic

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- A load of the whole scratch buffer after a list of stores reads what the stores left, index by index. -/
theorem readCov_whole {sig : RefSig} {κ : Kind} {sp : Space} (v : View sig κ sp S325x16x256 .bf16)
    (L : List (View.Piece (Elt F) S325x16x256 .bf16))
    (inb : ∀ a, (![0, 0, 0] : Fin 3 → Nat) a + S325x16x256.size a ≤ S325x16x256.size a) :
    v.readCov L (Rect.unit (s := S325x16x256) ![0, 0, 0] S325x16x256.size inb).toLoadRect = View.canon L := by
  rw [View.readCov_eq_canon']
  exact View.ld_unit_zero zero3 inb (View.canon L)

/-- The output row the body leaves is the tail of the body applied to the scratch buffer the 25 stores filled. -/
theorem out_eq (c : Dev nD) (i : grid0.Coords) (arg1 : Memref sig .tc .vmem S26x16x256 .f32) (harg1 : arg1.IsWhole) (arg2 : Memref sig .tc .vmem S13x256 .f32) (harg2 : arg2.IsWhole) (arg3 : Memref sig .tc .vmem S16x16 .f32) (harg3 : arg3.IsWhole) (arg4 : Memref sig .tc .vmem S16x1 .f32) (harg4 : arg4.IsWhole) (arg5 : Memref sig .tc .vmem S16x1 .f32) (harg5 : arg5.IsWhole) (arg6 : Memref sig .tc .vmem S16x1 .f32) (harg6 : arg6.IsWhole) (arg7 : Memref sig .tc .vmem S13x1 .f32) (harg7 : arg7.IsWhole) (arg8 : Memref sig .tc .vmem S26x16 .f32) (harg8 : arg8.IsWhole) (arg9 : Memref sig .tc .vmem S1x1 .f32) (harg9 : arg9.IsWhole) (arg10 : Memref sig .tc .vmem S1x256 .f32) (harg10 : arg10.IsWhole) (arg11 : Memref sig .tc .vmem S325x16x256 .bf16) (harg11 : arg11.IsWhole) (x0 : Vec F S26x16x256 .f32) (x1 : Vec F S13x256 .f32) (x2 : Vec F S16x16 .f32) (x3 : Vec F S16x1 .f32) (x4 : Vec F S16x1 .f32) (x5 : Vec F S16x1 .f32) (x6 : Vec F S13x1 .f32) (x7 : Vec F S26x16 .f32) (x8 : Vec F S1x1 .f32) :
    Gen.out0_A_9 (F := F) c i arg1 harg1 arg2 harg2 arg3 harg3 arg4 harg4 arg5 harg5 arg6 harg6 arg7 harg7 arg8 harg8 arg9 harg9 arg10 harg10 arg11 harg11 x0 x1 x2 x3 x4 x5 x6 x7 x8
      = kTail (scratch x0) x0 x1 x2 x3 x4 x5 x6 x7 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5 x6 x7 x8)]
  unfold kernelRun0_A
  dsimp only
  sl_unfold_run_names
  sl_unfold_run_names
  rw [View.canon_unit_zero zero2]
  simp only [View.readAt_eq_ld, harg1.read_unread, harg2.read_unread, harg3.read_unread, harg4.read_unread,
    harg5.read_unread, harg6.read_unread, harg7.read_unread, harg8.read_unread, harg9.read_unread,
    View.ld_unit_zero (S := S26x16x256) zero3, View.ld_unit_zero (S := S13x256) zero2,
    View.ld_unit_zero (S := S16x16) zero2, View.ld_unit_zero (S := S16x1) zero2,
    View.ld_unit_zero (S := S13x1) zero2, View.ld_unit_zero (S := S26x16) zero2,
    View.ld_unit_zero (S := S1x1) zero2]
  rw [readCov_whole]
  rfl

end Cert.KernelIdeal.AfmBody

end
-- ==== Proof.BodyOps.lean ====
/-
  The layout operations and reductions of the kernel body, each read at an index given by coordinates.

  The body works on vectors indexed by pair `p : Fin 325`, embedding coordinate `d : Fin 16` and lane `l : Fin 256`.
  A slice, a reshape or a broadcast reads one entry of its operand; a sum over one axis is the sum over that axis's
  coordinate; the maximum over the pairs is the fold of `max` from `-∞`.  Every statement is over a variable operand,
  so that it applies wherever the body uses the operation.
-/
import proofs.«122830_j89627377532987_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.AfmBody

open Cert.KernelIdeal Cert.KernelIdeal.Gen Idealize.ShloMosaic Idealize.ShloMosaic.ValueIdx

/-! ## Slices, reshapes and broadcasts -/

section Layout
variable {α : Type}

/-- A slice of one column of a 16-column matrix exists only for a column below 16. -/
theorem col_lt {a : Nat} (h : S16x16.Slices ![0, a] S16x1) : a < 16 := by
  have := h.2 ⟨1, by decide⟩
  simpa using this

/-- A slice of one row of a 16-row column exists only for a row below 16. -/
theorem row_lt {a : Nat} (h : S16x1.Slices ![a, 0] S1x1) : a < 16 := by
  have := h.2 ⟨0, by decide⟩
  simpa using this

/-- Column `a` of a 16 × 16 matrix, flattened, viewed as [1, 16, 1] and broadcast over pairs and lanes: the entry at
    `(p, d, l)` is the matrix at `(d, a)`. -/
theorem col_apply (x : S16x16.Idx → α) (a : Nat) (h1 : S16x16.Slices ![0, a] S16x1) (h2 : S16x1.ShapeCasts S16)
    (h3 : S16.ShapeCasts S1x16x1) (h4 : S1x16x1.Broadcasts S325x16x256) (p : Fin 325) (d : Fin 16) (l : Fin 256) :
    broadcastTo S325x16x256 (shapeCast S1x16x1 (shapeCast S16 (extractStridedSlice S16x1 ![0, a] x h1) h2) h3) h4 (ix3 p d l)
      = x (ix2 d ⟨a, col_lt h1⟩) := by
  refine (broadcastTo_apply _ _ _ (ix3 (0 : Fin 1) d (0 : Fin 1)) ?_).trans ?_
  · intro c
    match c with
    | ⟨0, _⟩ => rfl
    | ⟨1, _⟩ => rfl
    | ⟨2, _⟩ => rfl
  refine (shapeCast_apply _ _ _ (ix1 d) ?_).trans ?_
  · rw [Shape.rowMajor_val_one, Shape.rowMajor_val_three]
    show d.val = (0 * 16 + d.val) * 1 + 0
    omega
  refine (shapeCast_apply _ _ _ (ix2 d (0 : Fin 1)) ?_).trans ?_
  · rw [Shape.rowMajor_val_one, Shape.rowMajor_val_two]
    show d.val * 1 + 0 = d.val
    omega
  refine extractStridedSlice_apply _ _ _ _ _ ?_
  intro c
  match c with
  | ⟨0, _⟩ => exact (Nat.zero_add _).symm
  | ⟨1, _⟩ => rfl

/-- The one entry of the slice of row `a` of a 16 × 1 column is the column at `(a, 0)`. -/
theorem pick_apply (v : S16x1.Idx → α) (a : Nat) (h : S16x1.Slices ![a, 0] S1x1) (hp : ∀ c, (![0, 0] : Fin 2 → Nat) c < S1x1.size c) :
    extractAt ![0, 0] (extractStridedSlice S1x1 ![a, 0] v h) hp = v (ix2 ⟨a, row_lt h⟩ (0 : Fin 1)) := by
  unfold extractAt
  refine extractStridedSlice_apply _ _ _ _ _ ?_
  intro c
  match c with
  | ⟨0, _⟩ => rfl
  | ⟨1, _⟩ => rfl

/-- The one entry of a 1 × 1 vector. -/
theorem pick00 (v : S1x1.Idx → α) (hp : ∀ c, (![0, 0] : Fin 2 → Nat) c < S1x1.size c) :
    extractAt ![0, 0] v hp = v (ix2 (0 : Fin 1) (0 : Fin 1)) := by
  unfold extractAt
  refine congrArg v (funext fun c => ?_)
  match c with
  | ⟨0, _⟩ => rfl
  | ⟨1, _⟩ => rfl

end Layout

section Layout2
variable {α : Type}

/-- A lane vector viewed as one row reads its lane. -/
theorem row_of_lanes_apply (v : S256.Idx → α) (h : S256.ShapeCasts S1x256) (l : Fin 256) :
    shapeCast S1x256 v h (ix2 (0 : Fin 1) l) = v (ix1 l) :=
  shapeCast_a_1a_apply v h 0 l

/-- One row broadcast over the 325 pairs reads the row. -/
theorem bcast_row_apply (v : S1x256.Idx → α) (h : S1x256.Broadcasts S325x256) (p : Fin 325) (l : Fin 256) :
    broadcastTo S325x256 v h (ix2 p l) = v (ix2 (0 : Fin 1) l) :=
  broadcastTo_1b_ab_apply v h p l

/-- The pair weights viewed [325, 1, 256] and broadcast over the 16 embedding coordinates read the weight of the pair. -/
theorem bcast_weights_apply (v : S325x256.Idx → α) (h1 : S325x256.ShapeCasts S325x1x256)
    (h2 : S325x1x256.Broadcasts S325x16x256) (p : Fin 325) (d : Fin 16) (l : Fin 256) :
    broadcastTo S325x16x256 (shapeCast S325x1x256 v h1) h2 (ix3 p d l) = v (ix2 p l) := by
  refine (broadcastTo_apply _ _ _ (ix3 p (0 : Fin 1) l) ?_).trans ?_
  · intro c
    match c with
    | ⟨0, _⟩ => rfl
    | ⟨1, _⟩ => rfl
    | ⟨2, _⟩ => rfl
  refine shapeCast_apply _ _ _ (ix2 p l) ?_
  rw [Shape.rowMajor_val_two, Shape.rowMajor_val_three]
  show p.val * 256 + l.val = (p.val * 1 + 0) * 256 + l.val
  omega

/-- A 16 × 1 column broadcast over the lanes reads the column. -/
theorem bcast_col16_apply (v : S16x1.Idx → α) (h : S16x1.Broadcasts S16x256) (d : Fin 16) (l : Fin 256) :
    broadcastTo S16x256 v h (ix2 d l) = v (ix2 d (0 : Fin 1)) := by
  refine broadcastTo_apply _ _ _ _ ?_
  intro c
  match c with
  | ⟨0, _⟩ => rfl
  | ⟨1, _⟩ => rfl

/-- A 13 × 1 column broadcast over the lanes reads the column. -/
theorem bcast_col13_apply (v : S13x1.Idx → α) (h : S13x1.Broadcasts S13x256) (n : Fin 13) (l : Fin 256) :
    broadcastTo S13x256 v h (ix2 n l) = v (ix2 n (0 : Fin 1)) := by
  refine broadcastTo_apply _ _ _ _ ?_
  intro c
  match c with
  | ⟨0, _⟩ => rfl
  | ⟨1, _⟩ => rfl

/-- A 26 × 16 table viewed [26, 16, 1] and broadcast over the lanes reads the table. -/
theorem bcast_table_apply (v : S26x16.Idx → α) (h1 : S26x16.ShapeCasts S26x16x1) (h2 : S26x16x1.Broadcasts S26x16x256)
    (f : Fin 26) (d : Fin 16) (l : Fin 256) :
    broadcastTo S26x16x256 (shapeCast S26x16x1 v h1) h2 (ix3 f d l) = v (ix2 f d) := by
  refine (broadcastTo_apply _ _ _ (ix3 f d (0 : Fin 1)) ?_).trans ?_
  · intro c
    match c with
    | ⟨0, _⟩ => rfl
    | ⟨1, _⟩ => rfl
    | ⟨2, _⟩ => rfl
  refine shapeCast_apply _ _ _ (ix2 f d) ?_
  rw [Shape.rowMajor_val_two, Shape.rowMajor_val_three]
  show f.val * 16 + d.val = (f.val * 16 + d.val) * 1 + 0
  omega

/-- A [26, 256] vector viewed [26, 1, 256] reads the same entry. -/
theorem mid_unit_apply (v : S26x256.Idx → α) (h : S26x256.ShapeCasts S26x1x256) (f : Fin 26) (l : Fin 256) :
    shapeCast S26x1x256 v h (ix3 f (0 : Fin 1) l) = v (ix2 f l) := by
  refine shapeCast_apply _ _ _ (ix2 f l) ?_
  rw [Shape.rowMajor_val_two, Shape.rowMajor_val_three]
  show f.val * 256 + l.val = (f.val * 1 + 0) * 256 + l.val
  omega

/-- A 1 × 1 vector broadcast over the lanes reads its entry. -/
theorem bcast_one_apply (v : S1x1.Idx → α) (h : S1x1.Broadcasts S1x256) (l : Fin 256) :
    broadcastTo S1x256 v h (ix2 (0 : Fin 1) l) = v (ix2 (0 : Fin 1) (0 : Fin 1)) := by
  refine broadcastTo_apply _ _ _ _ ?_
  intro c
  match c with
  | ⟨0, _⟩ => rfl
  | ⟨1, _⟩ => rfl

end Layout2

/-! ## Sums and the maximum over one axis, at the extended reals

A `vector.multi_reduction` unfolds to the sum `Ideal.reduceAdd` of the entries that reduce to an index, or to the fold
`reduceFold` of `max` over them; over ONE axis these are the sum, or the fold, over that axis's coordinate. -/

section Reduce

/-- At the extended reals the instance's sum over reduced axes is `Ideal.reduceAdd`. -/
theorem reduceAdd_ideal {s t : Shape} {φ : FTy} (axes : List (Fin s.rank)) (h : s.Reduces axes t) (src : FVec Ideal s φ) :
    FloatOps.reduceAdd axes h src = Ideal.reduceAdd h src := rfl

/-- The sum over the embedding coordinate of a [325, 16, 256] vector. -/
theorem sum_d_apply (src : S325x16x256.Idx → EReal) (h : S325x16x256.Reduces [1] S325x256) (p : Fin 325) (l : Fin 256) :
    Ideal.reduceAdd h src (ix2 p l) = ∑ k : Fin 16, src (ix3 p k l) := by
  refine (Ideal.reduceAdd_single h src _).trans ?_
  refine Finset.sum_congr rfl fun k _ => congrArg src (funext fun c => ?_)
  match c with
  | ⟨0, _⟩ => rfl
  | ⟨1, _⟩ => rfl
  | ⟨2, _⟩ => rfl

/-- The sum over the pairs of a [325, 16, 256] vector. -/
theorem sum_p3_apply (src : S325x16x256.Idx → EReal) (h : S325x16x256.Reduces [0] S16x256) (d : Fin 16) (l : Fin 256) :
    Ideal.reduceAdd h src (ix2 d l) = ∑ k : Fin 325, src (ix3 k d l) := by
  refine (Ideal.reduceAdd_single h src _).trans ?_
  refine Finset.sum_congr rfl fun k _ => congrArg src (funext fun c => ?_)
  match c with
  | ⟨0, _⟩ => rfl
  | ⟨1, _⟩ => rfl
  | ⟨2, _⟩ => rfl

/-- The sum over the pairs of a [325, 256] vector. -/
theorem sum_p2_apply (src : S325x256.Idx → EReal) (h : S325x256.Reduces [0] S256) (l : Fin 256) :
    Ideal.reduceAdd h src (ix1 l) = ∑ k : Fin 325, src (ix2 k l) := by
  refine (Ideal.reduceAdd_single h src _).trans ?_
  refine Finset.sum_congr rfl fun k _ => congrArg src (funext fun c => ?_)
  match c with
  | ⟨0, _⟩ => rfl
  | ⟨1, _⟩ => rfl

/-- The sum over the rows of a [16, 256] vector. -/
theorem sum_rows16_apply (src : S16x256.Idx → EReal) (h : S16x256.Reduces [0] S256) (l : Fin 256) :
    Ideal.reduceAdd h src (ix1 l) = ∑ k : Fin 16, src (ix2 k l) := by
  refine (Ideal.reduceAdd_single h src _).trans ?_
  refine Finset.sum_congr rfl fun k _ => congrArg src (funext fun c => ?_)
  match c with
  | ⟨0, _⟩ => rfl
  | ⟨1, _⟩ => rfl

/-- The sum over the rows of a [13, 256] vector. -/
theorem sum_rows13_apply (src : S13x256.Idx → EReal) (h : S13x256.Reduces [0] S256) (l : Fin 256) :
    Ideal.reduceAdd h src (ix1 l) = ∑ k : Fin 13, src (ix2 k l) := by
  refine (Ideal.reduceAdd_single h src _).trans ?_
  refine Finset.sum_congr rfl fun k _ => congrArg src (funext fun c => ?_)
  match c with
  | ⟨0, _⟩ => rfl
  | ⟨1, _⟩ => rfl

/-- The sum over the embedding coordinate of a [26, 16, 256] vector. -/
theorem sum_fd_apply (src : S26x16x256.Idx → EReal) (h : S26x16x256.Reduces [1] S26x256) (f : Fin 26) (l : Fin 256) :
    Ideal.reduceAdd h src (ix2 f l) = ∑ k : Fin 16, src (ix3 f k l) := by
  refine (Ideal.reduceAdd_single h src _).trans ?_
  refine Finset.sum_congr rfl fun k _ => congrArg src (funext fun c => ?_)
  match c with
  | ⟨0, _⟩ => rfl
  | ⟨1, _⟩ => rfl
  | ⟨2, _⟩ => rfl

/-- The sum over the fields of a [26, 1, 256] vector. -/
theorem sum_f_apply (src : S26x1x256.Idx → EReal) (h : S26x1x256.Reduces [0] S1x256) (l : Fin 256) :
    Ideal.reduceAdd h src (ix2 (0 : Fin 1) l) = ∑ k : Fin 26, src (ix3 k (0 : Fin 1) l) := by
  refine (Ideal.reduceAdd_single h src _).trans ?_
  refine Finset.sum_congr rfl fun k _ => congrArg src (funext fun c => ?_)
  match c with
  | ⟨0, _⟩ => rfl
  | ⟨1, _⟩ => rfl
  | ⟨2, _⟩ => rfl

/-- The bit pattern of `-∞` denotes the least extended real. -/
theorem ofBits_neg_inf_f32 : Ideal.ofBits .f32 0xFF800000#32 = ⊥ := by
  simp [Ideal.ofBits, Ideal.ieee]

/-- The maximum over the pairs of a [325, 256] vector: the fold of `max` from `-∞`. -/
theorem max_p_apply (src : FVec Ideal S325x256 .f32) (h : S325x256.Reduces [0] S256) (l : Fin 256) :
    reduceFold h FloatOps.maximumf (FloatOps.ofBits .f32 0xFF800000#32) src (ix1 l)
      = (Finset.univ : Finset (Fin 325)).fold max ⊥ (fun p => src (ix2 p l)) := by
  refine (Ideal.multiReduction_maximumf_single src 0xFF800000#32 h (.inl rfl) rfl (ix1 l)).trans ?_
  have e : (src ∘ h.lift (ix1 l)) = fun p : Fin 325 => src (ix2 p l) := by
    funext p
    refine congrArg src (funext fun c => ?_)
    match c with
    | ⟨0, _⟩ => rfl
    | ⟨1, _⟩ => rfl
  rw [e]
  show (Finset.univ : Finset (Fin 325)).fold max (Ideal.ofBits .f32 0xFF800000#32) _ = _
  rw [ofBits_neg_inf_f32]

end Reduce

section Layout3
variable {α : Type}

/-- The slice of row `a` of a 16 × 1 column, read at its one index. -/
theorem slice_row_apply (v : S16x1.Idx → α) (a : Nat) (h : S16x1.Slices ![a, 0] S1x1) :
    extractStridedSlice S1x1 ![a, 0] v h (ix2 (0 : Fin 1) (0 : Fin 1)) = v (ix2 ⟨a, row_lt h⟩ (0 : Fin 1)) := by
  refine extractStridedSlice_apply _ _ _ _ _ ?_
  intro c
  match c with
  | ⟨0, _⟩ => rfl
  | ⟨1, _⟩ => rfl

/-- Column `a` of a 16 × 16 matrix, flattened to a vector of 16. -/
theorem colslice_apply (x : S16x16.Idx → α) (a : Nat) (h1 : S16x16.Slices ![0, a] S16x1) (h2 : S16x1.ShapeCasts S16)
    (d : Fin 16) : shapeCast S16 (extractStridedSlice S16x1 ![0, a] x h1) h2 (ix1 d) = x (ix2 d ⟨a, col_lt h1⟩) := by
  refine (shapeCast_apply _ _ _ (ix2 d (0 : Fin 1)) ?_).trans ?_
  · rw [Shape.rowMajor_val_one, Shape.rowMajor_val_two]
    show d.val * 1 + 0 = d.val
    omega
  refine extractStridedSlice_apply _ _ _ _ _ ?_
  intro c
  match c with
  | ⟨0, _⟩ => exact (Nat.zero_add _).symm
  | ⟨1, _⟩ => rfl

/-- A vector of 16 viewed as [1, 16, 1] and broadcast over pairs and lanes reads its entry `d`. -/
theorem colvec_apply (c : S16.Idx → α) (h3 : S16.ShapeCasts S1x16x1) (h4 : S1x16x1.Broadcasts S325x16x256)
    (p : Fin 325) (d : Fin 16) (l : Fin 256) :
    broadcastTo S325x16x256 (shapeCast S1x16x1 c h3) h4 (ix3 p d l) = c (ix1 d) := by
  refine (broadcastTo_apply _ _ _ (ix3 (0 : Fin 1) d (0 : Fin 1)) ?_).trans ?_
  · intro c
    match c with
    | ⟨0, _⟩ => rfl
    | ⟨1, _⟩ => rfl
    | ⟨2, _⟩ => rfl
  refine shapeCast_apply _ _ _ (ix1 d) ?_
  rw [Shape.rowMajor_val_one, Shape.rowMajor_val_three]
  show d.val = (0 * 16 + d.val) * 1 + 0
  omega

end Layout3

/-! ## Pointwise functions and constants at the extended reals -/

section Pointwise
variable {s : Shape} {φ : FTy}

/-- The exponential of a vector reads the exponential of the entry. -/
theorem exp_apply (x : FVec Ideal s φ) (i : s.Idx) : exp x i = Ideal.exp (x i) := rfl

/-- The logistic function of a vector reads the logistic function of the entry. -/
theorem logistic_apply (x : FVec Ideal s φ) (i : s.Idx) : logistic x i = Ideal.logistic (x i) := rfl

/-- The bit pattern of `+0.0` denotes zero. -/
theorem zero_f32 : (Scalar.ofBits .f32 0x00000000#32 : Ideal .f32) = 0 := Ideal.ofBits_zero_f32

end Pointwise

end Cert.KernelIdeal.AfmBody

end
-- ==== Proof.BodyAttn.lean ====
/-
  The attention layer of the kernel body, read at a pair and a lane.

  For each of the 16 hidden units `a` the body multiplies the pair products `E` by column `a` of the attention matrix,
  sums over the embedding coordinate, adds the bias, clips at zero and multiplies by the read-out weight; the 16 terms are
  added one after the other to a zero vector.  The program cuts this chain into pieces at places that do not follow the
  units; each piece is read here at `(p, l)` as the part of the chain it holds.
-/
import proofs.«122830_j89627377532987_2_alg».proof.Proof.BodyOps

noncomputable section

open scoped BigOperators

namespace Cert.KernelIdeal.AfmBody

open Cert.KernelIdeal Cert.KernelIdeal.Gen Idealize.ShloMosaic Idealize.ShloMosaic.ValueIdx

/-- Hidden unit `a` on pair `p` at lane `l`: the clipped affine form of the pair's products. -/
def hidAt (E : S325x16x256.Idx → EReal) (W : S16x16.Idx → EReal) (b : S16x1.Idx → EReal) (a : Fin 16) (p : Fin 325)
    (l : Fin 256) : EReal :=
  max ((∑ d : Fin 16, E (ix3 p d l) * W (ix2 d a)) + b (ix2 a (0 : Fin 1))) 0

/-- The contribution of hidden unit `a` to the score of pair `p`. -/
def termAt (E : S325x16x256.Idx → EReal) (W : S16x16.Idx → EReal) (b h : S16x1.Idx → EReal) (a : Fin 16) (p : Fin 325)
    (l : Fin 256) : EReal :=
  hidAt E W b a p l * h (ix2 a (0 : Fin 1))

/-- A sum over 16 indices, written as the chain of additions to zero the body performs. -/
theorem sum16 (f : Fin 16 → EReal) :
    ∑ a : Fin 16, f a
      = (((((((((((((((0 + f 0) + f 1) + f 2) + f 3) + f 4) + f 5) + f 6) + f 7) + f 8) + f 9) + f 10) + f 11) + f 12)
          + f 13) + f 14) + f 15 := by
  simp only [Fin.sum_univ_castSucc, Fin.sum_univ_zero]
  rfl

section Pieces
variable (E : FVec Ideal S325x16x256 .f32) (x2 : Vec Ideal S16x16 .f32) (b : FVec Ideal S16x1 .f32) (x4 : Vec Ideal S16x1 .f32) (p : Fin 325) (l : Fin 256)

theorem pay38_apply (s : Vec Ideal S325x16x256 .bf16) (x3 : Vec Ideal S16x1 .f32) :
    k0_pay38 s x2 x3 x4 (ix2 p l) = 0 + termAt (k0_pay36 s) x2 (k0_pay37 x3) x4 0 p l := by
  unfold k0_pay38
  delta multiReduction
  simp only [addf_apply, mulf_apply, maximumf_apply, broadcast_apply, reduceAdd_ideal, sum_d_apply, colvec_apply, colslice_apply, pick00, slice_row_apply, zero_f32]
  rfl

theorem pay39_apply (s : Vec Ideal S325x16x256 .bf16) (x3 : Vec Ideal S16x1 .f32) :
    k0_pay39 s x2 x3 (ix2 p l) = hidAt (k0_pay36 s) x2 (k0_pay37 x3) 1 p l := by
  unfold k0_pay39
  delta multiReduction
  simp only [addf_apply, mulf_apply, maximumf_apply, broadcast_apply, reduceAdd_ideal, sum_d_apply, colvec_apply, colslice_apply, pick00, slice_row_apply, zero_f32]
  rfl

theorem pay40_apply : k0_pay40 x4 (ix2 (0 : Fin 1) (0 : Fin 1)) = x4 (ix2 (1 : Fin 16) (0 : Fin 1)) := by
  unfold k0_pay40
  simp only [slice_row_apply]
  rfl

theorem pay41_apply (v321 v333 : FVec Ideal S325x256 .f32) (v334 : FVec Ideal S1x1 .f32) :
    k0_pay41 E x2 b x4 v321 v333 v334 (ix2 p l)
      = ((v321 (ix2 p l) + v333 (ix2 p l) * v334 (ix2 (0 : Fin 1) (0 : Fin 1))) + termAt E x2 b x4 2 p l)
          + termAt E x2 b x4 3 p l := by
  unfold k0_pay41
  delta multiReduction
  simp only [addf_apply, mulf_apply, maximumf_apply, broadcast_apply, reduceAdd_ideal, sum_d_apply, colvec_apply, colslice_apply, pick00, slice_row_apply, zero_f32]
  rfl

theorem pay42_apply : k0_pay42 E x2 b x4 (ix2 p l) = termAt E x2 b x4 4 p l := by
  unfold k0_pay42
  delta multiReduction
  simp only [addf_apply, mulf_apply, maximumf_apply, broadcast_apply, reduceAdd_ideal, sum_d_apply, colvec_apply, colslice_apply, pick00, slice_row_apply, zero_f32]
  rfl

theorem pay43_apply (v372 v388 : FVec Ideal S325x256 .f32) :
    k0_pay43 E x2 b x4 v372 v388 (ix2 p l)
      = (((v372 (ix2 p l) + v388 (ix2 p l)) + termAt E x2 b x4 5 p l) + termAt E x2 b x4 6 p l)
          + termAt E x2 b x4 7 p l := by
  unfold k0_pay43
  delta multiReduction
  simp only [addf_apply, mulf_apply, maximumf_apply, broadcast_apply, reduceAdd_ideal, sum_d_apply, colvec_apply, colslice_apply, pick00, slice_row_apply, zero_f32]
  rfl

theorem pay44_apply (d : Fin 16) : k0_pay44 x2 (ix1 d) = x2 (ix2 d (8 : Fin 16)) := by
  unfold k0_pay44
  simp only [colslice_apply]
  rfl

theorem pay45_apply (v440 : FVec Ideal S325x256 .f32) (v442 : FVec Ideal S16 .f32) :
    k0_pay45 E x2 b x4 v440 v442 (ix2 p l)
      = ((v440 (ix2 p l)
            + max ((∑ d : Fin 16, E (ix3 p d l) * v442 (ix1 d)) + b (ix2 (8 : Fin 16) (0 : Fin 1))) 0
                * x4 (ix2 (8 : Fin 16) (0 : Fin 1)))
          + termAt E x2 b x4 9 p l) + termAt E x2 b x4 10 p l := by
  unfold k0_pay45
  delta multiReduction
  simp only [addf_apply, mulf_apply, maximumf_apply, broadcast_apply, reduceAdd_ideal, sum_d_apply, colvec_apply, colslice_apply, pick00, slice_row_apply, zero_f32]
  rfl

theorem pay46_apply (d : Fin 16) : k0_pay46 E x2 (ix3 p d l) = E (ix3 p d l) * x2 (ix2 d (11 : Fin 16)) := by
  unfold k0_pay46
  simp only [addf_apply, mulf_apply, maximumf_apply, broadcast_apply, reduceAdd_ideal, sum_d_apply, colvec_apply, colslice_apply, pick00, slice_row_apply, zero_f32]
  rfl

theorem pay47_apply (v491 : FVec Ideal S325x256 .f32) (v496 : FVec Ideal S325x16x256 .f32) :
    k0_pay47 E x2 b x4 v491 v496 (ix2 p l)
      = ((v491 (ix2 p l)
            + max ((∑ d : Fin 16, v496 (ix3 p d l)) + b (ix2 (11 : Fin 16) (0 : Fin 1))) 0
                * x4 (ix2 (11 : Fin 16) (0 : Fin 1)))
          + termAt E x2 b x4 12 p l) + termAt E x2 b x4 13 p l := by
  unfold k0_pay47
  delta multiReduction
  simp only [addf_apply, mulf_apply, maximumf_apply, broadcast_apply, reduceAdd_ideal, sum_d_apply, colvec_apply, colslice_apply, pick00, slice_row_apply, zero_f32]
  rfl

theorem pay48_apply : k0_pay48 E x2 (ix2 p l) = ∑ d : Fin 16, E (ix3 p d l) * x2 (ix2 d (14 : Fin 16)) := by
  unfold k0_pay48
  delta multiReduction
  simp only [addf_apply, mulf_apply, maximumf_apply, broadcast_apply, reduceAdd_ideal, sum_d_apply, colvec_apply, colslice_apply, pick00, slice_row_apply, zero_f32]
  rfl

theorem pay49_apply : k0_pay49 b (ix2 (0 : Fin 1) (0 : Fin 1)) = b (ix2 (14 : Fin 16) (0 : Fin 1)) := by
  unfold k0_pay49
  simp only [slice_row_apply]
  rfl

end Pieces

end Cert.KernelIdeal.AfmBody

end
-- ==== Proof.BodySoftmax.lean ====
/-
  The softmax over the pairs, the pooling and the projection of the kernel body, read at a lane.

  The last piece of the body finishes the chain of hidden units' contributions to the pairs' scores `z`, takes the
  maximum of the scores over the pairs, exponentiates the shifted scores, divides by their sum, pools the pair products
  with these weights and projects the pooled vector.
-/
import proofs.«122830_j89627377532987_2_alg».proof.Proof.BodyAttn
import proofs.«122830_j89627377532987_2_alg».proof.Proof.AfmSpec

noncomputable section

open scoped BigOperators

namespace Cert.KernelIdeal.AfmBody

open Cert.KernelIdeal Cert.KernelIdeal.Gen Idealize.ShloMosaic Idealize.ShloMosaic.ValueIdx

/-- The score of pair `p` at lane `l`, from the chain's value so far `v542`, the last-but-one unit's sum `v548`
    and bias `v549`, and the last unit. -/
def zAt (E : S325x16x256.Idx → EReal) (W : S16x16.Idx → EReal) (b h : S16x1.Idx → EReal) (v542 v548 : S325x256.Idx → EReal)
    (v549 : S1x1.Idx → EReal) (l : Fin 256) (p : Fin 325) : EReal :=
  (v542 (ix2 p l) + max (v548 (ix2 p l) + v549 (ix2 (0 : Fin 1) (0 : Fin 1))) 0 * h (ix2 (14 : Fin 16) (0 : Fin 1)))
    + termAt E W b h 15 p l

theorem pay50_apply (E : FVec Ideal S325x16x256 .f32) (x2 : Vec Ideal S16x16 .f32) (b : FVec Ideal S16x1 .f32) (x4 : Vec Ideal S16x1 .f32) (v542 v548 : FVec Ideal S325x256 .f32) (v549 : FVec Ideal S1x1 .f32)
    (x5 : Vec Ideal S16x1 .f32) (l : Fin 256) :
    k0_pay50 E x2 b x4 v542 v548 v549 x5 (ix2 (0 : Fin 1) l)
      = ∑ d : Fin 16, (∑ p : Fin 325, E (ix3 p d l) * Cert.Afm.score (zAt E x2 b x4 v542 v548 v549 l) p)
          * x5 (ix2 d (0 : Fin 1)) := by
  unfold k0_pay50
  delta multiReduction
  simp only [addf_apply, mulf_apply, maximumf_apply, broadcast_apply, reduceAdd_ideal, sum_d_apply, colvec_apply, colslice_apply, pick00, slice_row_apply, zero_f32, subf_apply, divf_apply, exp_apply, sum_p3_apply, sum_p2_apply, sum_rows16_apply, max_p_apply,
    row_of_lanes_apply, bcast_row_apply, bcast_weights_apply, bcast_col16_apply]
  rfl

end Cert.KernelIdeal.AfmBody

end
-- ==== Proof.BodyChain.lean ====
/-
  The chain of hidden units' contributions, assembled from the pieces the body cuts it into.

  The first 14 units' contributions are added, one after the other, to zero; the value is read at a pair and a lane as
  that chain of 14 additions.  With the last two units, which the final piece of the body adds, the chain is the sum over
  all 16 units.
-/
import proofs.«122830_j89627377532987_2_alg».proof.Proof.BodySoftmax

noncomputable section

open scoped BigOperators

namespace Cert.KernelIdeal.AfmBody

open Cert.KernelIdeal Cert.KernelIdeal.Gen Idealize.ShloMosaic Idealize.ShloMosaic.ValueIdx

/-- The chain's value after 14 of the 16 units, composed of the body's pieces in the order it threads them. -/
def acc14 (s : Vec Ideal S325x16x256 .bf16) (x2 : Vec Ideal S16x16 .f32) (x3 x4 : Vec Ideal S16x1 .f32) :
    FVec Ideal S325x256 .f32 :=
  k0_pay47 (k0_pay36 s) x2 (k0_pay37 x3) x4
    (k0_pay45 (k0_pay36 s) x2 (k0_pay37 x3) x4
      (k0_pay43 (k0_pay36 s) x2 (k0_pay37 x3) x4
        (k0_pay41 (k0_pay36 s) x2 (k0_pay37 x3) x4 (k0_pay38 s x2 x3 x4) (k0_pay39 s x2 x3) (k0_pay40 x4))
        (k0_pay42 (k0_pay36 s) x2 (k0_pay37 x3) x4))
      (k0_pay44 x2))
    (k0_pay46 (k0_pay36 s) x2)

theorem acc14_apply (s : Vec Ideal S325x16x256 .bf16) (x2 : Vec Ideal S16x16 .f32) (x3 x4 : Vec Ideal S16x1 .f32)
    (p : Fin 325) (l : Fin 256) :
    acc14 s x2 x3 x4 (ix2 p l)
      = ((((((((((((((0 + termAt (k0_pay36 s) x2 (k0_pay37 x3) x4 0 p l) + termAt (k0_pay36 s) x2 (k0_pay37 x3) x4 1 p l) + termAt (k0_pay36 s) x2 (k0_pay37 x3) x4 2 p l) + termAt (k0_pay36 s) x2 (k0_pay37 x3) x4 3 p l) + termAt (k0_pay36 s) x2 (k0_pay37 x3) x4 4 p l) + termAt (k0_pay36 s) x2 (k0_pay37 x3) x4 5 p l) + termAt (k0_pay36 s) x2 (k0_pay37 x3) x4 6 p l) + termAt (k0_pay36 s) x2 (k0_pay37 x3) x4 7 p l) + termAt (k0_pay36 s) x2 (k0_pay37 x3) x4 8 p l) + termAt (k0_pay36 s) x2 (k0_pay37 x3) x4 9 p l) + termAt (k0_pay36 s) x2 (k0_pay37 x3) x4 10 p l) + termAt (k0_pay36 s) x2 (k0_pay37 x3) x4 11 p l) + termAt (k0_pay36 s) x2 (k0_pay37 x3) x4 12 p l) + termAt (k0_pay36 s) x2 (k0_pay37 x3) x4 13 p l) := by
  unfold acc14
  simp only [pay47_apply, pay45_apply, pay43_apply, pay41_apply, pay42_apply, pay38_apply, pay39_apply, pay40_apply,
    pay44_apply, pay46_apply]
  rfl

/-- The scores the softmax is taken of: for each pair the sum over the 16 hidden units of their contributions. -/
theorem z_eq (s : Vec Ideal S325x16x256 .bf16) (x2 : Vec Ideal S16x16 .f32) (x3 x4 : Vec Ideal S16x1 .f32) (l : Fin 256) :
    zAt (k0_pay36 s) x2 (k0_pay37 x3) x4 (acc14 s x2 x3 x4) (k0_pay48 (k0_pay36 s) x2) (k0_pay49 (k0_pay37 x3)) l
      = fun p => ∑ a : Fin 16, termAt (k0_pay36 s) x2 (k0_pay37 x3) x4 a p l := by
  funext p
  unfold zAt
  rw [acc14_apply, pay48_apply, pay49_apply]
  exact (sum16 fun a => termAt (k0_pay36 s) x2 (k0_pay37 x3) x4 a p l).symm

end Cert.KernelIdeal.AfmBody

end
-- ==== Proof.BodyLinear.lean ====
/-
  The linear term and the logistic function of the kernel body, read at a lane.

  The body adds to the attention output `v594` the dense features weighted by `x6`, all embedded numbers weighted by
  `x7` and the bias `x8`, and applies the logistic function.
-/
import proofs.«122830_j89627377532987_2_alg».proof.Proof.BodyOps

noncomputable section

open scoped BigOperators

namespace Cert.KernelIdeal.AfmBody

open Cert.KernelIdeal Cert.KernelIdeal.Gen Idealize.ShloMosaic Idealize.ShloMosaic.ValueIdx

theorem pay1_apply (v594 : FVec Ideal S1x256 .f32) (v596 : FVec Ideal S13x256 .f32) (x6 : Vec Ideal S13x1 .f32)
    (x0 : Vec Ideal S26x16x256 .f32) (x7 : Vec Ideal S26x16 .f32) (x8 : Vec Ideal S1x1 .f32) (l : Fin 256) :
    k0_pay1 v594 v596 x6 x0 x7 x8 (ix2 (0 : Fin 1) l)
      = Ideal.logistic (v594 (ix2 (0 : Fin 1) l)
          + (((∑ n : Fin 13, v596 (ix2 n l) * x6 (ix2 n (0 : Fin 1)))
              + ∑ f : Fin 26, ∑ d : Fin 16, x0 (ix3 f d l) * x7 (ix2 f d))
            + x8 (ix2 (0 : Fin 1) (0 : Fin 1)))) := by
  unfold k0_pay1
  delta multiReduction
  simp only [addf_apply, mulf_apply, logistic_apply, reduceAdd_ideal, sum_rows13_apply, sum_fd_apply, sum_f_apply,
    row_of_lanes_apply, bcast_col13_apply, bcast_table_apply, mid_unit_apply, bcast_one_apply, shapeCast_self]

/-- The dense features pass through a reshape to their own shape. -/
theorem pay51_eq (x1 : Vec Ideal S13x256 .f32) : k0_pay51 x1 = x1 := by
  unfold k0_pay51
  exact shapeCast_self _ _

/-- The attention bias passes through a reshape to its own shape. -/
theorem pay37_eq (x3 : Vec Ideal S16x1 .f32) : k0_pay37 x3 = x3 := by
  unfold k0_pay37
  exact shapeCast_self _ _

/-- Widening the scratch buffer's entries changes no extended real. -/
theorem pay36_apply (s : Vec Ideal S325x16x256 .bf16) (i : S325x16x256.Idx) : k0_pay36 s i = s i := rfl

end Cert.KernelIdeal.AfmBody

end
-- ==== Proof.BodyValue.lean ====
/-
  The kernel body's output row at a lane is the model's output for that lane's sample.

  The body's value `kTail` is the composition of its pieces.  Read at lane `l`, with the scratch buffer holding the
  entrywise products of the pairs' fields, the chain of hidden units is the sum over the units, the pair products are the
  specification's `ewp` (the two factors in the other order), and the pooled, projected and linear parts are the
  specification's sums term by term.
-/
import proofs.«122830_j89627377532987_2_alg».proof.Proof.BodyTail
import proofs.«122830_j89627377532987_2_alg».proof.Proof.BodyChain
import proofs.«122830_j89627377532987_2_alg».proof.Proof.BodyLinear

noncomputable section

open scoped BigOperators

namespace Cert.KernelIdeal.AfmBody

open Cert.KernelIdeal Cert.KernelIdeal.Gen Idealize.ShloMosaic Idealize.ShloMosaic.ValueIdx

theorem kTail_apply (s : Vec Ideal S325x16x256 .bf16) (x0 : Vec Ideal S26x16x256 .f32) (x1 : Vec Ideal S13x256 .f32)
    (x2 : Vec Ideal S16x16 .f32) (x3 : Vec Ideal S16x1 .f32) (x4 : Vec Ideal S16x1 .f32) (x5 : Vec Ideal S16x1 .f32)
    (x6 : Vec Ideal S13x1 .f32) (x7 : Vec Ideal S26x16 .f32) (x8 : Vec Ideal S1x1 .f32)
    (hs : ∀ (p : Fin 325) (d : Fin 16) (l : Fin 256),
      s (ix3 p d l) = x0 (ix3 (Cert.Afm.pairJ p) d l) * x0 (ix3 (Cert.Afm.pairI p) d l)) (l : Fin 256) :
    kTail (F := Ideal) s x0 x1 x2 x3 x4 x5 x6 x7 x8 (ix2 0 l)
      = Cert.Afm.sample (fun n => x1 (ix2 n l)) (fun f d => x0 (ix3 f d l)) (fun d a => x2 (ix2 d a))
          (fun a => x3 (ix2 a 0)) (fun a => x4 (ix2 a 0)) (fun d => x5 (ix2 d 0)) (fun n => x6 (ix2 n 0))
          (fun f d => x7 (ix2 f d)) (x8 (ix2 0 0)) := by
  -- the pair products the body reads are the specification's
  have hE : ∀ (p : Fin 325) (d : Fin 16),
      k0_pay36 s (ix3 p d l) = Cert.Afm.ewp (fun f d => x0 (ix3 f d l)) p d :=
    fun p d => (hs p d l).trans (mul_comm _ _)
  -- a hidden unit's contribution is the specification's
  have hT : ∀ (a : Fin 16) (p : Fin 325),
      termAt (k0_pay36 s) x2 (k0_pay37 x3) x4 a p l
        = Cert.Afm.hid (fun f d => x0 (ix3 f d l)) (fun d a => x2 (ix2 d a)) (fun a => x3 (ix2 a 0)) p a
            * x4 (ix2 a 0) := by
    intro a p
    unfold termAt hidAt Cert.Afm.hid
    simp only [hE, pay37_eq]
  -- so the scores are the specification's
  have hz : (fun p => ∑ a : Fin 16, termAt (k0_pay36 s) x2 (k0_pay37 x3) x4 a p l)
      = Cert.Afm.logit (fun f d => x0 (ix3 f d l)) (fun d a => x2 (ix2 d a)) (fun a => x3 (ix2 a 0))
          (fun a => x4 (ix2 a 0)) := by
    funext p
    unfold Cert.Afm.logit
    exact Finset.sum_congr rfl fun a _ => hT a p
  show k0_pay1 (k0_pay50 (k0_pay36 s) x2 (k0_pay37 x3) x4 (acc14 s x2 x3 x4) (k0_pay48 (k0_pay36 s) x2)
      (k0_pay49 (k0_pay37 x3)) x5) (k0_pay51 x1) x6 x0 x7 x8 (ix2 (0 : Fin 1) l) = _
  rw [pay1_apply, pay50_apply, z_eq, hz, pay51_eq]
  unfold Cert.Afm.sample Cert.Afm.pooled Cert.Afm.linear
  refine congrArg Ideal.logistic ?_
  refine congrArg₂ (· + ·) ?_ rfl
  refine Finset.sum_congr rfl fun d _ => congrArg (· * x5 (ix2 d 0)) ?_
  refine Finset.sum_congr rfl fun p _ => ?_
  rw [hE, mul_comm]

end Cert.KernelIdeal.AfmBody

end
-- ==== Proof.RefOps.lean ====
/-
  The reference program as a list of its operations.

  The program is a straight line: the operations of its two windows in order, with the one call (a rectifier)
  replaced by the three operations of the callee's body over the call's own buffers.  Running the program is
  running this list, because sequencing in the free monad of effect requests is computed structurally.
-/
import proofs.«122830_j89627377532987_2_alg».proof.ReferenceIdeal
import Idealize.ShloMosaic.Lib.StableHlo.Run

noncomputable section

namespace Cert.ReferenceIdeal.AfmRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The reference's operations in order, the one call unfolded at its site into the callee's three. -/
abbrev ops : List (HloOp τ sig (Elt F)) :=
  [ nullary main_c (fun i => lit0 (S325.rowMajor i)),
    nullary main_c_0 (constantI S325 1 0#1),
    nullary main_c_1 (fun i => lit1 (S325.rowMajor i)),
    nullary main_c_2 (constantI S325 1 0#1),
    nullary main_v0 (iotaInDim S26 32 0),
    unary main_v0 main_v1 (broadcastInDim S1x26 ![1] bcast_S26_S1x26_1 : (⟨S26, .i32⟩ : BufTy).Contents (Elt F) → (⟨S1x26, .i32⟩ : BufTy).Contents (Elt F)),
    nullary main_c_3 (constantI S_ 32 0#32),
    unary main_c_3 main_v2 (broadcastInDim S1x26 ![] bcast_S_S1x26 : (⟨S_, .i32⟩ : BufTy).Contents (Elt F) → (⟨S1x26, .i32⟩ : BufTy).Contents (Elt F)),
    binary main_v1 main_v2 main_v3 (cmpi .slt : (⟨S1x26, .i32⟩ : BufTy).Contents (Elt F) → (⟨S1x26, .i32⟩ : BufTy).Contents (Elt F) → (⟨S1x26, .i1⟩ : BufTy).Contents (Elt F)),
    nullary main_c_4 (constantI S_ 32 26#32),
    unary main_c_4 main_v4 (broadcastInDim S1x26 ![] bcast_S_S1x26 : (⟨S_, .i32⟩ : BufTy).Contents (Elt F) → (⟨S1x26, .i32⟩ : BufTy).Contents (Elt F)),
    binary main_v1 main_v4 main_v5 (addi : (⟨S1x26, .i32⟩ : BufTy).Contents (Elt F) → (⟨S1x26, .i32⟩ : BufTy).Contents (Elt F) → (⟨S1x26, .i32⟩ : BufTy).Contents (Elt F)),
    ternary main_v3 main_v5 main_v1 main_v6 (select : (⟨S1x26, .i1⟩ : BufTy).Contents (Elt F) → (⟨S1x26, .i32⟩ : BufTy).Contents (Elt F) → (⟨S1x26, .i32⟩ : BufTy).Contents (Elt F) → (⟨S1x26, .i32⟩ : BufTy).Contents (Elt F)),
    nullary main_c_5 (constantI S_ 32 0#32),
    unary main_c_5 main_v7 (broadcastInDim S4096x26 ![] bcast_S_S4096x26 : (⟨S_, .i32⟩ : BufTy).Contents (Elt F) → (⟨S4096x26, .i32⟩ : BufTy).Contents (Elt F)),
    binary main_arg1 main_v7 main_v8 (cmpi .slt : (⟨S4096x26, .i32⟩ : BufTy).Contents (Elt F) → (⟨S4096x26, .i32⟩ : BufTy).Contents (Elt F) → (⟨S4096x26, .i1⟩ : BufTy).Contents (Elt F)),
    nullary main_c_6 (constantI S_ 32 100000#32),
    unary main_c_6 main_v9 (broadcastInDim S4096x26 ![] bcast_S_S4096x26 : (⟨S_, .i32⟩ : BufTy).Contents (Elt F) → (⟨S4096x26, .i32⟩ : BufTy).Contents (Elt F)),
    binary main_arg1 main_v9 main_v10 (addi : (⟨S4096x26, .i32⟩ : BufTy).Contents (Elt F) → (⟨S4096x26, .i32⟩ : BufTy).Contents (Elt F) → (⟨S4096x26, .i32⟩ : BufTy).Contents (Elt F)),
    ternary main_v8 main_v10 main_arg1 main_v11 (select : (⟨S4096x26, .i1⟩ : BufTy).Contents (Elt F) → (⟨S4096x26, .i32⟩ : BufTy).Contents (Elt F) → (⟨S4096x26, .i32⟩ : BufTy).Contents (Elt F) → (⟨S4096x26, .i32⟩ : BufTy).Contents (Elt F)),
    unary main_v6 main_v12 (broadcastInDim S4096x26 ![0, 1] bcast_S1x26_S4096x26_0_1 : (⟨S1x26, .i32⟩ : BufTy).Contents (Elt F) → (⟨S4096x26, .i32⟩ : BufTy).Contents (Elt F)),
    unary main_v12 main_v13 (broadcastInDim S4096x26x1 ![0, 1] bcast_S4096x26_S4096x26x1_0_1 : (⟨S4096x26, .i32⟩ : BufTy).Contents (Elt F) → (⟨S4096x26x1, .i32⟩ : BufTy).Contents (Elt F)),
    unary main_v11 main_v14 (broadcastInDim S4096x26x1 ![0, 1] bcast_S4096x26_S4096x26x1_0_1 : (⟨S4096x26, .i32⟩ : BufTy).Contents (Elt F) → (⟨S4096x26x1, .i32⟩ : BufTy).Contents (Elt F)),
    binary main_v13 main_v14 main_v15 ((fun a b => concatenate S4096x26x2 2 [⟨S4096x26x1, a⟩, ⟨S4096x26x1, b⟩] concatenates_S4096x26x1_S4096x26x1_S4096x26x2_d2) : (⟨S4096x26x1, .i32⟩ : BufTy).Contents (Elt F) → (⟨S4096x26x1, .i32⟩ : BufTy).Contents (Elt F) → (⟨S4096x26x2, .i32⟩ : BufTy).Contents (Elt F)),
    binary main_arg2 main_v15 main_v16 ((fun x i => Host.gather gather_S26x100000x16_S4096x26x2_S4096x26x16_2_01_n_n_01_2_1116 x i) : (⟨S26x100000x16, .f32⟩ : BufTy).Contents (Elt F) → (⟨S4096x26x2, .i32⟩ : BufTy).Contents (Elt F) → (⟨S4096x26x16, .f32⟩ : BufTy).Contents (Elt F)),
    reshape main_v16 main_v17 rfl shapeCasts_S4096x26x16_S4096x416,
    binary main_arg0 main_arg7 main_v18 ((fun l r => Host.dotGeneral dot_S4096x13_S13x1_S4096x1_1_0_0_1_n_n none l r) : (⟨S4096x13, .f32⟩ : BufTy).Contents (Elt F) → (⟨S13x1, .f32⟩ : BufTy).Contents (Elt F) → (⟨S4096x1, .f32⟩ : BufTy).Contents (Elt F)),
    binary main_v17 main_arg8 main_v19 ((fun l r => Host.dotGeneral dot_S4096x416_S416x1_S4096x1_1_0_0_1_n_n none l r) : (⟨S4096x416, .f32⟩ : BufTy).Contents (Elt F) → (⟨S416x1, .f32⟩ : BufTy).Contents (Elt F) → (⟨S4096x1, .f32⟩ : BufTy).Contents (Elt F)),
    binary main_v18 main_v19 main_v20 (addf : (⟨S4096x1, .f32⟩ : BufTy).Contents (Elt F) → (⟨S4096x1, .f32⟩ : BufTy).Contents (Elt F) → (⟨S4096x1, .f32⟩ : BufTy).Contents (Elt F)),
    unary main_arg9 main_v21 (broadcastInDim S1x1 ![1] bcast_S1_S1x1_1 : (⟨S1, .f32⟩ : BufTy).Contents (Elt F) → (⟨S1x1, .f32⟩ : BufTy).Contents (Elt F)),
    unary main_v21 main_v22 (broadcastInDim S4096x1 ![0, 1] bcast_S1x1_S4096x1_0_1 : (⟨S1x1, .f32⟩ : BufTy).Contents (Elt F) → (⟨S4096x1, .f32⟩ : BufTy).Contents (Elt F)),
    binary main_v20 main_v22 main_v23 (addf : (⟨S4096x1, .f32⟩ : BufTy).Contents (Elt F) → (⟨S4096x1, .f32⟩ : BufTy).Contents (Elt F) → (⟨S4096x1, .f32⟩ : BufTy).Contents (Elt F)),
    nullary main_c_7 (constantI S_ 32 26#32),
    unary main_c_7 main_v24 (broadcastInDim S325 ![] bcast_S_S325 : (⟨S_, .i32⟩ : BufTy).Contents (Elt F) → (⟨S325, .i32⟩ : BufTy).Contents (Elt F)),
    binary main_c main_v24 main_v25 (addi : (⟨S325, .i32⟩ : BufTy).Contents (Elt F) → (⟨S325, .i32⟩ : BufTy).Contents (Elt F) → (⟨S325, .i32⟩ : BufTy).Contents (Elt F)),
    ternary main_c_0 main_v25 main_c main_v26 (select : (⟨S325, .i1⟩ : BufTy).Contents (Elt F) → (⟨S325, .i32⟩ : BufTy).Contents (Elt F) → (⟨S325, .i32⟩ : BufTy).Contents (Elt F) → (⟨S325, .i32⟩ : BufTy).Contents (Elt F)),
    unary main_v26 main_v27 (broadcastInDim S325x1 ![0] bcast_S325_S325x1_0 : (⟨S325, .i32⟩ : BufTy).Contents (Elt F) → (⟨S325x1, .i32⟩ : BufTy).Contents (Elt F)),
    binary main_v16 main_v27 main_v28 ((fun x i => Host.gather gather_S4096x26x16_S325x1_S4096x325x16_02_1_n_n_1_1_4096116 x i) : (⟨S4096x26x16, .f32⟩ : BufTy).Contents (Elt F) → (⟨S325x1, .i32⟩ : BufTy).Contents (Elt F) → (⟨S4096x325x16, .f32⟩ : BufTy).Contents (Elt F)),
    nullary main_c_8 (constantI S_ 32 26#32),
    unary main_c_8 main_v29 (broadcastInDim S325 ![] bcast_S_S325 : (⟨S_, .i32⟩ : BufTy).Contents (Elt F) → (⟨S325, .i32⟩ : BufTy).Contents (Elt F)),
    binary main_c_1 main_v29 main_v30 (addi : (⟨S325, .i32⟩ : BufTy).Contents (Elt F) → (⟨S325, .i32⟩ : BufTy).Contents (Elt F) → (⟨S325, .i32⟩ : BufTy).Contents (Elt F)),
    ternary main_c_2 main_v30 main_c_1 main_v31 (select : (⟨S325, .i1⟩ : BufTy).Contents (Elt F) → (⟨S325, .i32⟩ : BufTy).Contents (Elt F) → (⟨S325, .i32⟩ : BufTy).Contents (Elt F) → (⟨S325, .i32⟩ : BufTy).Contents (Elt F)),
    unary main_v31 main_v32 (broadcastInDim S325x1 ![0] bcast_S325_S325x1_0 : (⟨S325, .i32⟩ : BufTy).Contents (Elt F) → (⟨S325x1, .i32⟩ : BufTy).Contents (Elt F)),
    binary main_v16 main_v32 main_v33 ((fun x i => Host.gather gather_S4096x26x16_S325x1_S4096x325x16_02_1_n_n_1_1_4096116 x i) : (⟨S4096x26x16, .f32⟩ : BufTy).Contents (Elt F) → (⟨S325x1, .i32⟩ : BufTy).Contents (Elt F) → (⟨S4096x325x16, .f32⟩ : BufTy).Contents (Elt F)),
    binary main_v28 main_v33 main_v34 (mulf : (⟨S4096x325x16, .f32⟩ : BufTy).Contents (Elt F) → (⟨S4096x325x16, .f32⟩ : BufTy).Contents (Elt F) → (⟨S4096x325x16, .f32⟩ : BufTy).Contents (Elt F)),
    binary main_v34 main_arg3 main_v35 ((fun l r => Host.dotGeneral dot_S4096x325x16_S16x16_S4096x325x16_2_0_01_1_n_n none l r) : (⟨S4096x325x16, .f32⟩ : BufTy).Contents (Elt F) → (⟨S16x16, .f32⟩ : BufTy).Contents (Elt F) → (⟨S4096x325x16, .f32⟩ : BufTy).Contents (Elt F)),
    unary main_arg4 main_v36 (broadcastInDim S1x1x16 ![2] bcast_S16_S1x1x16_2 : (⟨S16, .f32⟩ : BufTy).Contents (Elt F) → (⟨S1x1x16, .f32⟩ : BufTy).Contents (Elt F)),
    unary main_v36 main_v37 (broadcastInDim S4096x325x16 ![0, 1, 2] bcast_S1x1x16_S4096x325x16_0_1_2 : (⟨S1x1x16, .f32⟩ : BufTy).Contents (Elt F) → (⟨S4096x325x16, .f32⟩ : BufTy).Contents (Elt F)),
    binary main_v35 main_v37 main_v38 (addf : (⟨S4096x325x16, .f32⟩ : BufTy).Contents (Elt F) → (⟨S4096x325x16, .f32⟩ : BufTy).Contents (Elt F) → (⟨S4096x325x16, .f32⟩ : BufTy).Contents (Elt F)),
    TRef.nullary main_call0.cst (constant S_ .f32 0x00000000#32),
    TRef.unary main_call0.cst main_call0.v0 (broadcastInDim S4096x325x16 ![] bcast_S_S4096x325x16),
    TRef.binary (.of main_v38) main_call0.v0 main_call0.v1 maximumf,
    binary main_v39 main_arg5 main_v40 ((fun l r => Host.dotGeneral dot_S4096x325x16_S16x1_S4096x325x1_2_0_01_1_n_n none l r) : (⟨S4096x325x16, .f32⟩ : BufTy).Contents (Elt F) → (⟨S16x1, .f32⟩ : BufTy).Contents (Elt F) → (⟨S4096x325x1, .f32⟩ : BufTy).Contents (Elt F)),
    nullary main_cst (constant S_ .f32 0xFF800000#32),
    binary main_v40 main_cst main_v41 ((fun x v => Host.reduce FloatOps.maximumf x v reducesTo_S4096x325x1_S4096x1_d1 h_S_) : (⟨S4096x325x1, .f32⟩ : BufTy).Contents (Elt F) → (⟨S_, .f32⟩ : BufTy).Contents (Elt F) → (⟨S4096x1, .f32⟩ : BufTy).Contents (Elt F)),
    nullary main_cst_9 (constant S_ .f32 0xFF800000#32),
    unary main_cst_9 main_v42 (broadcastInDim S4096x1 ![] bcast_S_S4096x1 : (⟨S_, .f32⟩ : BufTy).Contents (Elt F) → (⟨S4096x1, .f32⟩ : BufTy).Contents (Elt F)),
    binary main_v42 main_v41 main_v43 (maximumf : (⟨S4096x1, .f32⟩ : BufTy).Contents (Elt F) → (⟨S4096x1, .f32⟩ : BufTy).Contents (Elt F) → (⟨S4096x1, .f32⟩ : BufTy).Contents (Elt F)),
    unary main_v43 main_v44 (broadcastInDim S4096x1x1 ![0, 2] bcast_S4096x1_S4096x1x1_0_2 : (⟨S4096x1, .f32⟩ : BufTy).Contents (Elt F) → (⟨S4096x1x1, .f32⟩ : BufTy).Contents (Elt F)),
    unary main_v44 main_v45 (broadcastInDim S4096x325x1 ![0, 1, 2] bcast_S4096x1x1_S4096x325x1_0_1_2 : (⟨S4096x1x1, .f32⟩ : BufTy).Contents (Elt F) → (⟨S4096x325x1, .f32⟩ : BufTy).Contents (Elt F)),
    binary main_v40 main_v45 main_v46 (subf : (⟨S4096x325x1, .f32⟩ : BufTy).Contents (Elt F) → (⟨S4096x325x1, .f32⟩ : BufTy).Contents (Elt F) → (⟨S4096x325x1, .f32⟩ : BufTy).Contents (Elt F)),
    unary main_v46 main_v47 (Host.exp : (⟨S4096x325x1, .f32⟩ : BufTy).Contents (Elt F) → (⟨S4096x325x1, .f32⟩ : BufTy).Contents (Elt F)),
    nullary main_cst_10 (constant S_ .f32 0x00000000#32),
    binary main_v47 main_cst_10 main_v48 ((fun x v => Host.reduceAdd x v reducesTo_S4096x325x1_S4096x1_d1 h_S_) : (⟨S4096x325x1, .f32⟩ : BufTy).Contents (Elt F) → (⟨S_, .f32⟩ : BufTy).Contents (Elt F) → (⟨S4096x1, .f32⟩ : BufTy).Contents (Elt F)),
    unary main_v48 main_v49 (broadcastInDim S4096x1x1 ![0, 2] bcast_S4096x1_S4096x1x1_0_2 : (⟨S4096x1, .f32⟩ : BufTy).Contents (Elt F) → (⟨S4096x1x1, .f32⟩ : BufTy).Contents (Elt F)),
    unary main_v49 main_v50 (broadcastInDim S4096x325x1 ![0, 1, 2] bcast_S4096x1x1_S4096x325x1_0_1_2 : (⟨S4096x1x1, .f32⟩ : BufTy).Contents (Elt F) → (⟨S4096x325x1, .f32⟩ : BufTy).Contents (Elt F)),
    binary main_v47 main_v50 main_v51 (Host.divf : (⟨S4096x325x1, .f32⟩ : BufTy).Contents (Elt F) → (⟨S4096x325x1, .f32⟩ : BufTy).Contents (Elt F) → (⟨S4096x325x1, .f32⟩ : BufTy).Contents (Elt F)),
    unary main_v51 main_v52 (broadcastInDim S4096x325x16 ![0, 1, 2] bcast_S4096x325x1_S4096x325x16_0_1_2 : (⟨S4096x325x1, .f32⟩ : BufTy).Contents (Elt F) → (⟨S4096x325x16, .f32⟩ : BufTy).Contents (Elt F)),
    binary main_v52 main_v34 main_v53 (mulf : (⟨S4096x325x16, .f32⟩ : BufTy).Contents (Elt F) → (⟨S4096x325x16, .f32⟩ : BufTy).Contents (Elt F) → (⟨S4096x325x16, .f32⟩ : BufTy).Contents (Elt F)),
    nullary main_cst_11 (constant S_ .f32 0x00000000#32),
    binary main_v53 main_cst_11 main_v54 ((fun x v => Host.reduceAdd x v reducesTo_S4096x325x16_S4096x16_d1 h_S_) : (⟨S4096x325x16, .f32⟩ : BufTy).Contents (Elt F) → (⟨S_, .f32⟩ : BufTy).Contents (Elt F) → (⟨S4096x16, .f32⟩ : BufTy).Contents (Elt F)),
    binary main_v54 main_arg6 main_v55 ((fun l r => Host.dotGeneral dot_S4096x16_S16x1_S4096x1_1_0_0_1_n_n none l r) : (⟨S4096x16, .f32⟩ : BufTy).Contents (Elt F) → (⟨S16x1, .f32⟩ : BufTy).Contents (Elt F) → (⟨S4096x1, .f32⟩ : BufTy).Contents (Elt F)),
    binary main_v55 main_v23 main_v56 (addf : (⟨S4096x1, .f32⟩ : BufTy).Contents (Elt F) → (⟨S4096x1, .f32⟩ : BufTy).Contents (Elt F) → (⟨S4096x1, .f32⟩ : BufTy).Contents (Elt F)),
    unary main_v56 main_v57 (Host.negf : (⟨S4096x1, .f32⟩ : BufTy).Contents (Elt F) → (⟨S4096x1, .f32⟩ : BufTy).Contents (Elt F)),
    unary main_v57 main_v58 (Host.exp : (⟨S4096x1, .f32⟩ : BufTy).Contents (Elt F) → (⟨S4096x1, .f32⟩ : BufTy).Contents (Elt F)),
    nullary main_cst_12 (constant S_ .f32 0x3F800000#32),
    unary main_cst_12 main_v59 (broadcastInDim S4096x1 ![] bcast_S_S4096x1 : (⟨S_, .f32⟩ : BufTy).Contents (Elt F) → (⟨S4096x1, .f32⟩ : BufTy).Contents (Elt F)),
    binary main_v59 main_v58 main_v60 (addf : (⟨S4096x1, .f32⟩ : BufTy).Contents (Elt F) → (⟨S4096x1, .f32⟩ : BufTy).Contents (Elt F) → (⟨S4096x1, .f32⟩ : BufTy).Contents (Elt F)),
    nullary main_cst_13 (constant S_ .f32 0x3F800000#32),
    unary main_cst_13 main_v61 (broadcastInDim S4096x1 ![] bcast_S_S4096x1 : (⟨S_, .f32⟩ : BufTy).Contents (Elt F) → (⟨S4096x1, .f32⟩ : BufTy).Contents (Elt F)),
    binary main_v61 main_v60 main_v62 (Host.divf : (⟨S4096x1, .f32⟩ : BufTy).Contents (Elt F) → (⟨S4096x1, .f32⟩ : BufTy).Contents (Elt F) → (⟨S4096x1, .f32⟩ : BufTy).Contents (Elt F)) ]

set_option maxRecDepth 8192 in
set_option maxHeartbeats 4000000 in
/-- The program is the list run in order: both sides are the same chain of requests once the binds are computed. -/
theorem main_eq (c : Dev nD) : main (F := F) c = seq ops := rfl

/-- No buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., unary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., unary_bufs_sub .., binary_bufs_sub ..,
    binary_bufs_sub .., reshape_bufs_sub .., binary_bufs_sub .., binary_bufs_sub .., binary_bufs_sub .., unary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., ternary_bufs_sub ..,
    unary_bufs_sub .., binary_bufs_sub .., binary_bufs_sub .., binary_bufs_sub .., unary_bufs_sub .., unary_bufs_sub ..,
    binary_bufs_sub .., nullary_bufs_sub .., unary_bufs_sub .., binary_bufs_sub .., binary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub .., unary_bufs_sub .., binary_bufs_sub .., nullary_bufs_sub .., binary_bufs_sub .., binary_bufs_sub ..,
    binary_bufs_sub .., unary_bufs_sub .., unary_bufs_sub .., nullary_bufs_sub .., unary_bufs_sub .., binary_bufs_sub ..,
    nullary_bufs_sub .., unary_bufs_sub .., binary_bufs_sub ..⟩

end Cert.ReferenceIdeal.AfmRun

end
-- ==== Proof.RefTerm.lean ====
/-
  The reference program's result as a composition of named stages.

  Each stage is the composition of the reference's operations on that stretch of the program, written with
  the same functions and the same stated shape facts: the embedding lookup, the linear term, the 325 entrywise
  products of pairs of fields, the attention scores, their softmax over the pairs, and the pooled, projected
  and squashed output.  The stages are generic in the float instance.
-/
import proofs.«122830_j89627377532987_2_alg».proof.ReferenceIdeal

noncomputable section

namespace Cert.ReferenceIdeal.RefTerm

open Cert.ReferenceIdeal Idealize.ShloMosaic Idealize.SL.Sem
open Cert.ReferenceIdeal.Facts₀ Cert.ReferenceIdeal.Facts

variable {F : FTy → Type} [FloatOps F] [Facts]

/-- The field number of each of the 26 columns, as the lookup's first index coordinate: the column's own number (an index below zero would be wrapped by adding 26). -/
def fieldIdx  :
    (⟨S1x26, .i32⟩ : BufTy).Contents (Elt F) :=
  ((select : (⟨S1x26, .i1⟩ : BufTy).Contents (Elt F) → (⟨S1x26, .i32⟩ : BufTy).Contents (Elt F) → (⟨S1x26, .i32⟩ : BufTy).Contents (Elt F) → (⟨S1x26, .i32⟩ : BufTy).Contents (Elt F)) ((cmpi .slt : (⟨S1x26, .i32⟩ : BufTy).Contents (Elt F) → (⟨S1x26, .i32⟩ : BufTy).Contents (Elt F) → (⟨S1x26, .i1⟩ : BufTy).Contents (Elt F)) ((broadcastInDim S1x26 ![1] bcast_S26_S1x26_1 : (⟨S26, .i32⟩ : BufTy).Contents (Elt F) → (⟨S1x26, .i32⟩ : BufTy).Contents (Elt F)) ((iotaInDim S26 32 0) : (⟨S26, .i32⟩ : BufTy).Contents (Elt F))) ((broadcastInDim S1x26 ![] bcast_S_S1x26 : (⟨S_, .i32⟩ : BufTy).Contents (Elt F) → (⟨S1x26, .i32⟩ : BufTy).Contents (Elt F)) ((constantI S_ 32 0#32) : (⟨S_, .i32⟩ : BufTy).Contents (Elt F)))) ((addi : (⟨S1x26, .i32⟩ : BufTy).Contents (Elt F) → (⟨S1x26, .i32⟩ : BufTy).Contents (Elt F) → (⟨S1x26, .i32⟩ : BufTy).Contents (Elt F)) ((broadcastInDim S1x26 ![1] bcast_S26_S1x26_1 : (⟨S26, .i32⟩ : BufTy).Contents (Elt F) → (⟨S1x26, .i32⟩ : BufTy).Contents (Elt F)) ((iotaInDim S26 32 0) : (⟨S26, .i32⟩ : BufTy).Contents (Elt F))) ((broadcastInDim S1x26 ![] bcast_S_S1x26 : (⟨S_, .i32⟩ : BufTy).Contents (Elt F) → (⟨S1x26, .i32⟩ : BufTy).Contents (Elt F)) ((constantI S_ 32 26#32) : (⟨S_, .i32⟩ : BufTy).Contents (Elt F)))) ((broadcastInDim S1x26 ![1] bcast_S26_S1x26_1 : (⟨S26, .i32⟩ : BufTy).Contents (Elt F) → (⟨S1x26, .i32⟩ : BufTy).Contents (Elt F)) ((iotaInDim S26 32 0) : (⟨S26, .i32⟩ : BufTy).Contents (Elt F))))

/-- The row index of each lookup, an index below zero wrapped by adding the table's 100000 rows. -/
def rowIdx (a1 : (⟨S4096x26, .i32⟩ : BufTy).Contents (Elt F)) :
    (⟨S4096x26, .i32⟩ : BufTy).Contents (Elt F) :=
  ((select : (⟨S4096x26, .i1⟩ : BufTy).Contents (Elt F) → (⟨S4096x26, .i32⟩ : BufTy).Contents (Elt F) → (⟨S4096x26, .i32⟩ : BufTy).Contents (Elt F) → (⟨S4096x26, .i32⟩ : BufTy).Contents (Elt F)) ((cmpi .slt : (⟨S4096x26, .i32⟩ : BufTy).Contents (Elt F) → (⟨S4096x26, .i32⟩ : BufTy).Contents (Elt F) → (⟨S4096x26, .i1⟩ : BufTy).Contents (Elt F)) a1 ((broadcastInDim S4096x26 ![] bcast_S_S4096x26 : (⟨S_, .i32⟩ : BufTy).Contents (Elt F) → (⟨S4096x26, .i32⟩ : BufTy).Contents (Elt F)) ((constantI S_ 32 0#32) : (⟨S_, .i32⟩ : BufTy).Contents (Elt F)))) ((addi : (⟨S4096x26, .i32⟩ : BufTy).Contents (Elt F) → (⟨S4096x26, .i32⟩ : BufTy).Contents (Elt F) → (⟨S4096x26, .i32⟩ : BufTy).Contents (Elt F)) a1 ((broadcastInDim S4096x26 ![] bcast_S_S4096x26 : (⟨S_, .i32⟩ : BufTy).Contents (Elt F) → (⟨S4096x26, .i32⟩ : BufTy).Contents (Elt F)) ((constantI S_ 32 100000#32) : (⟨S_, .i32⟩ : BufTy).Contents (Elt F)))) a1)

/-- The two index coordinates (field, row) of each lookup, side by side. -/
def gatherIdx (a1 : (⟨S4096x26, .i32⟩ : BufTy).Contents (Elt F)) :
    (⟨S4096x26x2, .i32⟩ : BufTy).Contents (Elt F) :=
  (((fun a b => concatenate S4096x26x2 2 [⟨S4096x26x1, a⟩, ⟨S4096x26x1, b⟩] concatenates_S4096x26x1_S4096x26x1_S4096x26x2_d2) : (⟨S4096x26x1, .i32⟩ : BufTy).Contents (Elt F) → (⟨S4096x26x1, .i32⟩ : BufTy).Contents (Elt F) → (⟨S4096x26x2, .i32⟩ : BufTy).Contents (Elt F)) ((broadcastInDim S4096x26x1 ![0, 1] bcast_S4096x26_S4096x26x1_0_1 : (⟨S4096x26, .i32⟩ : BufTy).Contents (Elt F) → (⟨S4096x26x1, .i32⟩ : BufTy).Contents (Elt F)) ((broadcastInDim S4096x26 ![0, 1] bcast_S1x26_S4096x26_0_1 : (⟨S1x26, .i32⟩ : BufTy).Contents (Elt F) → (⟨S4096x26, .i32⟩ : BufTy).Contents (Elt F)) (fieldIdx (F := F)))) ((broadcastInDim S4096x26x1 ![0, 1] bcast_S4096x26_S4096x26x1_0_1 : (⟨S4096x26, .i32⟩ : BufTy).Contents (Elt F) → (⟨S4096x26x1, .i32⟩ : BufTy).Contents (Elt F)) (rowIdx (F := F) a1)))

/-- The embedded fields: for each sample and field, the 16 numbers of the table row the index names. -/
def embOf (a1 : (⟨S4096x26, .i32⟩ : BufTy).Contents (Elt F)) (a2 : (⟨S26x100000x16, .f32⟩ : BufTy).Contents (Elt F)) :
    (⟨S4096x26x16, .f32⟩ : BufTy).Contents (Elt F) :=
  (((fun x i => Host.gather gather_S26x100000x16_S4096x26x2_S4096x26x16_2_01_n_n_01_2_1116 x i) : (⟨S26x100000x16, .f32⟩ : BufTy).Contents (Elt F) → (⟨S4096x26x2, .i32⟩ : BufTy).Contents (Elt F) → (⟨S4096x26x16, .f32⟩ : BufTy).Contents (Elt F)) a2 (gatherIdx (F := F) a1))

/-- The linear term: the dense features against their weights, all 26·16 embedded numbers against theirs, and the bias. -/
def linOf (a0 : (⟨S4096x13, .f32⟩ : BufTy).Contents (Elt F)) (e : (⟨S4096x26x16, .f32⟩ : BufTy).Contents (Elt F)) (a7 : (⟨S13x1, .f32⟩ : BufTy).Contents (Elt F)) (a8 : (⟨S416x1, .f32⟩ : BufTy).Contents (Elt F)) (a9 : (⟨S1, .f32⟩ : BufTy).Contents (Elt F)) :
    (⟨S4096x1, .f32⟩ : BufTy).Contents (Elt F) :=
  ((addf : (⟨S4096x1, .f32⟩ : BufTy).Contents (Elt F) → (⟨S4096x1, .f32⟩ : BufTy).Contents (Elt F) → (⟨S4096x1, .f32⟩ : BufTy).Contents (Elt F)) ((addf : (⟨S4096x1, .f32⟩ : BufTy).Contents (Elt F) → (⟨S4096x1, .f32⟩ : BufTy).Contents (Elt F) → (⟨S4096x1, .f32⟩ : BufTy).Contents (Elt F)) (((fun l r => Host.dotGeneral dot_S4096x13_S13x1_S4096x1_1_0_0_1_n_n none l r) : (⟨S4096x13, .f32⟩ : BufTy).Contents (Elt F) → (⟨S13x1, .f32⟩ : BufTy).Contents (Elt F) → (⟨S4096x1, .f32⟩ : BufTy).Contents (Elt F)) a0 a7) (((fun l r => Host.dotGeneral dot_S4096x416_S416x1_S4096x1_1_0_0_1_n_n none l r) : (⟨S4096x416, .f32⟩ : BufTy).Contents (Elt F) → (⟨S416x1, .f32⟩ : BufTy).Contents (Elt F) → (⟨S4096x1, .f32⟩ : BufTy).Contents (Elt F)) (shapeCast S4096x416 e shapeCasts_S4096x26x16_S4096x416 : (⟨S4096x416, .f32⟩ : BufTy).Contents (Elt F)) a8)) ((broadcastInDim S4096x1 ![0, 1] bcast_S1x1_S4096x1_0_1 : (⟨S1x1, .f32⟩ : BufTy).Contents (Elt F) → (⟨S4096x1, .f32⟩ : BufTy).Contents (Elt F)) ((broadcastInDim S1x1 ![1] bcast_S1_S1x1_1 : (⟨S1, .f32⟩ : BufTy).Contents (Elt F) → (⟨S1x1, .f32⟩ : BufTy).Contents (Elt F)) a9)))

/-- The smaller field of each of the 325 pairs, as a lookup index. -/
def pairIdxI  :
    (⟨S325x1, .i32⟩ : BufTy).Contents (Elt F) :=
  ((broadcastInDim S325x1 ![0] bcast_S325_S325x1_0 : (⟨S325, .i32⟩ : BufTy).Contents (Elt F) → (⟨S325x1, .i32⟩ : BufTy).Contents (Elt F)) ((select : (⟨S325, .i1⟩ : BufTy).Contents (Elt F) → (⟨S325, .i32⟩ : BufTy).Contents (Elt F) → (⟨S325, .i32⟩ : BufTy).Contents (Elt F) → (⟨S325, .i32⟩ : BufTy).Contents (Elt F)) ((constantI S325 1 0#1) : (⟨S325, .i1⟩ : BufTy).Contents (Elt F)) ((addi : (⟨S325, .i32⟩ : BufTy).Contents (Elt F) → (⟨S325, .i32⟩ : BufTy).Contents (Elt F) → (⟨S325, .i32⟩ : BufTy).Contents (Elt F)) ((fun i => lit0 (S325.rowMajor i)) : (⟨S325, .i32⟩ : BufTy).Contents (Elt F)) ((broadcastInDim S325 ![] bcast_S_S325 : (⟨S_, .i32⟩ : BufTy).Contents (Elt F) → (⟨S325, .i32⟩ : BufTy).Contents (Elt F)) ((constantI S_ 32 26#32) : (⟨S_, .i32⟩ : BufTy).Contents (Elt F)))) ((fun i => lit0 (S325.rowMajor i)) : (⟨S325, .i32⟩ : BufTy).Contents (Elt F))))

/-- The larger field of each of the 325 pairs, as a lookup index. -/
def pairIdxJ  :
    (⟨S325x1, .i32⟩ : BufTy).Contents (Elt F) :=
  ((broadcastInDim S325x1 ![0] bcast_S325_S325x1_0 : (⟨S325, .i32⟩ : BufTy).Contents (Elt F) → (⟨S325x1, .i32⟩ : BufTy).Contents (Elt F)) ((select : (⟨S325, .i1⟩ : BufTy).Contents (Elt F) → (⟨S325, .i32⟩ : BufTy).Contents (Elt F) → (⟨S325, .i32⟩ : BufTy).Contents (Elt F) → (⟨S325, .i32⟩ : BufTy).Contents (Elt F)) ((constantI S325 1 0#1) : (⟨S325, .i1⟩ : BufTy).Contents (Elt F)) ((addi : (⟨S325, .i32⟩ : BufTy).Contents (Elt F) → (⟨S325, .i32⟩ : BufTy).Contents (Elt F) → (⟨S325, .i32⟩ : BufTy).Contents (Elt F)) ((fun i => lit1 (S325.rowMajor i)) : (⟨S325, .i32⟩ : BufTy).Contents (Elt F)) ((broadcastInDim S325 ![] bcast_S_S325 : (⟨S_, .i32⟩ : BufTy).Contents (Elt F) → (⟨S325, .i32⟩ : BufTy).Contents (Elt F)) ((constantI S_ 32 26#32) : (⟨S_, .i32⟩ : BufTy).Contents (Elt F)))) ((fun i => lit1 (S325.rowMajor i)) : (⟨S325, .i32⟩ : BufTy).Contents (Elt F))))

/-- The entrywise products of the two fields of each pair. -/
def ewpOf (e : (⟨S4096x26x16, .f32⟩ : BufTy).Contents (Elt F)) :
    (⟨S4096x325x16, .f32⟩ : BufTy).Contents (Elt F) :=
  ((mulf : (⟨S4096x325x16, .f32⟩ : BufTy).Contents (Elt F) → (⟨S4096x325x16, .f32⟩ : BufTy).Contents (Elt F) → (⟨S4096x325x16, .f32⟩ : BufTy).Contents (Elt F)) (((fun x i => Host.gather gather_S4096x26x16_S325x1_S4096x325x16_02_1_n_n_1_1_4096116 x i) : (⟨S4096x26x16, .f32⟩ : BufTy).Contents (Elt F) → (⟨S325x1, .i32⟩ : BufTy).Contents (Elt F) → (⟨S4096x325x16, .f32⟩ : BufTy).Contents (Elt F)) e (pairIdxI (F := F))) (((fun x i => Host.gather gather_S4096x26x16_S325x1_S4096x325x16_02_1_n_n_1_1_4096116 x i) : (⟨S4096x26x16, .f32⟩ : BufTy).Contents (Elt F) → (⟨S325x1, .i32⟩ : BufTy).Contents (Elt F) → (⟨S4096x325x16, .f32⟩ : BufTy).Contents (Elt F)) e (pairIdxJ (F := F))))

/-- The attention layer's hidden units on each pair: the products against the weight matrix, plus the bias, clipped below at zero. -/
def hidOf (w : (⟨S4096x325x16, .f32⟩ : BufTy).Contents (Elt F)) (a3 : (⟨S16x16, .f32⟩ : BufTy).Contents (Elt F)) (a4 : (⟨S16, .f32⟩ : BufTy).Contents (Elt F)) :
    (⟨S4096x325x16, .f32⟩ : BufTy).Contents (Elt F) :=
  ((maximumf : (⟨S4096x325x16, .f32⟩ : BufTy).Contents (Elt F) → (⟨S4096x325x16, .f32⟩ : BufTy).Contents (Elt F) → (⟨S4096x325x16, .f32⟩ : BufTy).Contents (Elt F)) ((addf : (⟨S4096x325x16, .f32⟩ : BufTy).Contents (Elt F) → (⟨S4096x325x16, .f32⟩ : BufTy).Contents (Elt F) → (⟨S4096x325x16, .f32⟩ : BufTy).Contents (Elt F)) (((fun l r => Host.dotGeneral dot_S4096x325x16_S16x16_S4096x325x16_2_0_01_1_n_n none l r) : (⟨S4096x325x16, .f32⟩ : BufTy).Contents (Elt F) → (⟨S16x16, .f32⟩ : BufTy).Contents (Elt F) → (⟨S4096x325x16, .f32⟩ : BufTy).Contents (Elt F)) w a3) ((broadcastInDim S4096x325x16 ![0, 1, 2] bcast_S1x1x16_S4096x325x16_0_1_2 : (⟨S1x1x16, .f32⟩ : BufTy).Contents (Elt F) → (⟨S4096x325x16, .f32⟩ : BufTy).Contents (Elt F)) ((broadcastInDim S1x1x16 ![2] bcast_S16_S1x1x16_2 : (⟨S16, .f32⟩ : BufTy).Contents (Elt F) → (⟨S1x1x16, .f32⟩ : BufTy).Contents (Elt F)) a4))) ((broadcastInDim S4096x325x16 ![] bcast_S_S4096x325x16 : (⟨S_, .f32⟩ : BufTy).Contents (Elt F) → (⟨S4096x325x16, .f32⟩ : BufTy).Contents (Elt F)) (constant S_ .f32 0x00000000#32 : (⟨S_, .f32⟩ : BufTy).Contents (Elt F))))

/-- The attention score of each pair before normalisation. -/
def logitOf (w : (⟨S4096x325x16, .f32⟩ : BufTy).Contents (Elt F)) (a3 : (⟨S16x16, .f32⟩ : BufTy).Contents (Elt F)) (a4 : (⟨S16, .f32⟩ : BufTy).Contents (Elt F)) (a5 : (⟨S16x1, .f32⟩ : BufTy).Contents (Elt F)) :
    (⟨S4096x325x1, .f32⟩ : BufTy).Contents (Elt F) :=
  (((fun l r => Host.dotGeneral dot_S4096x325x16_S16x1_S4096x325x1_2_0_01_1_n_n none l r) : (⟨S4096x325x16, .f32⟩ : BufTy).Contents (Elt F) → (⟨S16x1, .f32⟩ : BufTy).Contents (Elt F) → (⟨S4096x325x1, .f32⟩ : BufTy).Contents (Elt F)) (hidOf w a3 a4) a5)

/-- Each sample's largest score, repeated along the pairs. -/
def rowMaxOf (z : (⟨S4096x325x1, .f32⟩ : BufTy).Contents (Elt F)) :
    (⟨S4096x325x1, .f32⟩ : BufTy).Contents (Elt F) :=
  ((broadcastInDim S4096x325x1 ![0, 1, 2] bcast_S4096x1x1_S4096x325x1_0_1_2 : (⟨S4096x1x1, .f32⟩ : BufTy).Contents (Elt F) → (⟨S4096x325x1, .f32⟩ : BufTy).Contents (Elt F)) ((broadcastInDim S4096x1x1 ![0, 2] bcast_S4096x1_S4096x1x1_0_2 : (⟨S4096x1, .f32⟩ : BufTy).Contents (Elt F) → (⟨S4096x1x1, .f32⟩ : BufTy).Contents (Elt F)) ((maximumf : (⟨S4096x1, .f32⟩ : BufTy).Contents (Elt F) → (⟨S4096x1, .f32⟩ : BufTy).Contents (Elt F) → (⟨S4096x1, .f32⟩ : BufTy).Contents (Elt F)) ((broadcastInDim S4096x1 ![] bcast_S_S4096x1 : (⟨S_, .f32⟩ : BufTy).Contents (Elt F) → (⟨S4096x1, .f32⟩ : BufTy).Contents (Elt F)) ((constant S_ .f32 0xFF800000#32) : (⟨S_, .f32⟩ : BufTy).Contents (Elt F))) (((fun x v => Host.reduce FloatOps.maximumf x v reducesTo_S4096x325x1_S4096x1_d1 h_S_) : (⟨S4096x325x1, .f32⟩ : BufTy).Contents (Elt F) → (⟨S_, .f32⟩ : BufTy).Contents (Elt F) → (⟨S4096x1, .f32⟩ : BufTy).Contents (Elt F)) z ((constant S_ .f32 0xFF800000#32) : (⟨S_, .f32⟩ : BufTy).Contents (Elt F))))))

/-- The exponential of each score less its sample's largest. -/
def expOf (z : (⟨S4096x325x1, .f32⟩ : BufTy).Contents (Elt F)) :
    (⟨S4096x325x1, .f32⟩ : BufTy).Contents (Elt F) :=
  ((Host.exp : (⟨S4096x325x1, .f32⟩ : BufTy).Contents (Elt F) → (⟨S4096x325x1, .f32⟩ : BufTy).Contents (Elt F)) ((subf : (⟨S4096x325x1, .f32⟩ : BufTy).Contents (Elt F) → (⟨S4096x325x1, .f32⟩ : BufTy).Contents (Elt F) → (⟨S4096x325x1, .f32⟩ : BufTy).Contents (Elt F)) z (rowMaxOf z)))

/-- The softmax of the scores over the pairs. -/
def softmaxOf (z : (⟨S4096x325x1, .f32⟩ : BufTy).Contents (Elt F)) :
    (⟨S4096x325x1, .f32⟩ : BufTy).Contents (Elt F) :=
  ((Host.divf : (⟨S4096x325x1, .f32⟩ : BufTy).Contents (Elt F) → (⟨S4096x325x1, .f32⟩ : BufTy).Contents (Elt F) → (⟨S4096x325x1, .f32⟩ : BufTy).Contents (Elt F)) (expOf z) ((broadcastInDim S4096x325x1 ![0, 1, 2] bcast_S4096x1x1_S4096x325x1_0_1_2 : (⟨S4096x1x1, .f32⟩ : BufTy).Contents (Elt F) → (⟨S4096x325x1, .f32⟩ : BufTy).Contents (Elt F)) ((broadcastInDim S4096x1x1 ![0, 2] bcast_S4096x1_S4096x1x1_0_2 : (⟨S4096x1, .f32⟩ : BufTy).Contents (Elt F) → (⟨S4096x1x1, .f32⟩ : BufTy).Contents (Elt F)) (((fun x v => Host.reduceAdd x v reducesTo_S4096x325x1_S4096x1_d1 h_S_) : (⟨S4096x325x1, .f32⟩ : BufTy).Contents (Elt F) → (⟨S_, .f32⟩ : BufTy).Contents (Elt F) → (⟨S4096x1, .f32⟩ : BufTy).Contents (Elt F)) (expOf z) ((constant S_ .f32 0x00000000#32) : (⟨S_, .f32⟩ : BufTy).Contents (Elt F))))))

/-- The pairs' products pooled with the weights `p` and projected. -/
def poolOf (p : (⟨S4096x325x1, .f32⟩ : BufTy).Contents (Elt F)) (w : (⟨S4096x325x16, .f32⟩ : BufTy).Contents (Elt F)) (a6 : (⟨S16x1, .f32⟩ : BufTy).Contents (Elt F)) :
    (⟨S4096x1, .f32⟩ : BufTy).Contents (Elt F) :=
  (((fun l r => Host.dotGeneral dot_S4096x16_S16x1_S4096x1_1_0_0_1_n_n none l r) : (⟨S4096x16, .f32⟩ : BufTy).Contents (Elt F) → (⟨S16x1, .f32⟩ : BufTy).Contents (Elt F) → (⟨S4096x1, .f32⟩ : BufTy).Contents (Elt F)) (((fun x v => Host.reduceAdd x v reducesTo_S4096x325x16_S4096x16_d1 h_S_) : (⟨S4096x325x16, .f32⟩ : BufTy).Contents (Elt F) → (⟨S_, .f32⟩ : BufTy).Contents (Elt F) → (⟨S4096x16, .f32⟩ : BufTy).Contents (Elt F)) ((mulf : (⟨S4096x325x16, .f32⟩ : BufTy).Contents (Elt F) → (⟨S4096x325x16, .f32⟩ : BufTy).Contents (Elt F) → (⟨S4096x325x16, .f32⟩ : BufTy).Contents (Elt F)) ((broadcastInDim S4096x325x16 ![0, 1, 2] bcast_S4096x325x1_S4096x325x16_0_1_2 : (⟨S4096x325x1, .f32⟩ : BufTy).Contents (Elt F) → (⟨S4096x325x16, .f32⟩ : BufTy).Contents (Elt F)) p) w) ((constant S_ .f32 0x00000000#32) : (⟨S_, .f32⟩ : BufTy).Contents (Elt F))) a6)

/-- The logistic function as the program computes it: one over one plus the exponential of the negation. -/
def logisticOf (y : (⟨S4096x1, .f32⟩ : BufTy).Contents (Elt F)) :
    (⟨S4096x1, .f32⟩ : BufTy).Contents (Elt F) :=
  ((Host.divf : (⟨S4096x1, .f32⟩ : BufTy).Contents (Elt F) → (⟨S4096x1, .f32⟩ : BufTy).Contents (Elt F) → (⟨S4096x1, .f32⟩ : BufTy).Contents (Elt F)) ((broadcastInDim S4096x1 ![] bcast_S_S4096x1 : (⟨S_, .f32⟩ : BufTy).Contents (Elt F) → (⟨S4096x1, .f32⟩ : BufTy).Contents (Elt F)) ((constant S_ .f32 0x3F800000#32) : (⟨S_, .f32⟩ : BufTy).Contents (Elt F))) ((addf : (⟨S4096x1, .f32⟩ : BufTy).Contents (Elt F) → (⟨S4096x1, .f32⟩ : BufTy).Contents (Elt F) → (⟨S4096x1, .f32⟩ : BufTy).Contents (Elt F)) ((broadcastInDim S4096x1 ![] bcast_S_S4096x1 : (⟨S_, .f32⟩ : BufTy).Contents (Elt F) → (⟨S4096x1, .f32⟩ : BufTy).Contents (Elt F)) ((constant S_ .f32 0x3F800000#32) : (⟨S_, .f32⟩ : BufTy).Contents (Elt F))) ((Host.exp : (⟨S4096x1, .f32⟩ : BufTy).Contents (Elt F) → (⟨S4096x1, .f32⟩ : BufTy).Contents (Elt F)) ((Host.negf : (⟨S4096x1, .f32⟩ : BufTy).Contents (Elt F) → (⟨S4096x1, .f32⟩ : BufTy).Contents (Elt F)) y))))

/-- The reference's result as a function of its ten arguments. -/
def refOut (a0 : (⟨S4096x13, .f32⟩ : BufTy).Contents (Elt F)) (a1 : (⟨S4096x26, .i32⟩ : BufTy).Contents (Elt F)) (a2 : (⟨S26x100000x16, .f32⟩ : BufTy).Contents (Elt F)) (a3 : (⟨S16x16, .f32⟩ : BufTy).Contents (Elt F)) (a4 : (⟨S16, .f32⟩ : BufTy).Contents (Elt F)) (a5 : (⟨S16x1, .f32⟩ : BufTy).Contents (Elt F)) (a6 : (⟨S16x1, .f32⟩ : BufTy).Contents (Elt F)) (a7 : (⟨S13x1, .f32⟩ : BufTy).Contents (Elt F)) (a8 : (⟨S416x1, .f32⟩ : BufTy).Contents (Elt F)) (a9 : (⟨S1, .f32⟩ : BufTy).Contents (Elt F)) :
    (⟨S4096x1, .f32⟩ : BufTy).Contents (Elt F) :=
  logisticOf (((addf : (⟨S4096x1, .f32⟩ : BufTy).Contents (Elt F) → (⟨S4096x1, .f32⟩ : BufTy).Contents (Elt F) → (⟨S4096x1, .f32⟩ : BufTy).Contents (Elt F)) (poolOf (softmaxOf (logitOf (ewpOf (embOf a1 a2)) a3 a4 a5)) (ewpOf (embOf a1 a2)) a6) (linOf a0 (embOf a1 a2) a7 a8 a9)))

end Cert.ReferenceIdeal.RefTerm

end
-- ==== Proof.RefRunVal.lean ====
/-
  What the reference's result buffer holds after its operations have run, from any contents of the buffers:
  the composition of the named stages at the contents of the ten argument buffers.

  Each operation leaves its function's value at its own result buffer and every other buffer as it was, so the
  contents of the last result are read off by following the operands back to the arguments; the term read off
  is the stages' composition, function for function.
-/
import proofs.«122830_j89627377532987_2_alg».proof.Proof.RefOps
import proofs.«122830_j89627377532987_2_alg».proof.Proof.RefTerm
import Idealize.ShloMosaic.Lib.StableHlo.Run

noncomputable section

namespace Cert.ReferenceIdeal.AfmRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

set_option maxRecDepth 8192 in
set_option maxHeartbeats 4000000 in
/-- After the operations the result buffer holds the stages' composition at the arguments' contents. -/
theorem out_eq (V : Valuation τ sig (Elt F)) :
    after ops V (main_v62 : DevRef τ sig) = RefTerm.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  after_results_simp
  rfl

end Cert.ReferenceIdeal.AfmRun

end
-- ==== Proof.RefRunFrame.lean ====
/-
  The reference's operations leave its ten argument buffers as they were: every operation writes its own
  result buffer only, and no result buffer is an argument.
-/
import proofs.«122830_j89627377532987_2_alg».proof.Proof.RefOps
import Idealize.ShloMosaic.Lib.StableHlo.Run

noncomputable section

namespace Cert.ReferenceIdeal.AfmRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

set_option maxRecDepth 8192 in
set_option maxHeartbeats 4000000 in
/-- Argument 0 is written by no operation. -/
theorem arg0_eq (V : Valuation τ sig (Elt F)) :
    after ops V (main_arg0 : DevRef τ sig) = V (main_arg0 : DevRef τ sig) := by
  after_results_simp

set_option maxRecDepth 8192 in
set_option maxHeartbeats 4000000 in
/-- Argument 1 is written by no operation. -/
theorem arg1_eq (V : Valuation τ sig (Elt F)) :
    after ops V (main_arg1 : DevRef τ sig) = V (main_arg1 : DevRef τ sig) := by
  after_results_simp

set_option maxRecDepth 8192 in
set_option maxHeartbeats 4000000 in
/-- Argument 2 is written by no operation. -/
theorem arg2_eq (V : Valuation τ sig (Elt F)) :
    after ops V (main_arg2 : DevRef τ sig) = V (main_arg2 : DevRef τ sig) := by
  after_results_simp

set_option maxRecDepth 8192 in
set_option maxHeartbeats 4000000 in
/-- Argument 3 is written by no operation. -/
theorem arg3_eq (V : Valuation τ sig (Elt F)) :
    after ops V (main_arg3 : DevRef τ sig) = V (main_arg3 : DevRef τ sig) := by
  after_results_simp

set_option maxRecDepth 8192 in
set_option maxHeartbeats 4000000 in
/-- Argument 4 is written by no operation. -/
theorem arg4_eq (V : Valuation τ sig (Elt F)) :
    after ops V (main_arg4 : DevRef τ sig) = V (main_arg4 : DevRef τ sig) := by
  after_results_simp

set_option maxRecDepth 8192 in
set_option maxHeartbeats 4000000 in
/-- Argument 5 is written by no operation. -/
theorem arg5_eq (V : Valuation τ sig (Elt F)) :
    after ops V (main_arg5 : DevRef τ sig) = V (main_arg5 : DevRef τ sig) := by
  after_results_simp

set_option maxRecDepth 8192 in
set_option maxHeartbeats 4000000 in
/-- Argument 6 is written by no operation. -/
theorem arg6_eq (V : Valuation τ sig (Elt F)) :
    after ops V (main_arg6 : DevRef τ sig) = V (main_arg6 : DevRef τ sig) := by
  after_results_simp

set_option maxRecDepth 8192 in
set_option maxHeartbeats 4000000 in
/-- Argument 7 is written by no operation. -/
theorem arg7_eq (V : Valuation τ sig (Elt F)) :
    after ops V (main_arg7 : DevRef τ sig) = V (main_arg7 : DevRef τ sig) := by
  after_results_simp

set_option maxRecDepth 8192 in
set_option maxHeartbeats 4000000 in
/-- Argument 8 is written by no operation. -/
theorem arg8_eq (V : Valuation τ sig (Elt F)) :
    after ops V (main_arg8 : DevRef τ sig) = V (main_arg8 : DevRef τ sig) := by
  after_results_simp

set_option maxRecDepth 8192 in
set_option maxHeartbeats 4000000 in
/-- Argument 9 is written by no operation. -/
theorem arg9_eq (V : Valuation τ sig (Elt F)) :
    after ops V (main_arg9 : DevRef τ sig) = V (main_arg9 : DevRef τ sig) := by
  after_results_simp

end Cert.ReferenceIdeal.AfmRun

end
-- ==== Proof.RefRun.lean ====
/-
  The reference's run: from any memory with zero counters every weakly fair execution of the program
  terminates, the result buffer then holds the stages' composition at the launch contents of the ten arguments,
  and the arguments are unchanged.
-/
import proofs.«122830_j89627377532987_2_alg».proof.Proof.RefRunVal
import proofs.«122830_j89627377532987_2_alg».proof.Proof.RefRunFrame
import Idealize.ShloMosaic.Lib.StableHlo.Run

noncomputable section

namespace Cert.ReferenceIdeal.AfmRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

set_option maxRecDepth 8192 in
set_option maxHeartbeats 4000000 in
/-- On every device, for any float values: the program terminates with its result at the stages' composition
    of the arguments' launch contents and with the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v62) = RefTerm.refOut
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v62).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c))⟩)
    (run_seq scopedRefs_eq scopedSems_eq defs main (fun _ => ops) main_eq (fun _ => ops_sub) m ρ)

end Cert.ReferenceIdeal.AfmRun

end
-- ==== Proof.RefReadGather.lean ====
/-
  A gather of whole rows along the field axis, read at an index, and the two tables of pairs.

  The reference forms the 325 pairs of fields by two gathers along axis 1 of the [4096, 26, 16] array of
  embedded fields, each by a constant table of 325 field numbers.  Such a gather reads, at (b, p, d), the
  operand at (b, t, d), where t is entry p of the table read as a signed integer and clamped into [0, 25].
  The tables list the strict upper triangle of a 26 x 26 table row by row: their entries, read that way,
  are the smaller and the larger field of pair p.
-/
import proofs.«122830_j89627377532987_2_alg».proof.ReferenceIdeal
import proofs.«122830_j89627377532987_2_alg».proof.Proof.AfmSpec
import Idealize.ShloMosaic.Lib.ValueIdx

noncomputable section

open scoped BigOperators

namespace Cert.ReferenceIdeal.AfmRead

open Cert.ReferenceIdeal Idealize.ShloMosaic Idealize.ShloMosaic.ValueIdx

/-- Entry p of the first table, read signed and clamped into [0, 25], is the smaller field of pair p. -/
theorem lit0_pair : ∀ p : Fin 325, min (lit0 p).toInt.toNat 25 = (Cert.Afm.pairI p).val := by decide

/-- Entry p of the second table, read signed and clamped into [0, 25], is the larger field of pair p. -/
theorem lit1_pair : ∀ p : Fin 325, min (lit1 p).toInt.toNat 25 = (Cert.Afm.pairJ p).val := by decide

variable [Facts₀]

/-- The operand axes a gather along axis 1 keeps whole: axis 1 is the only one the start index names. -/
theorem pairGather_not_mem_map {a : Fin S4096x26x16.rank} (ha : a.val ≠ 1) :
    a ∉ gather_S4096x26x16_S325x1_S4096x325x16_02_1_n_n_1_1_4096116.startIndexMap := fun h =>
  ha (congrArg Fin.val (List.mem_singleton.mp h))

theorem pairGather_mem_kept {a : Fin S4096x26x16.rank} (ha : a.val ≠ 1) :
    a ∈ gather_S4096x26x16_S325x1_S4096x325x16_02_1_n_n_1_1_4096116.sKept :=
  (GatherDims.mem_sKept _ _).mpr ⟨fun h => ha (congrArg Fin.val (List.mem_singleton.mp h)), List.not_mem_nil⟩

/-- A gather of whole rows along axis 1 of a [4096, 26, 16] array by a [325, 1] table of start indices, read at
    (b, p, d): the operand at (b, t, d), where t is entry p of the table read as a signed integer and clamped
    into [0, 25]. -/
theorem gather_axis1_apply {α : Type} {w : Nat} (x : S4096x26x16.Idx → α) (idx : IVec S325x1 w)
    (b : Fin 4096) (p : Fin 325) (d : Fin 16) :
    Host.gather gather_S4096x26x16_S325x1_S4096x325x16_02_1_n_n_1_1_4096116 x idx (ix3 b p d)
      = x (ix3 b (⟨min (idx (ix2 p 0)).toInt.toNat 25, by omega⟩ : Fin 26) d) := by
  unfold Host.gather
  refine congrArg x (funext fun a => Fin.ext ?_)
  show GatherDims.start _ (ix3 b p d) idx a + GatherDims.batchCoord _ (ix3 b p d) a + GatherDims.offCoord _ (ix3 b p d) a = _
  rw [GatherDims.batchCoord_eq_zero _ _ _ List.not_mem_nil, Nat.add_zero]
  match a with
  | ⟨0, _⟩ =>
    have hs : gather_S4096x26x16_S325x1_S4096x325x16_02_1_n_n_1_1_4096116.start (ix3 b p d) idx ⟨0, by decide⟩ = 0 := by
      unfold GatherDims.start; exact dif_neg (pairGather_not_mem_map (by decide))
    rw [hs, Nat.zero_add]
    unfold GatherDims.offCoord
    rw [dif_pos (pairGather_mem_kept (show (0 : ℕ) ≠ 1 from by decide))]
    rfl
  | ⟨2, _⟩ =>
    have hs : gather_S4096x26x16_S325x1_S4096x325x16_02_1_n_n_1_1_4096116.start (ix3 b p d) idx ⟨2, by decide⟩ = 0 := by
      unfold GatherDims.start; exact dif_neg (pairGather_not_mem_map (by decide))
    rw [hs, Nat.zero_add]
    unfold GatherDims.offCoord
    rw [dif_pos (pairGather_mem_kept (show (2 : ℕ) ≠ 1 from by decide))]
    rfl
  | ⟨1, _⟩ =>
    rw [GatherDims.offCoord_eq_zero _ _ _
      (fun h => ((GatherDims.mem_sKept _ _).mp h).1 (List.mem_singleton.mpr rfl)), Nat.add_zero]
    unfold GatherDims.start
    rw [dif_pos (show (⟨1, by decide⟩ : Fin S4096x26x16.rank)
      ∈ gather_S4096x26x16_S325x1_S4096x325x16_02_1_n_n_1_1_4096116.startIndexMap from List.mem_singleton.mpr rfl)]
    have hsi : gather_S4096x26x16_S325x1_S4096x325x16_02_1_n_n_1_1_4096116.siIdx (ix3 b p d)
        ⟨List.idxOf (⟨1, by decide⟩ : Fin S4096x26x16.rank)
          gather_S4096x26x16_S325x1_S4096x325x16_02_1_n_n_1_1_4096116.startIndexMap,
          List.idxOf_lt_length_iff.2 (List.mem_singleton.mpr rfl)⟩ = ix2 p 0 := by
      funext c; refine Fin.ext ?_
      match c with
      | ⟨0, _⟩ => rfl
      | ⟨1, _⟩ => rfl
    rw [hsi]
    rfl

end Cert.ReferenceIdeal.AfmRead

end
-- ==== Proof.RefReadLayout.lean ====
/-
  The reference's reshape and broadcasts, each read at an index, and the flattened sum re-indexed.

  The [4096, 26, 16] array of embedded fields is flattened row-major to [4096, 416]: position 16 f + d of a
  row is coordinate d of field f, so a sum over the 416 positions is the double sum over fields and
  coordinates.  A broadcast reads its operand at the coordinates the broadcast keeps and at 0 on the
  operand's unit axes.
-/
import proofs.«122830_j89627377532987_2_alg».proof.ReferenceIdeal
import Idealize.ShloMosaic.Lib.ValueIdx
import Idealize.ShloMosaic.Lib.IdealHost
import Idealize.ShloMosaic.Lib.Pipeline.Value

noncomputable section

open scoped BigOperators

namespace Cert.ReferenceIdeal.AfmRead

open Cert.ReferenceIdeal Idealize.ShloMosaic Idealize.ShloMosaic.ValueIdx

variable {α : Type}

/-- The [4096, 26, 16] array flattened to [4096, 416]: position 16 f + d of row b is entry (b, f, d). -/
theorem flatten_apply (e : S4096x26x16.Idx → α) (h : S4096x26x16.ShapeCasts S4096x416)
    (b : Fin 4096) (f : Fin 26) (d : Fin 16) :
    shapeCast S4096x416 e h (ix2 b (⟨16 * f.val + d.val, by omega⟩ : Fin 416)) = e (ix3 b f d) := by
  refine shapeCast_apply e h _ _ ?_
  rw [Shape.rowMajor_val_three, Shape.rowMajor_val_two]
  show (b.val * 26 + f.val) * 16 + d.val = b.val * 416 + (16 * f.val + d.val)
  omega

/-- A sum over the 416 flattened positions is the double sum over the 26 fields and their 16 coordinates. -/
theorem sum_flat {M : Type*} [AddCommMonoid M] (g : Fin 416 → M) :
    ∑ k : Fin 416, g k = ∑ f : Fin 26, ∑ d : Fin 16, g (⟨16 * f.val + d.val, by omega⟩ : Fin 416) := by
  rw [← Equiv.sum_comp (finProdFinEquiv (m := 26) (n := 16)) g, Fintype.sum_prod_type]
  refine Finset.sum_congr rfl fun f _ => Finset.sum_congr rfl fun d _ => congrArg g (Fin.ext ?_)
  show d.val + 16 * f.val = 16 * f.val + d.val
  omega

/-- The bias, a one-element array, broadcast to a column: every row reads the one element. -/
theorem bias_apply (x : S1.Idx → α) (h1 : S1.BroadcastsInDim S1x1 (![1] : Fin 1 → Fin S1x1.rank))
    (h2 : S1x1.BroadcastsInDim S4096x1 (![0, 1] : Fin 2 → Fin S4096x1.rank)) (b : Fin 4096) :
    broadcastInDim S4096x1 ![0, 1] h2 (broadcastInDim S1x1 ![1] h1 x) (ix2 b 0) = x (ix1 0) := by
  rw [broadcastInDim_apply ![0, 1] h2 _ (ix2 b 0) (ix2 (0 : Fin 1) (0 : Fin 1))
    (fun a => by match a with | ⟨0, _⟩ => rfl | ⟨1, _⟩ => rfl)]
  exact broadcastInDim_apply ![1] h1 x (ix2 (0 : Fin 1) (0 : Fin 1)) (ix1 (0 : Fin 1)) (fun a => by match a with | ⟨0, _⟩ => rfl)

/-- A vector of 16 numbers broadcast along samples and pairs reads its coordinate. -/
theorem hiddenBias_apply (x : S16.Idx → α) (h1 : S16.BroadcastsInDim S1x1x16 (![2] : Fin 1 → Fin S1x1x16.rank))
    (h2 : S1x1x16.BroadcastsInDim S4096x325x16 (![0, 1, 2] : Fin 3 → Fin S4096x325x16.rank))
    (b : Fin 4096) (p : Fin 325) (a : Fin 16) :
    broadcastInDim S4096x325x16 ![0, 1, 2] h2 (broadcastInDim S1x1x16 ![2] h1 x) (ix3 b p a) = x (ix1 a) := by
  rw [broadcastInDim_apply ![0, 1, 2] h2 _ (ix3 b p a) (ix3 (0 : Fin 1) (0 : Fin 1) a)
    (fun c => by match c with | ⟨0, _⟩ => rfl | ⟨1, _⟩ => rfl | ⟨2, _⟩ => rfl)]
  exact broadcastInDim_apply ![2] h1 x (ix3 (0 : Fin 1) (0 : Fin 1) a) (ix1 a) (fun c => by match c with | ⟨0, _⟩ => rfl)

/-- A per-sample number broadcast along the pairs reads the sample's number. -/
theorem perSample_apply (x : S4096x1.Idx → α) (h1 : S4096x1.BroadcastsInDim S4096x1x1 (![0, 2] : Fin 2 → Fin S4096x1x1.rank))
    (h2 : S4096x1x1.BroadcastsInDim S4096x325x1 (![0, 1, 2] : Fin 3 → Fin S4096x325x1.rank))
    (b : Fin 4096) (p : Fin 325) :
    broadcastInDim S4096x325x1 ![0, 1, 2] h2 (broadcastInDim S4096x1x1 ![0, 2] h1 x) (ix3 b p 0) = x (ix2 b 0) := by
  rw [broadcastInDim_apply ![0, 1, 2] h2 _ (ix3 b p 0) (ix3 b (0 : Fin 1) (0 : Fin 1))
    (fun c => by match c with | ⟨0, _⟩ => rfl | ⟨1, _⟩ => rfl | ⟨2, _⟩ => rfl)]
  exact broadcastInDim_apply ![0, 2] h1 x (ix3 b (0 : Fin 1) (0 : Fin 1)) (ix2 b (0 : Fin 1)) (fun c => by match c with | ⟨0, _⟩ => rfl | ⟨1, _⟩ => rfl)

/-- A per-pair number broadcast along the 16 coordinates reads the pair's number. -/
theorem perPair_apply (x : S4096x325x1.Idx → α)
    (h : S4096x325x1.BroadcastsInDim S4096x325x16 (![0, 1, 2] : Fin 3 → Fin S4096x325x16.rank))
    (b : Fin 4096) (p : Fin 325) (d : Fin 16) :
    broadcastInDim S4096x325x16 ![0, 1, 2] h x (ix3 b p d) = x (ix3 b p 0) :=
  broadcastInDim_apply ![0, 1, 2] h x (ix3 b p d) (ix3 b p (0 : Fin 1))
    (fun c => by match c with | ⟨0, _⟩ => rfl | ⟨1, _⟩ => rfl | ⟨2, _⟩ => rfl)

/-- A table of 325 entries as a [325, 1] array reads its entry. -/
theorem column_apply (x : S325.Idx → α) (h : S325.BroadcastsInDim S325x1 (![0] : Fin 1 → Fin S325x1.rank)) (p : Fin 325) :
    broadcastInDim S325x1 ![0] h x (ix2 p 0) = x (ix1 p) :=
  broadcastInDim_apply ![0] h x (ix2 p (0 : Fin 1)) (ix1 p) (fun c => by match c with | ⟨0, _⟩ => rfl)

end Cert.ReferenceIdeal.AfmRead

end
-- ==== Proof.RefReadEwp.lean ====
/-
  The 325 products of pairs of fields, read at an index.

  The two index tables the reference gathers by are the literal tables themselves: the wrap of negative
  entries selects nothing.  Read signed and clamped, their entries are the two fields of each pair, so the
  product of the two gathers at (b, p, d) is the specification's product for pair p at coordinate d.
-/
import proofs.«122830_j89627377532987_2_alg».proof.Proof.RefTerm
import proofs.«122830_j89627377532987_2_alg».proof.Proof.AfmSpec
import proofs.«122830_j89627377532987_2_alg».proof.Proof.RefReadGather
import proofs.«122830_j89627377532987_2_alg».proof.Proof.RefReadLayout

noncomputable section

open scoped BigOperators

namespace Cert.ReferenceIdeal.AfmRead

open Cert.ReferenceIdeal Idealize.ShloMosaic Idealize.ShloMosaic.ValueIdx

variable [Facts]
open Cert.ReferenceIdeal.Facts₀ Cert.ReferenceIdeal.Facts

/-- A table of field numbers, after the reference's wrap of negative entries (none is selected: the mask is
    all false) and as a [325, 1] array, still reads its own entry. -/
theorem wrapped_column_apply (t c : IVec S325 32) (h : S325.BroadcastsInDim S325x1 (![0] : Fin 1 → Fin S325x1.rank))
    (p : Fin 325) :
    broadcastInDim S325x1 ![0] h (select (constantI S325 1 0#1) (addi t c) t) (ix2 p 0) = t (ix1 p) := by
  rw [column_apply, select_apply]
  exact select_zero _ _

/-- Entry p of the first index table is the first literal table's entry p. -/
theorem pairIdxI_apply (p : Fin 325) : RefTerm.pairIdxI (F := Ideal) (ix2 p 0) = lit0 p := by
  unfold RefTerm.pairIdxI
  refine (wrapped_column_apply _ _ _ p).trans ?_
  exact congrArg lit0 (Fin.ext (Shape.rowMajor_val_one _))

/-- Entry p of the second index table is the second literal table's entry p. -/
theorem pairIdxJ_apply (p : Fin 325) : RefTerm.pairIdxJ (F := Ideal) (ix2 p 0) = lit1 p := by
  unfold RefTerm.pairIdxJ
  refine (wrapped_column_apply _ _ _ p).trans ?_
  exact congrArg lit1 (Fin.ext (Shape.rowMajor_val_one _))

/-- The products of pairs of fields: entry (b, p, d) is coordinate d of the smaller field of pair p times
    coordinate d of the larger, for sample b. -/
theorem ewpOf_apply (e : FVec Ideal S4096x26x16 .f32) (b : Fin 4096) (p : Fin 325) (d : Fin 16) :
    RefTerm.ewpOf (F := Ideal) e (ix3 b p d) = Cert.Afm.ewp (fun f c => e (ix3 b f c)) p d := by
  unfold RefTerm.ewpOf
  beta_reduce
  rw [mulf_apply, gather_axis1_apply, gather_axis1_apply]
  have hI : (⟨min ((RefTerm.pairIdxI (F := Ideal)) (ix2 p 0)).toInt.toNat 25, by omega⟩ : Fin 26) = Cert.Afm.pairI p :=
    Fin.ext (by show min _ 25 = _; rw [pairIdxI_apply]; exact lit0_pair p)
  have hJ : (⟨min ((RefTerm.pairIdxJ (F := Ideal)) (ix2 p 0)).toInt.toNat 25, by omega⟩ : Fin 26) = Cert.Afm.pairJ p :=
    Fin.ext (by show min _ 25 = _; rw [pairIdxJ_apply]; exact lit1_pair p)
  rw [hI, hJ]
  rfl

end Cert.ReferenceIdeal.AfmRead

end
-- ==== Proof.RefReadDot.lean ====
/-
  The reference's five matrix products, each read at an index as a sum over its one contracted axis.

  At the ideal instance a dot_general with one contracted axis is, at each output index, the sum over that
  axis of the left operand's entry times the right operand's entry.  For each of the five products the
  two operand indices are written out by coordinates: the free axes carry the output's coordinates, the
  contracted axis carries the summation variable.
-/
import proofs.«122830_j89627377532987_2_alg».proof.ReferenceIdeal
import Idealize.ShloMosaic.Lib.ValueIdx
import Idealize.ShloMosaic.PureOps.Ideal.Laws

noncomputable section

open scoped BigOperators

namespace Cert.ReferenceIdeal.AfmRead

open Cert.ReferenceIdeal Idealize.ShloMosaic Idealize.ShloMosaic.ValueIdx

variable [Facts₀]

theorem dot_dense_apply_lhs0 (i : S4096x1.Idx) (q : dot_S4096x13_S13x1_S4096x1_1_0_0_1_n_n.contr.Idx) :
    (dot_S4096x13_S13x1_S4096x1_1_0_0_1_n_n.lhsIdx i q (0 : Fin S4096x13.rank)).val = (i 0).val := by
  unfold DotDims.lhsIdx
  rw [dif_neg (show ¬(0 : Fin S4096x13.rank) ∈ dot_S4096x13_S13x1_S4096x1_1_0_0_1_n_n.lhsBatch from List.not_mem_nil),
    dif_pos (show (0 : Fin S4096x13.rank) ∈ dot_S4096x13_S13x1_S4096x1_1_0_0_1_n_n.lhsNonContracting from List.mem_singleton.mpr rfl)]
  rfl

theorem dot_dense_apply_lhs1 (i : S4096x1.Idx) (q : dot_S4096x13_S13x1_S4096x1_1_0_0_1_n_n.contr.Idx) :
    (dot_S4096x13_S13x1_S4096x1_1_0_0_1_n_n.lhsIdx i q (1 : Fin S4096x13.rank)).val = (q ⟨0, Nat.one_pos⟩).val :=
  dot_S4096x13_S13x1_S4096x1_1_0_0_1_n_n.lhsIdx_val_of_single rfl i q

theorem dot_dense_apply_rhs0 (i : S4096x1.Idx) (q : dot_S4096x13_S13x1_S4096x1_1_0_0_1_n_n.contr.Idx) :
    (dot_S4096x13_S13x1_S4096x1_1_0_0_1_n_n.rhsIdx i q (0 : Fin S13x1.rank)).val = (q ⟨0, Nat.one_pos⟩).val :=
  dot_S4096x13_S13x1_S4096x1_1_0_0_1_n_n.rhsIdx_val_of_single rfl i q

theorem dot_dense_apply_rhs1 (i : S4096x1.Idx) (q : dot_S4096x13_S13x1_S4096x1_1_0_0_1_n_n.contr.Idx) :
    (dot_S4096x13_S13x1_S4096x1_1_0_0_1_n_n.rhsIdx i q (1 : Fin S13x1.rank)).val = (i 1).val := by
  unfold DotDims.rhsIdx
  rw [dif_neg (show ¬(1 : Fin S13x1.rank) ∈ dot_S4096x13_S13x1_S4096x1_1_0_0_1_n_n.rhsBatch from List.not_mem_nil),
    dif_pos (show (1 : Fin S13x1.rank) ∈ dot_S4096x13_S13x1_S4096x1_1_0_0_1_n_n.rhsNonContracting from List.mem_singleton.mpr rfl)]
  rfl

/-- The dense features against their weights: row b of a [4096, 13] array times a [13, 1] column is the sum over the 13 features. -/
theorem dot_dense_apply (l : FVec Ideal S4096x13 .f32) (r : FVec Ideal S13x1 .f32) (b : Fin 4096) :
    Host.dotGeneral dot_S4096x13_S13x1_S4096x1_1_0_0_1_n_n none l r (ix2 b 0)
      = ∑ k : Fin 13, l (ix2 b k) * r (ix2 k 0) := by
  simp only [Host.dotGeneral]
  rw [Ideal.dotGeneral_apply, ← Equiv.sum_comp (contrEquiv1 dot_S4096x13_S13x1_S4096x1_1_0_0_1_n_n 13 rfl rfl).symm]
  refine Finset.sum_congr rfl fun k _ => ?_
  have hk := contrEquiv1_symm_val dot_S4096x13_S13x1_S4096x1_1_0_0_1_n_n 13 rfl rfl k
  have el : dot_S4096x13_S13x1_S4096x1_1_0_0_1_n_n.lhsIdx (ix2 b 0) ((contrEquiv1 dot_S4096x13_S13x1_S4096x1_1_0_0_1_n_n 13 rfl rfl).symm k) = (ix2 b k) := funext fun a => Fin.ext (by
    match a with
    | ⟨0, _⟩ => exact dot_dense_apply_lhs0 _ _
    | ⟨1, _⟩ => exact (dot_dense_apply_lhs1 _ _).trans hk)
  have er : dot_S4096x13_S13x1_S4096x1_1_0_0_1_n_n.rhsIdx (ix2 b 0) ((contrEquiv1 dot_S4096x13_S13x1_S4096x1_1_0_0_1_n_n 13 rfl rfl).symm k) = (ix2 k 0) := funext fun a => Fin.ext (by
    match a with
    | ⟨0, _⟩ => exact (dot_dense_apply_rhs0 _ _).trans hk
    | ⟨1, _⟩ => exact dot_dense_apply_rhs1 _ _)
  rw [el, er]

theorem dot_flat_apply_lhs0 (i : S4096x1.Idx) (q : dot_S4096x416_S416x1_S4096x1_1_0_0_1_n_n.contr.Idx) :
    (dot_S4096x416_S416x1_S4096x1_1_0_0_1_n_n.lhsIdx i q (0 : Fin S4096x416.rank)).val = (i 0).val := by
  unfold DotDims.lhsIdx
  rw [dif_neg (show ¬(0 : Fin S4096x416.rank) ∈ dot_S4096x416_S416x1_S4096x1_1_0_0_1_n_n.lhsBatch from List.not_mem_nil),
    dif_pos (show (0 : Fin S4096x416.rank) ∈ dot_S4096x416_S416x1_S4096x1_1_0_0_1_n_n.lhsNonContracting from List.mem_singleton.mpr rfl)]
  rfl

theorem dot_flat_apply_lhs1 (i : S4096x1.Idx) (q : dot_S4096x416_S416x1_S4096x1_1_0_0_1_n_n.contr.Idx) :
    (dot_S4096x416_S416x1_S4096x1_1_0_0_1_n_n.lhsIdx i q (1 : Fin S4096x416.rank)).val = (q ⟨0, Nat.one_pos⟩).val :=
  dot_S4096x416_S416x1_S4096x1_1_0_0_1_n_n.lhsIdx_val_of_single rfl i q

theorem dot_flat_apply_rhs0 (i : S4096x1.Idx) (q : dot_S4096x416_S416x1_S4096x1_1_0_0_1_n_n.contr.Idx) :
    (dot_S4096x416_S416x1_S4096x1_1_0_0_1_n_n.rhsIdx i q (0 : Fin S416x1.rank)).val = (q ⟨0, Nat.one_pos⟩).val :=
  dot_S4096x416_S416x1_S4096x1_1_0_0_1_n_n.rhsIdx_val_of_single rfl i q

theorem dot_flat_apply_rhs1 (i : S4096x1.Idx) (q : dot_S4096x416_S416x1_S4096x1_1_0_0_1_n_n.contr.Idx) :
    (dot_S4096x416_S416x1_S4096x1_1_0_0_1_n_n.rhsIdx i q (1 : Fin S416x1.rank)).val = (i 1).val := by
  unfold DotDims.rhsIdx
  rw [dif_neg (show ¬(1 : Fin S416x1.rank) ∈ dot_S4096x416_S416x1_S4096x1_1_0_0_1_n_n.rhsBatch from List.not_mem_nil),
    dif_pos (show (1 : Fin S416x1.rank) ∈ dot_S4096x416_S416x1_S4096x1_1_0_0_1_n_n.rhsNonContracting from List.mem_singleton.mpr rfl)]
  rfl

/-- The flattened embedded numbers against their weights: the sum over all 416 positions of row b. -/
theorem dot_flat_apply (l : FVec Ideal S4096x416 .f32) (r : FVec Ideal S416x1 .f32) (b : Fin 4096) :
    Host.dotGeneral dot_S4096x416_S416x1_S4096x1_1_0_0_1_n_n none l r (ix2 b 0)
      = ∑ k : Fin 416, l (ix2 b k) * r (ix2 k 0) := by
  simp only [Host.dotGeneral]
  rw [Ideal.dotGeneral_apply, ← Equiv.sum_comp (contrEquiv1 dot_S4096x416_S416x1_S4096x1_1_0_0_1_n_n 416 rfl rfl).symm]
  refine Finset.sum_congr rfl fun k _ => ?_
  have hk := contrEquiv1_symm_val dot_S4096x416_S416x1_S4096x1_1_0_0_1_n_n 416 rfl rfl k
  have el : dot_S4096x416_S416x1_S4096x1_1_0_0_1_n_n.lhsIdx (ix2 b 0) ((contrEquiv1 dot_S4096x416_S416x1_S4096x1_1_0_0_1_n_n 416 rfl rfl).symm k) = (ix2 b k) := funext fun a => Fin.ext (by
    match a with
    | ⟨0, _⟩ => exact dot_flat_apply_lhs0 _ _
    | ⟨1, _⟩ => exact (dot_flat_apply_lhs1 _ _).trans hk)
  have er : dot_S4096x416_S416x1_S4096x1_1_0_0_1_n_n.rhsIdx (ix2 b 0) ((contrEquiv1 dot_S4096x416_S416x1_S4096x1_1_0_0_1_n_n 416 rfl rfl).symm k) = (ix2 k 0) := funext fun a => Fin.ext (by
    match a with
    | ⟨0, _⟩ => exact (dot_flat_apply_rhs0 _ _).trans hk
    | ⟨1, _⟩ => exact dot_flat_apply_rhs1 _ _)
  rw [el, er]

theorem dot_hidden_apply_lhs0 (i : S4096x325x16.Idx) (q : dot_S4096x325x16_S16x16_S4096x325x16_2_0_01_1_n_n.contr.Idx) :
    (dot_S4096x325x16_S16x16_S4096x325x16_2_0_01_1_n_n.lhsIdx i q (0 : Fin S4096x325x16.rank)).val = (i 0).val := by
  unfold DotDims.lhsIdx
  rw [dif_neg (show ¬(0 : Fin S4096x325x16.rank) ∈ dot_S4096x325x16_S16x16_S4096x325x16_2_0_01_1_n_n.lhsBatch from List.not_mem_nil),
    dif_pos (show (0 : Fin S4096x325x16.rank) ∈ dot_S4096x325x16_S16x16_S4096x325x16_2_0_01_1_n_n.lhsNonContracting from List.mem_cons.mpr (Or.inl rfl))]
  rfl

theorem dot_hidden_apply_lhs1 (i : S4096x325x16.Idx) (q : dot_S4096x325x16_S16x16_S4096x325x16_2_0_01_1_n_n.contr.Idx) :
    (dot_S4096x325x16_S16x16_S4096x325x16_2_0_01_1_n_n.lhsIdx i q (1 : Fin S4096x325x16.rank)).val = (i 1).val := by
  unfold DotDims.lhsIdx
  rw [dif_neg (show ¬(1 : Fin S4096x325x16.rank) ∈ dot_S4096x325x16_S16x16_S4096x325x16_2_0_01_1_n_n.lhsBatch from List.not_mem_nil),
    dif_pos (show (1 : Fin S4096x325x16.rank) ∈ dot_S4096x325x16_S16x16_S4096x325x16_2_0_01_1_n_n.lhsNonContracting from List.mem_cons.mpr (Or.inr (List.mem_singleton.mpr rfl)))]
  rfl

theorem dot_hidden_apply_lhs2 (i : S4096x325x16.Idx) (q : dot_S4096x325x16_S16x16_S4096x325x16_2_0_01_1_n_n.contr.Idx) :
    (dot_S4096x325x16_S16x16_S4096x325x16_2_0_01_1_n_n.lhsIdx i q (2 : Fin S4096x325x16.rank)).val = (q ⟨0, Nat.one_pos⟩).val :=
  dot_S4096x325x16_S16x16_S4096x325x16_2_0_01_1_n_n.lhsIdx_val_of_single rfl i q

theorem dot_hidden_apply_rhs0 (i : S4096x325x16.Idx) (q : dot_S4096x325x16_S16x16_S4096x325x16_2_0_01_1_n_n.contr.Idx) :
    (dot_S4096x325x16_S16x16_S4096x325x16_2_0_01_1_n_n.rhsIdx i q (0 : Fin S16x16.rank)).val = (q ⟨0, Nat.one_pos⟩).val :=
  dot_S4096x325x16_S16x16_S4096x325x16_2_0_01_1_n_n.rhsIdx_val_of_single rfl i q

theorem dot_hidden_apply_rhs1 (i : S4096x325x16.Idx) (q : dot_S4096x325x16_S16x16_S4096x325x16_2_0_01_1_n_n.contr.Idx) :
    (dot_S4096x325x16_S16x16_S4096x325x16_2_0_01_1_n_n.rhsIdx i q (1 : Fin S16x16.rank)).val = (i 2).val := by
  unfold DotDims.rhsIdx
  rw [dif_neg (show ¬(1 : Fin S16x16.rank) ∈ dot_S4096x325x16_S16x16_S4096x325x16_2_0_01_1_n_n.rhsBatch from List.not_mem_nil),
    dif_pos (show (1 : Fin S16x16.rank) ∈ dot_S4096x325x16_S16x16_S4096x325x16_2_0_01_1_n_n.rhsNonContracting from List.mem_singleton.mpr rfl)]
  rfl

/-- The attention layer's matrix product: entry (b, p, a) is the sum over the 16 coordinates d of the left operand at (b, p, d) times the weight at (d, a). -/
theorem dot_hidden_apply (l : FVec Ideal S4096x325x16 .f32) (r : FVec Ideal S16x16 .f32) (b : Fin 4096) (p : Fin 325) (a : Fin 16) :
    Host.dotGeneral dot_S4096x325x16_S16x16_S4096x325x16_2_0_01_1_n_n none l r (ix3 b p a)
      = ∑ k : Fin 16, l (ix3 b p k) * r (ix2 k a) := by
  simp only [Host.dotGeneral]
  rw [Ideal.dotGeneral_apply, ← Equiv.sum_comp (contrEquiv1 dot_S4096x325x16_S16x16_S4096x325x16_2_0_01_1_n_n 16 rfl rfl).symm]
  refine Finset.sum_congr rfl fun k _ => ?_
  have hk := contrEquiv1_symm_val dot_S4096x325x16_S16x16_S4096x325x16_2_0_01_1_n_n 16 rfl rfl k
  have el : dot_S4096x325x16_S16x16_S4096x325x16_2_0_01_1_n_n.lhsIdx (ix3 b p a) ((contrEquiv1 dot_S4096x325x16_S16x16_S4096x325x16_2_0_01_1_n_n 16 rfl rfl).symm k) = (ix3 b p k) := funext fun a => Fin.ext (by
    match a with
    | ⟨0, _⟩ => exact dot_hidden_apply_lhs0 _ _
    | ⟨1, _⟩ => exact dot_hidden_apply_lhs1 _ _
    | ⟨2, _⟩ => exact (dot_hidden_apply_lhs2 _ _).trans hk)
  have er : dot_S4096x325x16_S16x16_S4096x325x16_2_0_01_1_n_n.rhsIdx (ix3 b p a) ((contrEquiv1 dot_S4096x325x16_S16x16_S4096x325x16_2_0_01_1_n_n 16 rfl rfl).symm k) = (ix2 k a) := funext fun a => Fin.ext (by
    match a with
    | ⟨0, _⟩ => exact (dot_hidden_apply_rhs0 _ _).trans hk
    | ⟨1, _⟩ => exact dot_hidden_apply_rhs1 _ _)
  rw [el, er]

theorem dot_score_apply_lhs0 (i : S4096x325x1.Idx) (q : dot_S4096x325x16_S16x1_S4096x325x1_2_0_01_1_n_n.contr.Idx) :
    (dot_S4096x325x16_S16x1_S4096x325x1_2_0_01_1_n_n.lhsIdx i q (0 : Fin S4096x325x16.rank)).val = (i 0).val := by
  unfold DotDims.lhsIdx
  rw [dif_neg (show ¬(0 : Fin S4096x325x16.rank) ∈ dot_S4096x325x16_S16x1_S4096x325x1_2_0_01_1_n_n.lhsBatch from List.not_mem_nil),
    dif_pos (show (0 : Fin S4096x325x16.rank) ∈ dot_S4096x325x16_S16x1_S4096x325x1_2_0_01_1_n_n.lhsNonContracting from List.mem_cons.mpr (Or.inl rfl))]
  rfl

theorem dot_score_apply_lhs1 (i : S4096x325x1.Idx) (q : dot_S4096x325x16_S16x1_S4096x325x1_2_0_01_1_n_n.contr.Idx) :
    (dot_S4096x325x16_S16x1_S4096x325x1_2_0_01_1_n_n.lhsIdx i q (1 : Fin S4096x325x16.rank)).val = (i 1).val := by
  unfold DotDims.lhsIdx
  rw [dif_neg (show ¬(1 : Fin S4096x325x16.rank) ∈ dot_S4096x325x16_S16x1_S4096x325x1_2_0_01_1_n_n.lhsBatch from List.not_mem_nil),
    dif_pos (show (1 : Fin S4096x325x16.rank) ∈ dot_S4096x325x16_S16x1_S4096x325x1_2_0_01_1_n_n.lhsNonContracting from List.mem_cons.mpr (Or.inr (List.mem_singleton.mpr rfl)))]
  rfl

theorem dot_score_apply_lhs2 (i : S4096x325x1.Idx) (q : dot_S4096x325x16_S16x1_S4096x325x1_2_0_01_1_n_n.contr.Idx) :
    (dot_S4096x325x16_S16x1_S4096x325x1_2_0_01_1_n_n.lhsIdx i q (2 : Fin S4096x325x16.rank)).val = (q ⟨0, Nat.one_pos⟩).val :=
  dot_S4096x325x16_S16x1_S4096x325x1_2_0_01_1_n_n.lhsIdx_val_of_single rfl i q

theorem dot_score_apply_rhs0 (i : S4096x325x1.Idx) (q : dot_S4096x325x16_S16x1_S4096x325x1_2_0_01_1_n_n.contr.Idx) :
    (dot_S4096x325x16_S16x1_S4096x325x1_2_0_01_1_n_n.rhsIdx i q (0 : Fin S16x1.rank)).val = (q ⟨0, Nat.one_pos⟩).val :=
  dot_S4096x325x16_S16x1_S4096x325x1_2_0_01_1_n_n.rhsIdx_val_of_single rfl i q

theorem dot_score_apply_rhs1 (i : S4096x325x1.Idx) (q : dot_S4096x325x16_S16x1_S4096x325x1_2_0_01_1_n_n.contr.Idx) :
    (dot_S4096x325x16_S16x1_S4096x325x1_2_0_01_1_n_n.rhsIdx i q (1 : Fin S16x1.rank)).val = (i 2).val := by
  unfold DotDims.rhsIdx
  rw [dif_neg (show ¬(1 : Fin S16x1.rank) ∈ dot_S4096x325x16_S16x1_S4096x325x1_2_0_01_1_n_n.rhsBatch from List.not_mem_nil),
    dif_pos (show (1 : Fin S16x1.rank) ∈ dot_S4096x325x16_S16x1_S4096x325x1_2_0_01_1_n_n.rhsNonContracting from List.mem_singleton.mpr rfl)]
  rfl

/-- The score of pair p: the sum over the 16 hidden units of the unit times its weight. -/
theorem dot_score_apply (l : FVec Ideal S4096x325x16 .f32) (r : FVec Ideal S16x1 .f32) (b : Fin 4096) (p : Fin 325) :
    Host.dotGeneral dot_S4096x325x16_S16x1_S4096x325x1_2_0_01_1_n_n none l r (ix3 b p 0)
      = ∑ k : Fin 16, l (ix3 b p k) * r (ix2 k 0) := by
  simp only [Host.dotGeneral]
  rw [Ideal.dotGeneral_apply, ← Equiv.sum_comp (contrEquiv1 dot_S4096x325x16_S16x1_S4096x325x1_2_0_01_1_n_n 16 rfl rfl).symm]
  refine Finset.sum_congr rfl fun k _ => ?_
  have hk := contrEquiv1_symm_val dot_S4096x325x16_S16x1_S4096x325x1_2_0_01_1_n_n 16 rfl rfl k
  have el : dot_S4096x325x16_S16x1_S4096x325x1_2_0_01_1_n_n.lhsIdx (ix3 b p 0) ((contrEquiv1 dot_S4096x325x16_S16x1_S4096x325x1_2_0_01_1_n_n 16 rfl rfl).symm k) = (ix3 b p k) := funext fun a => Fin.ext (by
    match a with
    | ⟨0, _⟩ => exact dot_score_apply_lhs0 _ _
    | ⟨1, _⟩ => exact dot_score_apply_lhs1 _ _
    | ⟨2, _⟩ => exact (dot_score_apply_lhs2 _ _).trans hk)
  have er : dot_S4096x325x16_S16x1_S4096x325x1_2_0_01_1_n_n.rhsIdx (ix3 b p 0) ((contrEquiv1 dot_S4096x325x16_S16x1_S4096x325x1_2_0_01_1_n_n 16 rfl rfl).symm k) = (ix2 k 0) := funext fun a => Fin.ext (by
    match a with
    | ⟨0, _⟩ => exact (dot_score_apply_rhs0 _ _).trans hk
    | ⟨1, _⟩ => exact dot_score_apply_rhs1 _ _)
  rw [el, er]

theorem dot_project_apply_lhs0 (i : S4096x1.Idx) (q : dot_S4096x16_S16x1_S4096x1_1_0_0_1_n_n.contr.Idx) :
    (dot_S4096x16_S16x1_S4096x1_1_0_0_1_n_n.lhsIdx i q (0 : Fin S4096x16.rank)).val = (i 0).val := by
  unfold DotDims.lhsIdx
  rw [dif_neg (show ¬(0 : Fin S4096x16.rank) ∈ dot_S4096x16_S16x1_S4096x1_1_0_0_1_n_n.lhsBatch from List.not_mem_nil),
    dif_pos (show (0 : Fin S4096x16.rank) ∈ dot_S4096x16_S16x1_S4096x1_1_0_0_1_n_n.lhsNonContracting from List.mem_singleton.mpr rfl)]
  rfl

theorem dot_project_apply_lhs1 (i : S4096x1.Idx) (q : dot_S4096x16_S16x1_S4096x1_1_0_0_1_n_n.contr.Idx) :
    (dot_S4096x16_S16x1_S4096x1_1_0_0_1_n_n.lhsIdx i q (1 : Fin S4096x16.rank)).val = (q ⟨0, Nat.one_pos⟩).val :=
  dot_S4096x16_S16x1_S4096x1_1_0_0_1_n_n.lhsIdx_val_of_single rfl i q

theorem dot_project_apply_rhs0 (i : S4096x1.Idx) (q : dot_S4096x16_S16x1_S4096x1_1_0_0_1_n_n.contr.Idx) :
    (dot_S4096x16_S16x1_S4096x1_1_0_0_1_n_n.rhsIdx i q (0 : Fin S16x1.rank)).val = (q ⟨0, Nat.one_pos⟩).val :=
  dot_S4096x16_S16x1_S4096x1_1_0_0_1_n_n.rhsIdx_val_of_single rfl i q

theorem dot_project_apply_rhs1 (i : S4096x1.Idx) (q : dot_S4096x16_S16x1_S4096x1_1_0_0_1_n_n.contr.Idx) :
    (dot_S4096x16_S16x1_S4096x1_1_0_0_1_n_n.rhsIdx i q (1 : Fin S16x1.rank)).val = (i 1).val := by
  unfold DotDims.rhsIdx
  rw [dif_neg (show ¬(1 : Fin S16x1.rank) ∈ dot_S4096x16_S16x1_S4096x1_1_0_0_1_n_n.rhsBatch from List.not_mem_nil),
    dif_pos (show (1 : Fin S16x1.rank) ∈ dot_S4096x16_S16x1_S4096x1_1_0_0_1_n_n.rhsNonContracting from List.mem_singleton.mpr rfl)]
  rfl

/-- The projection of the pooled vector: the sum over its 16 coordinates against the projection weights. -/
theorem dot_project_apply (l : FVec Ideal S4096x16 .f32) (r : FVec Ideal S16x1 .f32) (b : Fin 4096) :
    Host.dotGeneral dot_S4096x16_S16x1_S4096x1_1_0_0_1_n_n none l r (ix2 b 0)
      = ∑ k : Fin 16, l (ix2 b k) * r (ix2 k 0) := by
  simp only [Host.dotGeneral]
  rw [Ideal.dotGeneral_apply, ← Equiv.sum_comp (contrEquiv1 dot_S4096x16_S16x1_S4096x1_1_0_0_1_n_n 16 rfl rfl).symm]
  refine Finset.sum_congr rfl fun k _ => ?_
  have hk := contrEquiv1_symm_val dot_S4096x16_S16x1_S4096x1_1_0_0_1_n_n 16 rfl rfl k
  have el : dot_S4096x16_S16x1_S4096x1_1_0_0_1_n_n.lhsIdx (ix2 b 0) ((contrEquiv1 dot_S4096x16_S16x1_S4096x1_1_0_0_1_n_n 16 rfl rfl).symm k) = (ix2 b k) := funext fun a => Fin.ext (by
    match a with
    | ⟨0, _⟩ => exact dot_project_apply_lhs0 _ _
    | ⟨1, _⟩ => exact (dot_project_apply_lhs1 _ _).trans hk)
  have er : dot_S4096x16_S16x1_S4096x1_1_0_0_1_n_n.rhsIdx (ix2 b 0) ((contrEquiv1 dot_S4096x16_S16x1_S4096x1_1_0_0_1_n_n 16 rfl rfl).symm k) = (ix2 k 0) := funext fun a => Fin.ext (by
    match a with
    | ⟨0, _⟩ => exact (dot_project_apply_rhs0 _ _).trans hk
    | ⟨1, _⟩ => exact dot_project_apply_rhs1 _ _)
  rw [el, er]

end Cert.ReferenceIdeal.AfmRead

end
-- ==== Proof.RefReadLin.lean ====
/-
  The reference's linear term, read at a sample.

  Two matrix products against single columns, added, plus the broadcast bias.  The second product runs over
  the 416 flattened positions of the sample's embedded fields; re-indexed by field and coordinate it is the
  specification's double sum.
-/
import proofs.«122830_j89627377532987_2_alg».proof.Proof.RefTerm
import proofs.«122830_j89627377532987_2_alg».proof.Proof.AfmSpec
import proofs.«122830_j89627377532987_2_alg».proof.Proof.RefReadDot
import proofs.«122830_j89627377532987_2_alg».proof.Proof.RefReadLayout

noncomputable section

open scoped BigOperators

namespace Cert.ReferenceIdeal.AfmRead

open Cert.ReferenceIdeal Idealize.ShloMosaic Idealize.ShloMosaic.ValueIdx

variable [Facts]
open Cert.ReferenceIdeal.Facts₀ Cert.ReferenceIdeal.Facts

/-- The linear term of sample b: the dense features against their weights, every coordinate of every
    embedded field against the weight at its flattened position, and the bias. -/
theorem linOf_apply (a0 : FVec Ideal S4096x13 .f32) (e : FVec Ideal S4096x26x16 .f32) (a7 : FVec Ideal S13x1 .f32)
    (a8 : FVec Ideal S416x1 .f32) (a9 : FVec Ideal S1 .f32) (b : Fin 4096) :
    RefTerm.linOf (F := Ideal) a0 e a7 a8 a9 (ix2 b 0)
      = Cert.Afm.linear (fun n => a0 (ix2 b n)) (fun f d => e (ix3 b f d)) (fun n => a7 (ix2 n 0))
          (fun f d => a8 (ix2 (⟨16 * f.val + d.val, by omega⟩ : Fin 416) 0)) (a9 (ix1 0)) := by
  unfold RefTerm.linOf
  beta_reduce
  rw [addf_apply, addf_apply, dot_dense_apply, dot_flat_apply, bias_apply, sum_flat]
  simp only [flatten_apply]
  rfl

end Cert.ReferenceIdeal.AfmRead

end
-- ==== Proof.RefReadLogit.lean ====
/-
  The attention scores before normalisation, read at a pair.

  A matrix product with the weight matrix, the broadcast bias, the clip at zero, and a product with the
  score vector: at pair p of sample b this is the specification's score of that pair.
-/
import proofs.«122830_j89627377532987_2_alg».proof.Proof.RefTerm
import proofs.«122830_j89627377532987_2_alg».proof.Proof.AfmSpec
import proofs.«122830_j89627377532987_2_alg».proof.Proof.RefReadDot
import proofs.«122830_j89627377532987_2_alg».proof.Proof.RefReadLayout
import proofs.«122830_j89627377532987_2_alg».proof.Proof.RefReadEwp

noncomputable section

open scoped BigOperators

namespace Cert.ReferenceIdeal.AfmRead

open Cert.ReferenceIdeal Idealize.ShloMosaic Idealize.ShloMosaic.ValueIdx

variable [Facts]
open Cert.ReferenceIdeal.Facts₀ Cert.ReferenceIdeal.Facts

/-- Hidden unit a on pair p of sample b: the pair's products against column a of the weight matrix, plus
    the bias, clipped below at zero. -/
theorem hidOf_apply (w : FVec Ideal S4096x325x16 .f32) (a3 : FVec Ideal S16x16 .f32) (a4 : FVec Ideal S16 .f32)
    (b : Fin 4096) (p : Fin 325) (a : Fin 16) :
    RefTerm.hidOf (F := Ideal) w a3 a4 (ix3 b p a)
      = max ((∑ d : Fin 16, w (ix3 b p d) * a3 (ix2 d a)) + a4 (ix1 a)) 0 := by
  unfold RefTerm.hidOf
  beta_reduce
  rw [maximumf_apply, addf_apply, dot_hidden_apply, hiddenBias_apply, broadcastInDim_scalar_apply, constant_apply,
    Ideal.ofBits_zero_f32]

/-- The score of pair p of sample b before normalisation, over the products of pairs of the fields e. -/
theorem logitOf_ewpOf_apply (e : FVec Ideal S4096x26x16 .f32) (a3 : FVec Ideal S16x16 .f32) (a4 : FVec Ideal S16 .f32)
    (a5 : FVec Ideal S16x1 .f32) (b : Fin 4096) (p : Fin 325) :
    RefTerm.logitOf (F := Ideal) (RefTerm.ewpOf (F := Ideal) e) a3 a4 a5 (ix3 b p 0)
      = Cert.Afm.logit (fun f d => e (ix3 b f d)) (fun d a => a3 (ix2 d a)) (fun a => a4 (ix1 a))
          (fun a => a5 (ix2 a 0)) p := by
  unfold RefTerm.logitOf
  beta_reduce
  rw [dot_score_apply]
  simp only [hidOf_apply, ewpOf_apply]
  rfl

end Cert.ReferenceIdeal.AfmRead

end
-- ==== Proof.RefReadReduce.lean ====
/-
  The reference's three reductions over the 325 pairs, each read at an index.

  A reduction over axis 1 of a [4096, 325, n] array reads, at sample b (and coordinate d), every pair p of that
  sample: the maximum is the fold of max from the initial value over the pairs, a sum is the initial value
  plus the sum over the pairs.
-/
import proofs.«122830_j89627377532987_2_alg».proof.ReferenceIdeal
import Idealize.ShloMosaic.Lib.ValueIdx
import Idealize.ShloMosaic.Lib.IdealHost
import Idealize.ShloMosaic.PureOps.Ideal.Laws
import Idealize.ShloMosaic.PureOps.Reduce

noncomputable section

open scoped BigOperators

namespace Cert.ReferenceIdeal.AfmRead

open Cert.ReferenceIdeal Idealize.ShloMosaic Idealize.ShloMosaic.ValueIdx

/-- The coordinates of a [4096, 1] index with a pair number inserted on axis 1 of [4096, 325, 1]. -/
theorem lift_pairs1 (h : S4096x325x1.Reduces [1] S4096x1) (b : Fin 4096) (p : Fin 325) :
    h.lift (ix2 b 0) p = ix3 b p 0 := funext fun a => Fin.ext (by
  match a with | ⟨0, _⟩ => rfl | ⟨1, _⟩ => rfl | ⟨2, _⟩ => rfl)

/-- The same for [4096, 325, 16] over [4096, 16]. -/
theorem lift_pairs16 (h : S4096x325x16.Reduces [1] S4096x16) (b : Fin 4096) (d : Fin 16) (p : Fin 325) :
    h.lift (ix2 b d) p = ix3 b p d := funext fun a => Fin.ext (by
  match a with | ⟨0, _⟩ => rfl | ⟨1, _⟩ => rfl | ⟨2, _⟩ => rfl)

/-- The maximum over the pairs, from the initial value: the fold of max over the 325 pairs of sample b. -/
theorem reduceMax_pairs_apply (x : FVec Ideal S4096x325x1 .f32) (init : FVec Ideal S_ .f32)
    (h' : S4096x325x1.ReducesTo [1] S4096x1) (hu : 0 < S_.numel) (b : Fin 4096) :
    Host.reduce (FloatOps.maximumf (F := Ideal) (φ := .f32)) x init h' hu (ix2 b 0)
      = (Finset.univ : Finset (Fin 325)).fold max (init ix0) (fun p => x (ix3 b p 0)) := by
  have h : S4096x325x1.Reduces [1] S4096x1 := by decide
  rw [Host.reduce_eq_fold_single FloatOps.maximumf x init h' h hu, eq_ix0 (Shape.Idx.first hu)]
  exact congrArg (fun f => (Finset.univ : Finset (Fin 325)).fold max (init ix0) f)
    (funext fun p => congrArg x (lift_pairs1 h b p))

/-- The sum over the pairs of a [4096, 325, 1] array, from the initial value. -/
theorem reduceAdd_pairs1_apply (x : FVec Ideal S4096x325x1 .f32) (init : FVec Ideal S_ .f32)
    (h' : S4096x325x1.ReducesTo [1] S4096x1) (hu : 0 < S_.numel) (b : Fin 4096) :
    Host.reduceAdd x init h' hu (ix2 b 0) = init ix0 + ∑ p : Fin 325, x (ix3 b p 0) := by
  have h : S4096x325x1.Reduces [1] S4096x1 := by decide
  rw [hostReduceAdd_apply, Ideal.hostReduceAdd_single h' h, eq_ix0 (Shape.Idx.first hu)]
  exact congrArg (init ix0 + ·) (Finset.sum_congr rfl fun p _ => congrArg x (lift_pairs1 h b p))

/-- The sum over the pairs of a [4096, 325, 16] array at coordinate d, from the initial value. -/
theorem reduceAdd_pairs16_apply (x : FVec Ideal S4096x325x16 .f32) (init : FVec Ideal S_ .f32)
    (h' : S4096x325x16.ReducesTo [1] S4096x16) (hu : 0 < S_.numel) (b : Fin 4096) (d : Fin 16) :
    Host.reduceAdd x init h' hu (ix2 b d) = init ix0 + ∑ p : Fin 325, x (ix3 b p d) := by
  have h : S4096x325x16.Reduces [1] S4096x16 := by decide
  rw [hostReduceAdd_apply, Ideal.hostReduceAdd_single h' h, eq_ix0 (Shape.Idx.first hu)]
  exact congrArg (init ix0 + ·) (Finset.sum_congr rfl fun p _ => congrArg x (lift_pairs16 h b d p))

end Cert.ReferenceIdeal.AfmRead

end
-- ==== Proof.RefReadSoftmax.lean ====
/-
  The softmax over the 325 pairs, read at a pair.

  The row maximum is a reduction from minus infinity, joined once more with minus infinity, and broadcast
  back along the pairs; the exponentials of the shifted scores are summed from zero and each is divided by
  the sum.  At pair p of sample b this is the specification's softmax weight over that sample's scores.
-/
import proofs.«122830_j89627377532987_2_alg».proof.Proof.RefTerm
import proofs.«122830_j89627377532987_2_alg».proof.Proof.AfmSpec
import proofs.«122830_j89627377532987_2_alg».proof.Proof.RefReadReduce
import proofs.«122830_j89627377532987_2_alg».proof.Proof.RefReadLayout

noncomputable section

open scoped BigOperators

namespace Cert.ReferenceIdeal.AfmRead

open Cert.ReferenceIdeal Idealize.ShloMosaic Idealize.ShloMosaic.ValueIdx

variable [Facts]
open Cert.ReferenceIdeal.Facts₀ Cert.ReferenceIdeal.Facts

/-- The f32 word of minus infinity is the least extended real. -/
theorem ofBits_neg_inf_f32 : Ideal.ofBits .f32 0xFF800000#32 = (⊥ : EReal) := by simp [Ideal.ofBits, Ideal.ieee]

/-- The largest score of sample b, as every pair of that sample reads it: the fold of max from minus
    infinity over the 325 scores (the further maximum with minus infinity changes nothing). -/
theorem rowMaxOf_apply (z : FVec Ideal S4096x325x1 .f32) (b : Fin 4096) (p : Fin 325) :
    RefTerm.rowMaxOf (F := Ideal) z (ix3 b p 0) = Cert.Afm.rowMax (fun q => z (ix3 b q 0)) := by
  unfold RefTerm.rowMaxOf
  beta_reduce
  rw [perSample_apply, maximumf_apply, broadcastInDim_scalar_apply, constant_apply, reduceMax_pairs_apply, constant_apply,
    ofBits_neg_inf_f32]
  exact max_bot_left _

/-- The exponential of a score less its sample's largest. -/
theorem expOf_apply (z : FVec Ideal S4096x325x1 .f32) (b : Fin 4096) (p : Fin 325) :
    RefTerm.expOf (F := Ideal) z (ix3 b p 0)
      = Ideal.exp (z (ix3 b p 0) - Cert.Afm.rowMax (fun q => z (ix3 b q 0))) := by
  unfold RefTerm.expOf
  beta_reduce
  show Ideal.exp (subf z (RefTerm.rowMaxOf (F := Ideal) z) (ix3 b p 0)) = _
  rw [subf_apply, rowMaxOf_apply]

/-- The softmax weight of pair p among the 325 pairs of sample b. -/
theorem softmaxOf_apply (z : FVec Ideal S4096x325x1 .f32) (b : Fin 4096) (p : Fin 325) :
    RefTerm.softmaxOf (F := Ideal) z (ix3 b p 0) = Cert.Afm.score (fun q => z (ix3 b q 0)) p := by
  unfold RefTerm.softmaxOf
  beta_reduce
  rw [hostDivf_apply, perSample_apply, reduceAdd_pairs1_apply, constant_apply, Ideal.ofBits_zero_f32, zero_add]
  simp only [expOf_apply]
  rfl

end Cert.ReferenceIdeal.AfmRead

end
-- ==== Proof.RefReadOut.lean ====
/-
  The last stretch of the reference, read at a sample: pooling, projection, and the logistic function.

  The softmax weights are broadcast over the 16 coordinates, multiplied into the pairs' products, and summed
  over the pairs from zero; the result is projected on a column.  The final quotient 1 / (1 + exp (-y)) is
  the logistic function as the ideal instance defines it.
-/
import proofs.«122830_j89627377532987_2_alg».proof.Proof.RefTerm
import proofs.«122830_j89627377532987_2_alg».proof.Proof.AfmSpec
import proofs.«122830_j89627377532987_2_alg».proof.Proof.RefReadDot
import proofs.«122830_j89627377532987_2_alg».proof.Proof.RefReadReduce
import proofs.«122830_j89627377532987_2_alg».proof.Proof.RefReadLayout

noncomputable section

open scoped BigOperators

namespace Cert.ReferenceIdeal.AfmRead

open Cert.ReferenceIdeal Idealize.ShloMosaic Idealize.ShloMosaic.ValueIdx

variable [Facts]
open Cert.ReferenceIdeal.Facts₀ Cert.ReferenceIdeal.Facts

/-- The pooled and projected term of sample b: the pairs' products weighted by s and summed over the pairs,
    each coordinate against its projection weight. -/
theorem poolOf_apply (s : FVec Ideal S4096x325x1 .f32) (w : FVec Ideal S4096x325x16 .f32) (a6 : FVec Ideal S16x1 .f32)
    (b : Fin 4096) :
    RefTerm.poolOf (F := Ideal) s w a6 (ix2 b 0)
      = ∑ d : Fin 16, (∑ p : Fin 325, s (ix3 b p 0) * w (ix3 b p d)) * a6 (ix2 d 0) := by
  unfold RefTerm.poolOf
  beta_reduce
  rw [dot_project_apply]
  refine Finset.sum_congr rfl fun d _ => ?_
  rw [reduceAdd_pairs16_apply, constant_apply, Ideal.ofBits_zero_f32, zero_add]
  refine congrArg (· * a6 (ix2 d 0)) (Finset.sum_congr rfl fun p _ => ?_)
  rw [mulf_apply, perPair_apply]

/-- One over one plus the exponential of the negation is the logistic function. -/
theorem logisticOf_apply (y : FVec Ideal S4096x1 .f32) (b : Fin 4096) :
    RefTerm.logisticOf (F := Ideal) y (ix2 b 0) = Ideal.logistic (y (ix2 b 0)) := by
  unfold RefTerm.logisticOf
  beta_reduce
  rw [hostDivf_apply, broadcastInDim_scalar_apply, constant_apply, addf_apply, broadcastInDim_scalar_apply, constant_apply,
    Ideal.ofBits_one_f32]
  rfl

end Cert.ReferenceIdeal.AfmRead

end
-- ==== Proof.RefRead.lean ====
/-
  The reference's result, read at a sample, is the specification's value for that sample.

  The stages are read one after the other: the products of pairs of fields, the attention scores, their
  softmax, the pooled and projected term, the linear term, and the logistic function.  The embedding lookup
  is left as it is: the statement is about whatever 26 vectors it returned for the sample.
-/
import proofs.«122830_j89627377532987_2_alg».proof.Proof.RefTerm
import proofs.«122830_j89627377532987_2_alg».proof.Proof.AfmSpec
import proofs.«122830_j89627377532987_2_alg».proof.Proof.RefReadEwp
import proofs.«122830_j89627377532987_2_alg».proof.Proof.RefReadLin
import proofs.«122830_j89627377532987_2_alg».proof.Proof.RefReadLogit
import proofs.«122830_j89627377532987_2_alg».proof.Proof.RefReadSoftmax
import proofs.«122830_j89627377532987_2_alg».proof.Proof.RefReadOut

noncomputable section

open scoped BigOperators

namespace Cert.ReferenceIdeal.AfmRead

open Cert.ReferenceIdeal Idealize.ShloMosaic Idealize.ShloMosaic.ValueIdx

variable [Facts]
open Cert.ReferenceIdeal.Facts₀ Cert.ReferenceIdeal.Facts

/-- THE REFERENCE AT A SAMPLE.  Entry (b, 0) of the reference's result is the model's output for sample b:
    the specification applied to the sample's dense features, its 26 embedded fields (whatever the lookup
    returned), and the weights read by their coordinates. -/
theorem refOut_apply (a0 : (⟨S4096x13, .f32⟩ : BufTy).Contents (Elt Ideal)) (a1 : (⟨S4096x26, .i32⟩ : BufTy).Contents (Elt Ideal))
    (a2 : (⟨S26x100000x16, .f32⟩ : BufTy).Contents (Elt Ideal)) (a3 : (⟨S16x16, .f32⟩ : BufTy).Contents (Elt Ideal))
    (a4 : (⟨S16, .f32⟩ : BufTy).Contents (Elt Ideal)) (a5 a6 : (⟨S16x1, .f32⟩ : BufTy).Contents (Elt Ideal))
    (a7 : (⟨S13x1, .f32⟩ : BufTy).Contents (Elt Ideal)) (a8 : (⟨S416x1, .f32⟩ : BufTy).Contents (Elt Ideal))
    (a9 : (⟨S1, .f32⟩ : BufTy).Contents (Elt Ideal)) (b : Fin 4096) :
    RefTerm.refOut (F := Ideal) a0 a1 a2 a3 a4 a5 a6 a7 a8 a9 (ix2 b 0)
      = Cert.Afm.sample (fun n => a0 (ix2 b n)) (fun f d => RefTerm.embOf (F := Ideal) a1 a2 (ix3 b f d))
          (fun d a => a3 (ix2 d a)) (fun a => a4 (ix1 a)) (fun a => a5 (ix2 a 0)) (fun d => a6 (ix2 d 0))
          (fun n => a7 (ix2 n 0)) (fun f d => a8 (ix2 (⟨16 * f.val + d.val, by omega⟩ : Fin 416) 0)) (a9 (ix1 0)) := by
  unfold RefTerm.refOut
  generalize RefTerm.embOf (F := Ideal) a1 a2 = E
  rw [logisticOf_apply, addf_apply, poolOf_apply, linOf_apply]
  simp only [softmaxOf_apply, logitOf_ewpOf_apply, ewpOf_apply]
  rfl

end Cert.ReferenceIdeal.AfmRead

end
-- ==== Proof.lean ====
/-
  The certificate's proof.

  The kernel computes the Attentional Factorization Machine's forward pass with the samples on the lanes of sixteen
  blocks of 256, from embedding rows gathered before the region; the reference computes it sample-major on the host.
  Both results are, sample by sample, the one function `Cert.Afm.sample` (AfmSpec.lean) of the sample's dense
  features, its 26 gathered embedding rows and the weights: the kernel's by what its body leaves in a lane (the
  scratch of pairwise products read back as one function, then the attention, softmax, pooling and linear terms read
  at a lane), its blocks tiling the result row, and the final transpose; the reference's by reading its host
  operations at an index.  The laws that join the two are commutativity and associativity of sum and product on the
  extended reals, `0 + x = x`, `max ⊥ x = x`, and re-indexing of finite sums (the 416 = 26 · 16 linear weights; the
  325 pairs listed row by row of the triangle); the gather that selects the embedding rows is the same chain of
  operations in both programs and is never opened.  The ideal pass rewrote nothing, so `preserves` is `True`; the
  three frames are the two generated frame certificates and the reference's run with its result dropped.
-/
import proofs.«122830_j89627377532987_2_alg».proof.Defs
import proofs.«122830_j89627377532987_2_alg».proof.Proof.Gen.Kernel
import proofs.«122830_j89627377532987_2_alg».proof.Proof.Gen.Kernel.Frame
import proofs.«122830_j89627377532987_2_alg».proof.Proof.Gen.KernelIdeal
import proofs.«122830_j89627377532987_2_alg».proof.Proof.Gen.KernelIdeal.Frame
import proofs.«122830_j89627377532987_2_alg».proof.Proof.Gen.ReferenceIdeal
import proofs.«122830_j89627377532987_2_alg».proof.Proof.Gen.Pre_finite_inputs
import proofs.«122830_j89627377532987_2_alg».proof.Proof.KValue
import proofs.«122830_j89627377532987_2_alg».proof.Proof.BodyRun
import proofs.«122830_j89627377532987_2_alg».proof.Proof.BodyValue
import proofs.«122830_j89627377532987_2_alg».proof.Proof.RefRun
import proofs.«122830_j89627377532987_2_alg».proof.Proof.RefRead
import Idealize.ShloMosaic.Adequacy
import Idealize.ShloMosaic.Init

noncomputable section

namespace Cert.Proof

open Idealize.ShloMosaic Idealize.SL.Sem Idealize.ShloMosaic.ValueIdx

/-- What the kernel's body leaves in a lane: the scratch read back is the table of pairwise products, and the rest
    of the body, read at the lane, is the forward pass over that table. -/
theorem bodyFact : Cert.KernelIdeal.AfmValue.BodyFact :=
  fun c i arg1 harg1 arg2 harg2 arg3 harg3 arg4 harg4 arg5 harg5 arg6 harg6 arg7 harg7 arg8 harg8 arg9 harg9 arg10 harg10 arg11 harg11
      x0 x1 x2 x3 x4 x5 x6 x7 x8 l =>
    (congrFun (Cert.KernelIdeal.AfmBody.out_eq (F := Ideal) c i arg1 harg1 arg2 harg2 arg3 harg3 arg4 harg4 arg5 harg5 arg6 harg6 arg7 harg7
      arg8 harg8 arg9 harg9 arg10 harg10 arg11 harg11 x0 x1 x2 x3 x4 x5 x6 x7 x8) (ix2 0 l)).trans
      (Cert.KernelIdeal.AfmBody.kTail_apply (Cert.KernelIdeal.AfmBody.scratch x0) x0 x1 x2 x3 x4 x5 x6 x7 x8
        (Cert.KernelIdeal.AfmBody.scratch_apply x0) l)

/-- The chain of integer operations and the gather that select the embedding rows is the same term in both programs. -/
theorem embOf_eq (a1 : (⟨Cert.KernelIdeal.S4096x26, .i32⟩ : BufTy).Contents (Elt Ideal))
    (a2 : (⟨Cert.KernelIdeal.S26x100000x16, .f32⟩ : BufTy).Contents (Elt Ideal)) :
    Cert.ReferenceIdeal.RefTerm.embOf (F := Ideal) a1 a2 = Cert.KernelIdeal.AfmHost.embOf (F := Ideal) a1 a2 := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.AfmRun.run (F := Ideal) m ρ)

/-- Both programs end with the forward pass of every sample in the result column. -/
theorem algebraic : Cert.algebraic_KernelIdeal_ReferenceIdeal := by
  intro m ρ m' ρ' _ hagree
  refine ⟨fun c => Cert.KernelIdeal.AfmValue.result m c, Cert.KernelIdeal.AfmValue.run m ρ bodyFact, ?_⟩
  refine (θ_run Cert.ReferenceIdeal.defs _ _).mono (fun _ h c => ⟨(h c).1.trans ?_, (h c).2⟩)
    (Cert.ReferenceIdeal.AfmRun.run (F := Ideal) m' ρ')
  obtain ⟨g0, g1, g2, g3, g4, g5, g6, g7, g8, g9⟩ := hagree c
  rw [g0, g1, g2, g3, g4, g5, g6, g7, g8, g9]
  funext j
  obtain ⟨b, u, rfl⟩ : ∃ (b : Fin 4096) (u : Fin 1), j = ix2 b u := ⟨j 0, j 1, eq_ix2 j⟩
  obtain rfl : u = 0 := Subsingleton.elim _ _
  refine (Cert.ReferenceIdeal.AfmRead.refOut_apply _ _ _ _ _ _ _ _ _ _ b).trans ?_
  show _ = Cert.KernelIdeal.AfmValue.rowOf m c b
  unfold Cert.KernelIdeal.AfmValue.rowOf Cert.KernelIdeal.AfmValue.outRow
  rw [embOf_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
